-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S2x16x2048x64 : Shape := ⟨4, ![2, 16, 2048, 64]⟩
abbrev S1x2048x1024 : Shape := ⟨3, ![1, 2048, 1024]⟩
abbrev S64x1024 : Shape := ⟨2, ![64, 1024]⟩
abbrev S1x1x2048x64 : Shape := ⟨4, ![1, 1, 2048, 64]⟩
abbrev S2048x1024 : Shape := ⟨2, ![2048, 1024]⟩
abbrev S2048x64 : Shape := ⟨2, ![2048, 64]⟩
abbrev S1024x16x64 : Shape := ⟨3, ![1024, 16, 64]⟩
abbrev S16x1024x64 : Shape := ⟨3, ![16, 1024, 64]⟩
abbrev S1x1x256x64 : Shape := ⟨4, ![1, 1, 256, 64]⟩
abbrev S1x1024x64 : Shape := ⟨3, ![1, 1024, 64]⟩
abbrev S2048x1 : Shape := ⟨2, ![2048, 1]⟩
abbrev S256x64 : Shape := ⟨2, ![256, 64]⟩
abbrev S2048x256 : Shape := ⟨2, ![2048, 256]⟩
abbrev S2048 : Shape := ⟨1, ![2048]⟩
abbrev S1024x64 : Shape := ⟨2, ![1024, 64]⟩

abbrev nBuf : Space → Nat
  | .hbm => 12
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x2048x1024, .bf16⟩
  | .hbm, ⟨6, _⟩ => ⟨S2x16x2048x64, .bf16⟩
  | .hbm, ⟨7, _⟩ => ⟨S2x16x2048x64, .bf16⟩
  | .hbm, ⟨8, _⟩ => ⟨S2x16x2048x64, .bf16⟩
  | .hbm, ⟨9, _⟩ => ⟨S1024x16x64, .f32⟩
  | .hbm, ⟨10, _⟩ => ⟨S16x1024x64, .f32⟩
  | .hbm, ⟨11, _⟩ => ⟨S2x2048x1024, .f32⟩
  | .local _ .vmem, ⟨0, _⟩ => ⟨S1x2048x1024, .bf16⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x256x64, .bf16⟩
  | .local _ .vmem, ⟨15, _⟩ => ⟨S1x1x256x64, .bf16⟩
  | .local _ .vmem, ⟨16, _⟩ => ⟨S1x1x256x64, .bf16⟩
  | .local _ .vmem, ⟨17, _⟩ => ⟨S1x1x256x64, .bf16⟩
  | .local _ .vmem, ⟨18, _⟩ => ⟨S1x1024x64, .f32⟩
  | .local _ .vmem, ⟨19, _⟩ => ⟨S1x2048x1024, .f32⟩
  | .local _ .vmem, ⟨20, _⟩ => ⟨S1x2048x1024, .f32⟩
  | .local _ .vmem, ⟨21, _⟩ => ⟨S2048x1, .f32⟩
  | .local _ .vmem, ⟨22, _⟩ => ⟨S2048x1, .f32⟩
  | .local _ .vmem, ⟨23, _⟩ => ⟨S2048x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 16, 8], ![false, false, false]⟩

def k1_cond2 (i : grid1.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond3 (i : grid1.Coords) : BitVec 1 :=
  let arg2 : BitVec 32 := BitVec.ofNat 32 (i 2).val
  let c7_i32 : BitVec 32 := 7#32
  let v47 : BitVec 1 := Scalar.cmpi .eq arg2 c7_i32
  let v48 : BitVec 32 := Scalar.extui v47
  let c0_i32_33 : BitVec 32 := 0#32
  let v49 : BitVec 1 := Scalar.cmpi .ne v48 c0_i32_33
  v49

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1x2048x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true, false]

abbrev stage1_1 : Fin 2 → Memref sig .tc .vmem S1x1x256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S1x1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 2 → Memref sig .tc .vmem S1x2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S64x1024_S64x1024_0_0 : ∀ a, (![0, 0] : Fin 2 → Nat) a + S64x1024.size a ≤ S64x1024.size a
  h_S64x1024 : 0 < S64x1024.numel
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  packedbf16_S1x1x2048x64_S1x1x2048x64_0_0_0_0 : (Rect.unit (s := S1x1x2048x64) ![0, 0, 0, 0] S1x1x2048x64.size inb_S1x1x2048x64_S1x1x2048x64_0_0_0_0).PackedRows (EltTy.packing .bf16)
  shapeCasts_S1024x1024_S1024x16x64 : S1024x1024.ShapeCasts S1024x16x64
  transposes_S1024x16x64_S16x1024x64_1_0_2 : S1024x16x64.Transposes [1, 0, 2] S16x1024x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S2048x1024_S1x2048x1024 : S2048x1024.ShapeCasts S1x2048x1024
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  reduces_S2048x256_S2048 : S2048x256.Reduces [1] S2048
  shapeCasts_S2048_S2048x1 : S2048.ShapeCasts S2048x1
  broadcasts_S2048x1_S2048x256 : S2048x1.Broadcasts S2048x256
  broadcasts_S2048x1_S2048x64 : S2048x1.Broadcasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  dot_S2048x1024_S64x1024_S2048x64_1_1_0_0_n_n_wf : DotDims.WF S2048x1024 S64x1024 S2048x64 [1] [1] [0] [0] [] []
  dot_S2048x64_S256x64_S2048x256_1_1_0_0_n_n_wf : DotDims.WF S2048x64 S256x64 S2048x256 [1] [1] [0] [0] [] []
  dot_S2048x256_S256x64_S2048x64_1_0_0_1_n_n_wf : DotDims.WF S2048x256 S256x64 S2048x64 [1] [0] [0] [1] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .bf16 = 32 ∨ (Rect.block (s := S2x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S1024x1024.size a
  hwx0_1 : ∀ i : grid0.Coords, EltTy.bits .f32 = 32 ∨ (Rect.block (s := S1024x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S1024x1024.size a
  hwx0_2 : ∀ i : grid0.Coords, EltTy.bits .f32 = 32 ∨ (Rect.block (s := S1024x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S1024x1024.size a
  hwx0_3 : ∀ i : grid0.Coords, EltTy.bits .f32 = 32 ∨ (Rect.block (s := S1024x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x64.size a ≤ S2x16x2048x64.size a
  hwx0_4 : ∀ i : grid0.Coords, EltTy.bits .bf16 = 32 ∨ (Rect.block (s := S2x16x2048x64) S1x1x2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x64.size a ≤ S2x16x2048x64.size a
  hwx0_5 : ∀ i : grid0.Coords, EltTy.bits .bf16 = 32 ∨ (Rect.block (s := S2x16x2048x64) S1x1x2048x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048x64.size a ≤ S2x16x2048x64.size a
  hwx0_6 : ∀ i : grid0.Coords, EltTy.bits .bf16 = 32 ∨ (Rect.block (s := S2x16x2048x64) S1x1x2048x64.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S2x16x2048x64.size a
  hwx1_0 : ∀ i : grid1.Coords, EltTy.bits .bf16 = 32 ∨ (Rect.block (s := S2x16x2048x64) S1x1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256x64.size a ≤ S2x16x2048x64.size a
  hwx1_1 : ∀ i : grid1.Coords, EltTy.bits .bf16 = 32 ∨ (Rect.block (s := S2x16x2048x64) S1x1x256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256x64.size a ≤ S2x16x2048x64.size a
  hwx1_2 : ∀ i : grid1.Coords, EltTy.bits .bf16 = 32 ∨ (Rect.block (s := S2x16x2048x64) S1x1x256x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S16x1024x64.size a
  hwx1_3 : ∀ i : grid1.Coords, EltTy.bits .f32 = 32 ∨ (Rect.block (s := S16x1024x64) S1x1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S2x2048x1024.size a
  hwx1_4 : ∀ i : grid1.Coords, EltTy.bits .f32 = 32 ∨ (Rect.block (s := S2x2048x1024) S1x2048x1024.size (cc1_transform_4 i) (hinb1_4 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S2048x64_S256x64_S2048x256_1_1_0_0_n_n : DotDims S2048x64 S256x64 S2048x256 where
  lhsContracting := [1]
  rhsContracting := [1]
  lhsNonContracting := [0]
  rhsNonContracting := [0]
  lhsBatch := []
  rhsBatch := []
  wf := dot_S2048x64_S256x64_S2048x256_1_1_0_0_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x1x2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_0) S1x1x2048x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x1x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x1x256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) && !(k1_cond3 i == 1#1) | ⟨_ + 5, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x2048x1024, .f32⟩
  | .hbm, ⟨6, _⟩ => ⟨S2x2048x16x64, .f32⟩
  | .hbm, ⟨7, _⟩ => ⟨S2x16x2048x64, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2x16x2048x2048, .i1⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S_, .f32⟩
  | .hbm, ⟨31, _⟩ => ⟨S2x16x2048, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S_, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x64, .f32⟩
  | .hbm, ⟨43, _⟩ => ⟨S2x2048x16x64, .f32⟩
  | .hbm, ⟨44, _⟩ => ⟨S2x2048x1024, .f32⟩
  | .hbm, ⟨45, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KRegion0.lean ====
/- REGION 0 of @main (custom_call 0, the q/k/v projection kernel, grid 2 x 16), at a PARAMETER V — the
   TensorCore's buffer contents when the region is entered. Each window's block at a grid point read off V;
   what the body leaves in each of the three output staging buffers as a closed function of the input blocks
   at the point (the one whole-block store's payload laid over the buffer); the body's triple; the pipeline's
   proof data; and the body obligation at every grid point. -/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0 (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (it is fetched
    only where the first grid coordinate moves: unfetched, the block index has not moved), for any proof data
    whose array is V's and whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same of input window 3. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of the whole block -/

abbrev r0_0 : Rect S1x2048x1024 := Rect.unit (s := S1x2048x1024) ![0, 0, 0] S1x2048x1024.size inb_S1x2048x1024_S1x2048x1024_0_0_0
abbrev r0_1 : Rect S64x1024 := Rect.unit (s := S64x1024) ![0, 0] S64x1024.size inb_S64x1024_S64x1024_0_0
abbrev r0_2 : Rect S1x1x2048x64 := Rect.unit (s := S1x1x2048x64) ![0, 0, 0, 0] S1x1x2048x64.size inb_S1x1x2048x64_S1x1x2048x64_0_0_0_0

/-! ## What the body leaves in each output window's buffer -/

/-- Window 4's staging buffer after the body, from the blocks of windows 0 (the activations) and 1 (the first
    weight's 64 rows): its one store as a piece over the buffer; the payload is the rounded product of the two. -/
def out0_4 (x0 : Vec F S1x2048x1024 .bf16) (x1 : Vec F S64x1024 .f32) : Vec F S1x1x2048x64 .bf16 :=
  View.canon [⟨r0_2, k0_pay2 (View.ld x0 r0_0) (View.ld x1 r0_1)⟩]
/-- Window 5's, from the blocks of windows 0 and 2. -/
def out0_5 (x0 : Vec F S1x2048x1024 .bf16) (x2 : Vec F S64x1024 .f32) : Vec F S1x1x2048x64 .bf16 :=
  View.canon [⟨r0_2, k0_pay3 (View.ld x0 r0_0) (View.ld x2 r0_1)⟩]
/-- Window 6's, from the blocks of windows 0 and 3. -/
def out0_6 (x0 : Vec F S1x2048x1024 .bf16) (x3 : Vec F S64x1024 .f32) : Vec F S1x1x2048x64 .bf16 :=
  View.canon [⟨r0_2, k0_pay4 (View.ld x0 r0_0) (View.ld x3 r0_1)⟩]

/-- The one store of an output window is of the whole buffer, so it covers it. -/
theorem cover0_4 (p0 : Vec F S1x1x2048x64 .bf16) (y : S1x1x2048x64.Idx) :
    ∃ pc ∈ ([⟨r0_2, p0⟩] : List (View.Piece (Elt F) S1x1x2048x64 .bf16)), y ∈ pc.1.set :=
  View.cover_of_tiled [⟨r0_2, p0⟩] S1x1x2048x64.size (by rfl) y
theorem cover0_5 (p0 : Vec F S1x1x2048x64 .bf16) (y : S1x1x2048x64.Idx) :
    ∃ pc ∈ ([⟨r0_2, p0⟩] : List (View.Piece (Elt F) S1x1x2048x64 .bf16)), y ∈ pc.1.set :=
  View.cover_of_tiled [⟨r0_2, p0⟩] S1x1x2048x64.size (by rfl) y
theorem cover0_6 (p0 : Vec F S1x1x2048x64 .bf16) (y : S1x1x2048x64.Idx) :
    ∃ pc ∈ ([⟨r0_2, p0⟩] : List (View.Piece (Elt F) S1x1x2048x64 .bf16)), y ∈ pc.1.set :=
  View.cover_of_tiled [⟨r0_2, p0⟩] S1x1x2048x64.size (by rfl) y

/-! ## The body's triple -/

set_option maxHeartbeats 1000000 in
/-- The kernel body on whole staging memrefs, the inputs' at read contents x0..x3 and the outputs' at anything,
    runs to the continuation holding the inputs' as they were and each output's at out0_W of the inputs': the
    function is its skeleton of memory operations over payloads, run operation by operation. -/
theorem sound_kernel0 (c : Dev nD) (E : Set ℕ) (i : grid0.Coords) (arg2 : Memref sig .tc .vmem S1x2048x1024 .bf16) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x1x2048x64 .bf16) (harg6 : arg6.IsWhole) (arg7 : Memref sig .tc .vmem S1x1x2048x64 .bf16) (harg7 : arg7.IsWhole) (arg8 : Memref sig .tc .vmem S1x1x2048x64 .bf16) (harg8 : arg8.IsWhole)
    (x0 : Vec F S1x2048x1024 .bf16) (x1 : Vec F S64x1024 .f32) (x2 : Vec F S64x1024 .f32) (x3 : Vec F S64x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core c: the arrays as the region finds them (V); after the body at point t
    each input's buffer at its block and each output's at out0_W of the input blocks; the invariant that of the
    class (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (before0_W), so sound_kernel0 applies; the
    invariant and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Gen

end
-- ==== Proof.KR1Shared.lean ====
/-
  The second kernel region (the fused attention and output projection; grid (batch, head, key tile) = (2, 16, 8), 256 points
  numbered t = 128·b + 8·h + kv): what every case of its body shares. The body branches three times on the grid point:
  at kv = 0 it resets the running maximum, the running denominator and the running numerator (three scratch buffers);
  at h = 0 and kv = 0 it also zeroes the output block; at kv = 7 it adds this head's contribution to the output block.
  So a point is in one of four cases: A (h = 0, kv = 0), B (h ≠ 0, kv = 0), C (0 < kv < 7), D (kv = 7). Here: the
  windows' blocks read off the arrays as the region finds them, the three branch conditions in closed form over the grid,
  where the output window is idle, the staging and scratch memrefs by name, and the region's invariant opened at the three
  scratch buffers.
-/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, fetched there or not:
    where it is not fetched its block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, fetched there or not:
    where it is not fetched its block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, fetched there or not:
    where it is not fetched its block index has not moved since the last fetch, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every grid point, fetched there or not:
    where it is not fetched its block index has not moved since the last fetch, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The three branch conditions, in closed form over the grid -/

/-- "This is the first key tile": kv = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the first head and the first key tile": h = 0 and kv = 0. -/
abbrev cond1_1 (i : grid1.Coords) : Prop := k1_cond2 i = 1#1
theorem hcond1_1 : ∀ t : Fin cfg1.N, cond1_1 (grid1.coords t) ↔ t.val % 128 = 0 :=
  (by decide +kernel : ∀ t : Fin grid1.N, cond1_1 (grid1.coords t) ↔ t.val % 128 = 0)

/-- "This is the last key tile": kv = 7. -/
abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the body neither zeroes the output block nor adds to it, it stores nothing into it. -/
theorem idleAt1_4 : ∀ t : Fin cfg1.N, ¬cond1_1 (grid1.coords t) → ¬cond1_2 (grid1.coords t) → cfg1.idle 4 (grid1.coords t) = true := by decide +kernel
/-- The output block is written back only after a last key tile. -/
theorem noFlush1_4 : ∀ t : Fin cfg1.N, ¬cond1_2 (grid1.coords t) → (cfg1.win 4).flush t = false := by decide +kernel
theorem liveAt1_4_first : ∀ t : Fin cfg1.N, cond1_1 (grid1.coords t) → cfg1.idle 4 (grid1.coords t) = false := by decide +kernel
theorem liveAt1_4_last : ∀ t : Fin cfg1.N, cond1_2 (grid1.coords t) → cfg1.idle 4 (grid1.coords t) = false := by decide +kernel

/-! ## The memrefs the body is called with -/

/-- One staging buffer of the output window, through which its contents are stated (the choice does not matter). -/
abbrev VO1_4 : View sig .tc .vmem S1x2048x1024 .f32 := (Memref.whole cc1_stg4_0 : Memref sig .tc .vmem S1x2048x1024 .f32).view
abbrev ms1_0 (t : Fin cfg1.N) : Memref sig .tc .vmem S1x1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x256x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x1024 .f32 := win1_4.stage (cfg1.slots t 4)
abbrev hs1_4 (t : Fin cfg1.N) : (ms1_4 t).IsWhole := hstage1_4 ((cfg1.slots t 4).cast nbuf1_4)
/-- The three scratch operands: the running row maximum, the running denominator, the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x64 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x64 .f32 := scM1_2.view

/-! ## The region's invariant opened at the three scratch buffers -/

/-- Every scoped buffer that is neither a staging buffer of this region nor one of its three scratch buffers (the other
    region's staging buffers), each at some contents: carried through the region unopened. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's entry invariant is: the three scratch buffers at some contents, the other scoped buffers unopened, the
    generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL]; try rfl

end Cert.Kernel.Gen

end
-- ==== Proof.KR1RunA.lean ====
/-
  The second kernel's body run whole in case A (first head, first key tile: the scratch buffers are reset and the output block is zeroed): on whole staging and scratch memrefs, the input blocks at their
  contents, the body runs to its end leaving the inputs as they were and each buffer it stores into with its stores
  written, as a list of pieces (last store first) that the run itself finds.
-/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Ring
import Idealize.ShloMosaic.Lib.Tactic
import proofs.«110170_j50130858279277_2_alg».proof.Proof.KR1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces case A leaves in the output block (none where the case does not store into it), the running maximum, the
    running denominator and the running numerator, with the proof that the body, run on buffers holding the stated
    contents, ends with exactly those pieces written. -/
noncomputable def kernelRun1_A (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, ?_, ?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Gen

end
-- ==== Proof.KR1RunB.lean ====
/-
  The second kernel's body run whole in case B (a later head's first key tile: the scratch buffers are reset, the output block is not touched): on whole staging and scratch memrefs, the input blocks at their
  contents, the body runs to its end leaving the inputs as they were and each buffer it stores into with its stores
  written, as a list of pieces (last store first) that the run itself finds.
-/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Ring
import Idealize.ShloMosaic.Lib.Tactic
import proofs.«110170_j50130858279277_2_alg».proof.Proof.KR1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces case B leaves in the output block (none where the case does not store into it), the running maximum, the
    running denominator and the running numerator, with the proof that the body, run on buffers holding the stated
    contents, ends with exactly those pieces written. -/
noncomputable def kernelRun1_B (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Gen

end
-- ==== Proof.KR1RunC.lean ====
/-
  The second kernel's body run whole in case C (a middle key tile: the running maximum, denominator and numerator are updated from what the tile before left): on whole staging and scratch memrefs, the input blocks at their
  contents, the body runs to its end leaving the inputs as they were and each buffer it stores into with its stores
  written, as a list of pieces (last store first) that the run itself finds.
-/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Ring
import Idealize.ShloMosaic.Lib.Tactic
import proofs.«110170_j50130858279277_2_alg».proof.Proof.KR1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces case C leaves in the output block (none where the case does not store into it), the running maximum, the
    running denominator and the running numerator, with the proof that the body, run on buffers holding the stated
    contents, ends with exactly those pieces written. -/
noncomputable def kernelRun1_C (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Gen

end
-- ==== Proof.KR1RunD.lean ====
/-
  The second kernel's body run whole in case D (the last key tile: the running values are updated and this head's normalised output times its slice of the output weights is added to the output block): on whole staging and scratch memrefs, the input blocks at their
  contents, the body runs to its end leaving the inputs as they were and each buffer it stores into with its stores
  written, as a list of pieces (last store first) that the run itself finds.
-/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Ring
import Idealize.ShloMosaic.Lib.Tactic
import proofs.«110170_j50130858279277_2_alg».proof.Proof.KR1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces case D leaves in the output block (none where the case does not store into it), the running maximum, the
    running denominator and the running numerator, with the proof that the body, run on buffers holding the stated
    contents, ends with exactly those pieces written. -/
noncomputable def kernelRun1_D (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, ?_, ?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Gen

end
-- ==== Proof.KR1Frame.lean ====
/-
  The second kernel region's proof data and body obligation. After every grid point the output block's staging buffer and
  the three scratch buffers hold a definite state (output block, running maximum, running denominator, running numerator),
  computed point by point from the case the point is in: case A resets everything, case B resets the scratch and leaves
  the output block as the point before left it, case C updates the scratch from the point before, case D updates the
  scratch and adds to the output block. The region's invariant carries the three scratch buffers at that state; the
  output window, idle at the points of cases B and C, is handed back there as it was found, and at a point of case D
  holds what the last point that stored into it left (the look-back lemma `before1_4`).
-/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Ring
import Idealize.ShloMosaic.Lib.Tactic
import proofs.«110170_j50130858279277_2_alg».proof.Proof.KR1RunA
import proofs.«110170_j50130858279277_2_alg».proof.Proof.KR1RunB
import proofs.«110170_j50130858279277_2_alg».proof.Proof.KR1RunC
import proofs.«110170_j50130858279277_2_alg».proof.Proof.KR1RunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### Case A -/

/-- Case A's stores into the output block tile it, so they cover it. -/
theorem cover1_A_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S1x2048x1024.Idx) :
    ∃ pc ∈ (kernelRun1_A c i arg3 harg3 arg4 harg4 arg5 harg5 arg6 harg6 arg7 harg7 arg8 harg8 arg9 harg9 arg10 harg10 hc0 hc1 hc2 x0 x1 x2 x3).1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).1 S1x2048x1024.size (by sl_kernel_rfl) y

/-- What case A leaves in the output block: its pieces read back. -/
def out1_A_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S1x2048x1024 .f32 :=
  VO1_4.read (Elt F) (VO1_4.writes (Elt F) VO1_4.junk (kernelRun1_A c i arg3 harg3 arg4 harg4 arg5 harg5 arg6 harg6 arg7 harg7 arg8 harg8 arg9 harg9 arg10 harg10 hc0 hc1 hc2 x0 x1 x2 x3).1)

/-- Case A's stores into the running maximum tile it, so they cover it. -/
theorem scover1_A_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_A c i arg3 harg3 arg4 harg4 arg5 harg5 arg6 harg6 arg7 harg7 arg8 harg8 arg9 harg9 arg10 harg10 hc0 hc1 hc2 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.1 S2048x1.size (by sl_kernel_rfl) y

/-- What case A leaves in the running maximum: its pieces read back. -/
def sout1_A_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 hc2 x0 x1 x2 x3).2.1)

/-- Case A's stores into the running denominator tile it, so they cover it. -/
theorem scover1_A_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_A c i arg3 harg3 arg4 harg4 arg5 harg5 arg6 harg6 arg7 harg7 arg8 harg8 arg9 harg9 arg10 harg10 hc0 hc1 hc2 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.2.1 S2048x1.size (by sl_kernel_rfl) y

/-- What case A leaves in the running denominator: its pieces read back. -/
def sout1_A_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 hc2 x0 x1 x2 x3).2.2.1)

/-- Case A's stores into the running numerator tile it, so they cover it. -/
theorem scover1_A_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x64.Idx) :
    ∃ pc ∈ (kernelRun1_A c i arg3 harg3 arg4 harg4 arg5 harg5 arg6 harg6 arg7 harg7 arg8 harg8 arg9 harg9 arg10 harg10 hc0 hc1 hc2 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.2.2.1 S2048x64.size (by sl_kernel_rfl) y

/-- What case A leaves in the running numerator: its pieces read back. -/
def sout1_A_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x64 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 hc2 x0 x1 x2 x3).2.2.2.1)

/-! ### Case B -/

/-- Case B's stores into the running maximum tile it, so they cover it. -/
theorem scover1_B_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_B c i arg3 harg3 arg4 harg4 arg5 harg5 arg6 harg6 arg7 harg7 arg8 harg8 arg9 harg9 arg10 harg10 hc0 hc1 hc2 x0 x1 x2 x3).2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3).2.1 S2048x1.size (by sl_kernel_rfl) y

/-- What case B leaves in the running maximum: its pieces read back. -/
def sout1_B_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 hc2 x0 x1 x2 x3).2.1)

/-- Case B's stores into the running denominator tile it, so they cover it. -/
theorem scover1_B_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_B c i arg3 harg3 arg4 harg4 arg5 harg5 arg6 harg6 arg7 harg7 arg8 harg8 arg9 harg9 arg10 harg10 hc0 hc1 hc2 x0 x1 x2 x3).2.2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3).2.2.1 S2048x1.size (by sl_kernel_rfl) y

/-- What case B leaves in the running denominator: its pieces read back. -/
def sout1_B_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 hc2 x0 x1 x2 x3).2.2.1)

/-- Case B's stores into the running numerator tile it, so they cover it. -/
theorem scover1_B_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x64.Idx) :
    ∃ pc ∈ (kernelRun1_B c i arg3 harg3 arg4 harg4 arg5 harg5 arg6 harg6 arg7 harg7 arg8 harg8 arg9 harg9 arg10 harg10 hc0 hc1 hc2 x0 x1 x2 x3).2.2.2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3).2.2.2.1 S2048x64.size (by sl_kernel_rfl) y

/-- What case B leaves in the running numerator: its pieces read back. -/
def sout1_B_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x64 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 hc2 x0 x1 x2 x3).2.2.2.1)

/-! ### Case C -/

/-- Case C's stores into the running maximum tile it, so they cover it. -/
theorem scover1_C_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 hc2 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 hc0 hc1 hc2 x0 x1 x2 x3 xs0 xs1 xs2).2.1 S2048x1.size (by sl_kernel_rfl) y

/-- What case C leaves in the running maximum: its pieces read back. -/
def sout1_C_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 hc2 x0 x1 x2 x3 xs0 xs1 xs2).2.1)

/-- Case C's stores into the running denominator tile it, so they cover it. -/
theorem scover1_C_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 hc2 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 hc0 hc1 hc2 x0 x1 x2 x3 xs0 xs1 xs2).2.2.1 S2048x1.size (by sl_kernel_rfl) y

/-- What case C leaves in the running denominator: its pieces read back. -/
def sout1_C_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 hc2 x0 x1 x2 x3 xs0 xs1 xs2).2.2.1)

/-- Case C's stores into the running numerator tile it, so they cover it. -/
theorem scover1_C_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) (y : S2048x64.Idx) :
    ∃ pc ∈ (kernelRun1_C c i arg3 harg3 arg4 harg4 arg5 harg5 arg6 harg6 arg7 harg7 arg8 harg8 arg9 harg9 arg10 harg10 hc0 hc1 hc2 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 hc0 hc1 hc2 x0 x1 x2 x3 xs0 xs1 xs2).2.2.2.1 S2048x64.size (by sl_kernel_rfl) y

/-- What case C leaves in the running numerator: its pieces read back. -/
def sout1_C_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 hc2 x0 x1 x2 x3 xs0 xs1 xs2).2.2.2.1)

/-! ### Case D -/

/-- Case D's stores into the output block tile it, so they cover it. -/
theorem cover1_D_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S1x2048x1024.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).1 S1x2048x1024.size (by sl_kernel_rfl) y

/-- What case D leaves in the output block: its pieces read back. -/
def out1_D_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S1x2048x1024 .f32 :=
  VO1_4.read (Elt F) (VO1_4.writes (Elt F) VO1_4.junk (kernelRun1_D c i arg3 harg3 arg4 harg4 arg5 harg5 arg6 harg6 arg7 harg7 arg8 harg8 arg9 harg9 arg10 harg10 hc0 hc1 hc2 x0 x1 x2 x3 xo4 xs0 xs1 xs2).1)

/-- Case D's stores into the running maximum tile it, so they cover it. -/
theorem scover1_D_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S2048x1.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).2.1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).2.1 S2048x1.size (by sl_kernel_rfl) y

/-- What case D leaves in the running maximum: its pieces read back. -/
def sout1_D_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_D c i arg3 harg3 arg4 harg4 arg5 harg5 arg6 harg6 arg7 harg7 arg8 harg8 arg9 harg9 arg10 harg10 hc0 hc1 hc2 x0 x1 x2 x3 xo4 xs0 xs1 xs2).2.1)

/-- Case D's stores into the running denominator tile it, so they cover it. -/
theorem scover1_D_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S2048x1.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).2.2.1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).2.2.1 S2048x1.size (by sl_kernel_rfl) y

/-- What case D leaves in the running denominator: its pieces read back. -/
def sout1_D_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_D c i arg3 harg3 arg4 harg4 arg5 harg5 arg6 harg6 arg7 harg7 arg8 harg8 arg9 harg9 arg10 harg10 hc0 hc1 hc2 x0 x1 x2 x3 xo4 xs0 xs1 xs2).2.2.1)

/-- Case D's stores into the running numerator tile it, so they cover it. -/
theorem scover1_D_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S2048x64.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).2.2.2.1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).2.2.2.1 S2048x64.size (by sl_kernel_rfl) y

/-- What case D leaves in the running numerator: its pieces read back. -/
def sout1_D_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_D c i arg3 harg3 arg4 harg4 arg5 harg5 arg6 harg6 arg7 harg7 arg8 harg8 arg9 harg9 arg10 harg10 hc0 hc1 hc2 x0 x1 x2 x3 xo4 xs0 xs1 xs2).2.2.2.1)

/-! ## The state after each point -/

section State
variable (V : (c : Dev nD) → (b : Ref sig .tc) → Buf (Elt F) ((c : Thread nD τ).loc b))

/-- After a point of case A: everything freshly stored. -/
def stA (c : Dev nD) (t : Fin cfg1.N) (h1 : t.val % 128 = 0) : Vec F S1x2048x1024 .f32 × Vec F S2048x1 .f32 × Vec F S2048x1 .f32 × Vec F S2048x64 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t))

/-- After a point of case B: the scratch freshly stored, the output block as the point before left it. -/
def stB (c : Dev nD) (t : Fin cfg1.N) (h0 : t.val % 8 = 0) (h1 : ¬t.val % 128 = 0) (p : Vec F S1x2048x1024 .f32 × Vec F S2048x1 .f32 × Vec F S2048x1 .f32 × Vec F S2048x64 .f32) : Vec F S1x2048x1024 .f32 × Vec F S2048x1 .f32 × Vec F S2048x1 .f32 × Vec F S2048x64 .f32 :=
  (p.1,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t),
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t),
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t))

/-- After a point of case C: the scratch updated from the point before, the output block as the point before left it. -/
def stC (c : Dev nD) (t : Fin cfg1.N) (h0 : ¬t.val % 8 = 0) (h2 : ¬t.val % 8 = 7) (p : Vec F S1x2048x1024 .f32 × Vec F S2048x1 .f32 × Vec F S2048x1 .f32 × Vec F S2048x64 .f32) : Vec F S1x2048x1024 .f32 × Vec F S2048x1 .f32 × Vec F S2048x1 .f32 × Vec F S2048x64 .f32 :=
  (p.1,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) p.2.1 p.2.2.1 p.2.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) p.2.1 p.2.2.1 p.2.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) p.2.1 p.2.2.1 p.2.2.2)

/-- After a point of case D: the scratch updated and the output block added to, both from the point before. -/
def stD (c : Dev nD) (t : Fin cfg1.N) (h2 : t.val % 8 = 7) (p : Vec F S1x2048x1024 .f32 × Vec F S2048x1 .f32 × Vec F S2048x1 .f32 × Vec F S2048x64 .f32) : Vec F S1x2048x1024 .f32 × Vec F S2048x1 .f32 × Vec F S2048x1 .f32 × Vec F S2048x64 .f32 :=
  (out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2,
   sout1_D_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2,
   sout1_D_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2,
   sout1_D_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2)

/-- THE STATE after the body at position `n`: the case of the point, over the state the point before left. -/
def stAt (c : Dev nD) : (n : ℕ) → n < cfg1.N → Vec F S1x2048x1024 .f32 × Vec F S2048x1 .f32 × Vec F S2048x1 .f32 × Vec F S2048x64 .f32
  | 0, hn => stA V c ⟨0, hn⟩ (Nat.zero_mod _)
  | n + 1, hn =>
    if h1 : (n + 1) % 128 = 0 then stA V c ⟨n + 1, hn⟩ h1
    else if h0 : (n + 1) % 8 = 0 then stB V c ⟨n + 1, hn⟩ h0 h1 (stAt c n (Nat.lt_of_succ_lt hn))
    else if h2 : (n + 1) % 8 = 7 then stD V c ⟨n + 1, hn⟩ h2 (stAt c n (Nat.lt_of_succ_lt hn))
    else stC V c ⟨n + 1, hn⟩ h0 h2 (stAt c n (Nat.lt_of_succ_lt hn))

theorem stAt_A (c : Dev nD) (t : Fin cfg1.N) (h1 : t.val % 128 = 0) : stAt V c t.val t.isLt = stA V c t h1 := by
  obtain ⟨n, hn⟩ := t
  cases n with
  | zero => exact rfl
  | succ n => exact (dif_pos h1).trans rfl

theorem stAt_B (c : Dev nD) (t : Fin cfg1.N) (h0 : t.val % 8 = 0) (h1 : ¬t.val % 128 = 0) :
    stAt V c t.val t.isLt = stB V c t h0 h1 (stAt V c (t.val - 1) (Nat.lt_of_le_of_lt (Nat.sub_le _ _) t.isLt)) := by
  obtain ⟨n, hn⟩ := t
  cases n with
  | zero => exact absurd (Nat.zero_mod _) h1
  | succ n => exact (dif_neg h1).trans ((dif_pos h0).trans rfl)

theorem stAt_C (c : Dev nD) (t : Fin cfg1.N) (h0 : ¬t.val % 8 = 0) (h2 : ¬t.val % 8 = 7) :
    stAt V c t.val t.isLt = stC V c t h0 h2 (stAt V c (t.val - 1) (Nat.lt_of_le_of_lt (Nat.sub_le _ _) t.isLt)) := by
  obtain ⟨n, hn⟩ := t
  cases n with
  | zero => exact absurd (Nat.zero_mod _) h0
  | succ n => exact (dif_neg (fun h => h0 (by dsimp only at h ⊢; omega))).trans ((dif_neg h0).trans ((dif_neg h2).trans rfl))

theorem stAt_D (c : Dev nD) (t : Fin cfg1.N) (h2 : t.val % 8 = 7) :
    stAt V c t.val t.isLt = stD V c t h2 (stAt V c (t.val - 1) (Nat.lt_of_le_of_lt (Nat.sub_le _ _) t.isLt)) := by
  obtain ⟨n, hn⟩ := t
  cases n with
  | zero => exact absurd h2 (by show ¬(0 % 8 = 7); decide)
  | succ n => exact (dif_neg (fun h => by dsimp only at h h2; omega)).trans ((dif_neg (fun h => by dsimp only at h h2; omega)).trans ((dif_pos h2).trans rfl))

/-- Cases B and C leave the state's output block as they found it. -/
theorem stB_fst (c : Dev nD) (t : Fin cfg1.N) (h0 : t.val % 8 = 0) (h1 : ¬t.val % 128 = 0) (p : Vec F S1x2048x1024 .f32 × Vec F S2048x1 .f32 × Vec F S2048x1 .f32 × Vec F S2048x64 .f32) :
    (stB V c t h0 h1 p).1 = p.1 := by
  unfold stB; dsimp only
theorem stC_fst (c : Dev nD) (t : Fin cfg1.N) (h0 : ¬t.val % 8 = 0) (h2 : ¬t.val % 8 = 7) (p : Vec F S1x2048x1024 .f32 × Vec F S2048x1 .f32 × Vec F S2048x1 .f32 × Vec F S2048x64 .f32) :
    (stC V c t h0 h2 p).1 = p.1 := by
  unfold stC; dsimp only

/-- At a point that does not store into the output block, the block is as the point before left it. -/
theorem stAt_idle_fst (c : Dev nD) (t : Fin cfg1.N) (h1 : ¬t.val % 128 = 0) (h2 : ¬t.val % 8 = 7) :
    (stAt V c t.val t.isLt).1 = (stAt V c (t.val - 1) (Nat.lt_of_le_of_lt (Nat.sub_le _ _) t.isLt)).1 := by
  by_cases h0 : t.val % 8 = 0
  · rw [stAt_B V c t h0 h1, stB_fst]
  · rw [stAt_C V c t h0 h2, stC_fst]

/-! ## The invariant: the three scratch buffers at the state the point before left -/

def PhiS (c : Dev nD) : (n : ℕ) → n ≤ cfg1.N → sProp 𝕄
  | 0, _ => Pipeline.ΦA spec1 c
  | n + 1, hn => iprop(iprop(iprop(owns (c : Thread nD τ) scM1_0 fullShare (stAt V c n hn).2.1 ∗ owns (c : Thread nD τ) scM1_1 fullShare (stAt V c n hn).2.2.1 ∗ owns (c : Thread nD τ) scM1_2 fullShare (stAt V c n hn).2.2.2) ∗ others1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare (stAt V c n hn).2.1 ∗ owns (c : Thread nD τ) scM1_1 fullShare (stAt V c n hn).2.2.1 ∗ owns (c : Thread nD τ) scM1_2 fullShare (stAt V c n hn).2.2.2) ∗ others1 c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare (stAt V c (n - 1) (by omega)).2.1 ∗ owns (c : Thread nD τ) scM1_1 fullShare (stAt V c (n - 1) (by omega)).2.2.1 ∗ owns (c : Thread nD τ) scM1_2 fullShare (stAt V c (n - 1) (by omega)).2.2.2) ∗ others1 c) ∗ (∃ r, prngReg c r)) := by
  cases n with
  | zero => exact absurd rfl hz
  | succ n => rfl

/-! ## The proof data -/

/-- The region's proof data on core `c`: the arrays as the region finds them; after the body at point `t` each input's
    buffer at its block and the output's at the state's first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (stAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (stAt V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- THE LOOK-BACK. At a point that is not the first of a batch, the output window's current staging buffer holds the
    state's output block as the point before left it: the block was not written back in between, and through a run of
    points that store nothing into it the buffer keeps what the last storing point left. -/
theorem before1_4 (c : Dev nD) : ∀ (n : ℕ) (hn : n < cfg1.N), n % 128 ≠ 0 → ∀ d,
    (dat1 V c).before 4 ⟨n, hn⟩ d = (stAt V c (n - 1) (Nat.lt_of_le_of_lt (Nat.sub_le _ _) hn)).1 := by
  intro n
  induction n using Nat.strong_induction_on with
  | _ n ih =>
    intro hn hne d
    have hN : n < 256 := lt_of_lt_of_eq hn (show cfg1.N = 256 from N_1)
    have hpos : n ≠ 0 := fun h => hne (by rw [h])
    have hn' : n - 1 < cfg1.N := Nat.lt_of_le_of_lt (Nat.sub_le _ _) hn
    rw [(dat1 V c).before_of_pos 4 ⟨n, hn⟩ hpos ((cfg1.win 4).fetch_out rfl _) d]
    have hfl : (cfg1.win 4).flush ⟨n - 1, hn'⟩ = false :=
      Bool.eq_false_iff.mpr fun h => by have := (flush1_4 _).mp h; dsimp only at this; omega
    rw [hfl, if_neg Bool.false_ne_true]
    unfold Dat.left
    by_cases h1 : (n - 1) % 128 = 0
    · rw [liveAt1_4_first ⟨n - 1, hn'⟩ ((hcond1_1 _).mpr h1)]
      dsimp only
      unfold Dat.kept
      rw [Pipeline.fill_of_clip_none 4 _ (fun _ => rfl) d ((dat1 V c).after 4 ⟨n - 1, hn'⟩) ((dat1 V c).after 4 ⟨n - 1, hn'⟩), Window.fill_cut, after1_4]
    · by_cases h2 : (n - 1) % 8 = 7
      · rw [liveAt1_4_last ⟨n - 1, hn'⟩ ((hcond1_2 _).mpr h2)]
        dsimp only
        unfold Dat.kept
        rw [Pipeline.fill_of_clip_none 4 _ (fun _ => rfl) d ((dat1 V c).after 4 ⟨n - 1, hn'⟩) ((dat1 V c).after 4 ⟨n - 1, hn'⟩), Window.fill_cut, after1_4]
      · rw [idleAt1_4 ⟨n - 1, hn'⟩ (fun h => h1 ((hcond1_1 _).mp h)) (fun h => h2 ((hcond1_2 _).mp h))]
        dsimp only
        rw [ih (n - 1) (by omega) hn' h1 d]
        exact (stAt_idle_fst V c ⟨n - 1, hn'⟩ h1 h2).symm

end State

end Cert.Kernel.Gen

end
-- ==== Proof.KR1Body.lean ====
/-
  The second kernel region's body obligation: at every grid point the body, called with the region's invariant, the core's
  dues and each window's current staging buffer at what it holds there, runs to the end and hands back the invariant at
  the next point and each buffer at what the proof data say it leaves. The point's case is read off its number; the
  invariant hands the body the three scratch buffers (at anything before the very first point, afterwards at the state the
  point before left) and takes them back at the state this point leaves.
-/
import proofs.«110170_j50130858279277_2_alg».proof.Proof.Gen.Kernel.Launch
import proofs.«110170_j50130858279277_2_alg».proof.Proof.Gen.Kernel.Skeleton
import proofs.«110170_j50130858279277_2_alg».proof.Proof.Gen.Kernel.Points
import Idealize.ShloMosaic.Lib.Pipeline.FrameBody
import Idealize.ShloMosaic.Lib.Ring
import Idealize.ShloMosaic.Lib.Tactic
import proofs.«110170_j50130858279277_2_alg».proof.Proof.KR1Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

theorem before1_4' (c : Dev nD) (t : Fin cfg1.N) (h : t.val % 128 ≠ 0) (d) :
    (dat1 V c).before 4 t d = (stAt V c (t.val - 1) (Nat.lt_of_le_of_lt (Nat.sub_le _ _) t.isLt)).1 :=
  before1_4 V c t.val t.isLt h d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 128 = 0
  · -- case A: first head, first key tile
    rw [show (dat1 V c).leavesExact 4 t = owns (c : Thread nD τ) (ms1_4 t) fullShare ((dat1 V c).after 4 t) from by
      unfold Dat.leavesExact; rw [liveAt1_4_first t ((hcond1_1 t).mpr h1)], after1_4]
    rw [stAt_A V c t h1]
    unfold stA out1_A_4 sout1_A_0 sout1_A_1 sout1_A_2; (try dsimp only)
    by_cases hz : t.val = 0
    · rw [PhiS_castSucc V c t, PhiS_zero V c _ _ hz, PhiA1_eq]
      iintro ⟨⟨⟨⟨HS0, HS1, HS2⟩, HO⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HO Hg]
      · isplitl [HS0 HS1 HS2 HO]
        · isplitl [HS0 HS1 HS2]
          · isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _)
          iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 _ _ _ _ _ _ _ _ _ _ _ _ _ _ _ _ _ _ _ _ _ _ _ _ _)
    · rw [PhiS_castSucc V c t, PhiS_pos V c _ _ hz]
      iintro ⟨⟨⟨⟨HS0, HS1, HS2⟩, HO⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      iintro ⟨H0, H1, H2, H3, ⟨%e4, H4⟩, ⟨%es0, HS0⟩, ⟨%es1, HS1⟩, ⟨%es2, HS2⟩⟩
      isplitl [HS0 HS1 HS2 HO Hg]
      · isplitl [HS0 HS1 HS2 HO]
        · isplitl [HS0 HS1 HS2]
          · isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _)
          iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 _ _ _ _ _ _ _ _ _ _ _ _ _ _ _ _ _ _ _ _ _ _ _ _ _)
  · have hz : t.val ≠ 0 := fun h => h1 (by rw [h])
    rw [PhiS_castSucc V c t, PhiS_pos V c _ _ hz]
    by_cases h2 : t.val % 8 = 7
    · -- case D: last key tile
      rw [show (dat1 V c).leavesExact 4 t = owns (c : Thread nD τ) (ms1_4 t) fullShare ((dat1 V c).after 4 t) from by
        unfold Dat.leavesExact; rw [liveAt1_4_last t ((hcond1_2 t).mpr h2)], after1_4]
      simp only [before1_4' V c t h1]
      rw [stAt_D V c t h2]
      unfold stD out1_D_4 sout1_D_0 sout1_D_1 sout1_D_2; (try dsimp only)
      iintro ⟨⟨⟨⟨HS0, HS1, HS2⟩, HO⟩, Hg⟩, Ho, ⟨%d0, H0⟩, ⟨%d1, H1⟩, ⟨%d2, H2⟩, ⟨%d3, H3⟩, ⟨%d4, H4⟩⟩
      iapply ((kernelRun1_D c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HO Hg]
      · isplitl [HS0 HS1 HS2 HO]
        · isplitl [HS0 HS1 HS2]
          · isplitl [HS0]
            · unfold owns; iexists _; isplitr
              swap; · iexact HS0
              ipureintro; exact View.read_writes_of_cover _ _ _ _ _ (scover1_D_0 _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_D_1 _ _ _ _ _ _ _ _ _ _ _ _ _ _ _ _ _ _ _ _ _ _ _ _ _ _ _ _ _)
            unfold owns; iexists _; isplitr
            swap; · iexact HS2
            ipureintro; exact View.read_writes_of_cover _ _ _ _ _ (scover1_D_2 _ _ _ _ _ _ _ _ _ _ _ _ _ _ _ _ _ _ _ _ _ _ _ _ _ _ _ _ _)
          iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_D_4 _ _ _ _ _ _ _ _ _ _ _ _ _ _ _ _ _ _ _ _ _ _ _ _ _ _ _ _ _)
    · have hidle := Dat.leavesExact_idle (dat1 V c) 4 t (idleAt1_4 t (fun h => h1 ((hcond1_1 t).mp h)) (fun h => h2 ((hcond1_2 t).mp h))) (noFlush1_4 t (fun h => h2 ((hcond1_2 t).mp h)))
      rw [hidle]
      by_cases h0 : t.val % 8 = 0
      · -- case B: a later head's first key tile
        rw [stAt_B V c t h0 h1]
        unfold stB sout1_B_0 sout1_B_1 sout1_B_2; (try dsimp only)
        iintro ⟨⟨⟨⟨HS0, HS1, HS2⟩, HO⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              · unfold owns; iexists _; isplitr
                swap; · iexact HS0
                ipureintro; exact View.read_writes_of_cover _ _ _ _ _ (scover1_B_0 _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 _ _ _ _ _ _ _ _ _ _ _ _ _ _ _ _ _ _ _ _ _ _ _ _ _)
              unfold owns; iexists _; isplitr
              swap; · iexact HS2
              ipureintro; exact View.read_writes_of_cover _ _ _ _ _ (scover1_B_2 _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        iexists _; iexact H4
      · -- case C: a middle key tile
        rw [stAt_C V c t h0 h2]
        unfold stC sout1_C_0 sout1_C_1 sout1_C_2; (try dsimp only)
        iintro ⟨⟨⟨⟨HS0, HS1, HS2⟩, HO⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              · unfold owns; iexists _; isplitr
                swap; · iexact HS0
                ipureintro; exact View.read_writes_of_cover _ _ _ _ _ (scover1_C_0 _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 _ _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, HO⟩, Hg⟩
  isplitl [HS0 HS1 HS2 HO]
  · isplitl [HS0 HS1 HS2]
    · isplitl [HS0]; · iexists _; iexact HS0
      isplitl [HS1]; · iexists _; iexact HS1
      iexists _; iexact HS2
    iexact HO
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Body

end Cert.Kernel.Gen

end
-- ==== Proof.KAssembly.lean ====
/- THE RUN of @main through both kernel regions: the buffer contents at every segment boundary as a fold from the
   launch memory (a host stretch's results; a region's arrays at what its write-backs leave, every other buffer as
   entered), each argument array read back through the fold to its launch contents, the two pipelines' proof data each at
   its region's entry contents, a host segment per stretch and a region segment per kernel over the thread state
   "every unscoped buffer at the boundary's contents, the generator register at some state, nothing owed", and the run:
   every weakly fair execution terminates and every final memory holds every unscoped buffer at the last boundary's
   contents; hence the five arguments end as launched, and the result array ends at what region 1's write-backs leave. -/
import proofs.«110170_j50130858279277_2_alg».proof.Proof.KRegion0
import proofs.«110170_j50130858279277_2_alg».proof.Proof.KR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (a region reads it through an
    input window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### The result array, and what region 1 is entered with -/

/-- The result array ends at what region 1's write-backs leave in it. -/
theorem W4_main_v4 (c : Dev nD) : W4 m ρ c (Proc.devRef .tc main_v4) = (dat1 (V3 m ρ) c).arrAt 4 cfg1.N :=
  W4_arr m ρ c 4

/-- Region 1 is entered with region 0's three output arrays as region 0 left them: the second host stretch writes
    none of them. -/
theorem V3_main_v1_0 (c : Dev nD) : V3 m ρ c main_v1_0 = (dat0 (V1 m ρ) c).arrAt 4 cfg0.N :=
  (StableHlo.after_of_forall_not_mem (b := Proc.devRef .tc main_v1_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 4)
theorem V3_main_v1_1 (c : Dev nD) : V3 m ρ c main_v1_1 = (dat0 (V1 m ρ) c).arrAt 5 cfg0.N :=
  (StableHlo.after_of_forall_not_mem (b := Proc.devRef .tc main_v1_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 5)
theorem V3_main_v1_2 (c : Dev nD) : V3 m ρ c main_v1_2 = (dat0 (V1 m ρ) c).arrAt 6 cfg0.N :=
  (StableHlo.after_of_forall_not_mem (b := Proc.devRef .tc main_v1_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 6)

/-- Region 0 is entered with the weights as launched: the first host stretch writes none of them. -/
theorem V1_main_arg1 (c : Dev nD) : V1 m ρ c main_arg1 = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_main_arg2 (c : Dev nD) : V1 m ρ c main_arg2 = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_main_arg3 (c : Dev nD) : V1 m ρ c main_arg3 = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- … and with the activations rounded to the narrower format. -/
theorem V1_main_v0 (c : Dev nD) : (V1 m ρ c main_v0 : S2x2048x1024.Idx → Elt F .bf16)
    = truncf .bf16 (m ((c : Thread nD τ).loc main_arg0) : S2x2048x1024.Idx → Elt F .f32) bitsLt_bf16_f32 := by
  show StableHlo.after hostOps0 (W0 m ρ c) (Proc.devRef .tc main_v0) = _
  after_results

/-- Region 1 is entered with the last weight viewed [1024, 16, 64] and its first two axes exchanged. -/
theorem V3_main_v3 (c : Dev nD) : (V3 m ρ c main_v3 : S16x1024x64.Idx → Elt F .f32)
    = transpose S16x1024x64 [1, 0, 2] (shapeCast S1024x16x64 (m ((c : Thread nD τ).loc main_arg4) : S1024x1024.Idx → Elt F .f32) shapeCasts_S1024x1024_S1024x16x64) transposes_S1024x16x64_S16x1024x64_1_0_2 := by
  show StableHlo.after hostOps1 (W2 m ρ c) (Proc.devRef .tc main_v3) = _
  after_results
  have e : W2 m ρ c (Proc.devRef .tc main_arg4) = m ((c : Thread nD τ).loc main_arg4) :=
    (W2_of_ne m ρ c main_arg4 (by decide)).trans (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  rw [e]
  rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owes, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at W1, left at W2. Its arrays split out of the
    unscoped buffers and put back at the exit contents; the generator register into the class invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at W4. Its invariant carries the
    kernel's three scratch buffers from point to point: it starts from the class invariant and ends in it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    show _ ⊢ (dat1 (V3 m ρ) c).Φ 0
    iintro ⟨Hp, -, Hr⟩
    iapply h
    isplitl [Hr]; · iexact Hr
    iexact Hp
  hout c := by
    have h := hout1 (V3 m ρ) c
    unfold Pipeline.ΦA at h
    rw [Pipeline.ownSems0_none]
    show (dat1 (V3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates and every final state has the five argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The result array at the end of the run: what region 1's write-backs leave in it. -/
theorem run_result : θ_run defs (onTc (τ := τ) (main (F := F))) ⟨m, fun _ => 0, ρ⟩ (fun r => ∀ c : Dev nD,
      r.2.mem ((c.tc : Thread nD τ).loc main_v4) = (dat1 (V3 m ρ) c).arrAt 4 cfg1.N) :=
  (θ_run defs _ _).mono (fun r h c => (h c _ (mem_uc main_v4 (by decide))).trans (W4_main_v4 m ρ c)) (run_all m ρ)

end Cert.Kernel.Gen

end
-- ==== Proof.Region0.lean ====
/- REGION 0 of @main (custom_call 0, the q/k/v projection kernel, grid 2 x 16), at a PARAMETER V — the
   TensorCore's buffer contents when the region is entered. Each window's block at a grid point read off V;
   what the body leaves in each of the three output staging buffers as a closed function of the input blocks
   at the point (the one whole-block store's payload laid over the buffer); the body's triple; the pipeline's
   proof data; and the body obligation at every grid point. -/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0 (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (it is fetched
    only where the first grid coordinate moves: unfetched, the block index has not moved), for any proof data
    whose array is V's and whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same of input window 3. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of the whole block -/

abbrev r0_0 : Rect S1x2048x1024 := Rect.unit (s := S1x2048x1024) ![0, 0, 0] S1x2048x1024.size inb_S1x2048x1024_S1x2048x1024_0_0_0
abbrev r0_1 : Rect S64x1024 := Rect.unit (s := S64x1024) ![0, 0] S64x1024.size inb_S64x1024_S64x1024_0_0
abbrev r0_2 : Rect S1x1x2048x64 := Rect.unit (s := S1x1x2048x64) ![0, 0, 0, 0] S1x1x2048x64.size inb_S1x1x2048x64_S1x1x2048x64_0_0_0_0

/-! ## What the body leaves in each output window's buffer -/

/-- Window 4's staging buffer after the body, from the blocks of windows 0 (the activations) and 1 (the first
    weight's 64 rows): its one store as a piece over the buffer; the payload is the rounded product of the two. -/
def out0_4 (x0 : Vec F S1x2048x1024 .bf16) (x1 : Vec F S64x1024 .f32) : Vec F S1x1x2048x64 .bf16 :=
  View.canon [⟨r0_2, k0_pay2 (View.ld x0 r0_0) (View.ld x1 r0_1)⟩]
/-- Window 5's, from the blocks of windows 0 and 2. -/
def out0_5 (x0 : Vec F S1x2048x1024 .bf16) (x2 : Vec F S64x1024 .f32) : Vec F S1x1x2048x64 .bf16 :=
  View.canon [⟨r0_2, k0_pay3 (View.ld x0 r0_0) (View.ld x2 r0_1)⟩]
/-- Window 6's, from the blocks of windows 0 and 3. -/
def out0_6 (x0 : Vec F S1x2048x1024 .bf16) (x3 : Vec F S64x1024 .f32) : Vec F S1x1x2048x64 .bf16 :=
  View.canon [⟨r0_2, k0_pay4 (View.ld x0 r0_0) (View.ld x3 r0_1)⟩]

/-- The one store of an output window is of the whole buffer, so it covers it. -/
theorem cover0_4 (p0 : Vec F S1x1x2048x64 .bf16) (y : S1x1x2048x64.Idx) :
    ∃ pc ∈ ([⟨r0_2, p0⟩] : List (View.Piece (Elt F) S1x1x2048x64 .bf16)), y ∈ pc.1.set :=
  View.cover_of_tiled [⟨r0_2, p0⟩] S1x1x2048x64.size (by rfl) y
theorem cover0_5 (p0 : Vec F S1x1x2048x64 .bf16) (y : S1x1x2048x64.Idx) :
    ∃ pc ∈ ([⟨r0_2, p0⟩] : List (View.Piece (Elt F) S1x1x2048x64 .bf16)), y ∈ pc.1.set :=
  View.cover_of_tiled [⟨r0_2, p0⟩] S1x1x2048x64.size (by rfl) y
theorem cover0_6 (p0 : Vec F S1x1x2048x64 .bf16) (y : S1x1x2048x64.Idx) :
    ∃ pc ∈ ([⟨r0_2, p0⟩] : List (View.Piece (Elt F) S1x1x2048x64 .bf16)), y ∈ pc.1.set :=
  View.cover_of_tiled [⟨r0_2, p0⟩] S1x1x2048x64.size (by rfl) y

/-! ## The body's triple -/

set_option maxHeartbeats 1000000 in
/-- The kernel body on whole staging memrefs, the inputs' at read contents x0..x3 and the outputs' at anything,
    runs to the continuation holding the inputs' as they were and each output's at out0_W of the inputs': the
    function is its skeleton of memory operations over payloads, run operation by operation. -/
theorem sound_kernel0 (c : Dev nD) (E : Set ℕ) (i : grid0.Coords) (arg2 : Memref sig .tc .vmem S1x2048x1024 .bf16) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x1x2048x64 .bf16) (harg6 : arg6.IsWhole) (arg7 : Memref sig .tc .vmem S1x1x2048x64 .bf16) (harg7 : arg7.IsWhole) (arg8 : Memref sig .tc .vmem S1x1x2048x64 .bf16) (harg8 : arg8.IsWhole)
    (x0 : Vec F S1x2048x1024 .bf16) (x1 : Vec F S64x1024 .f32) (x2 : Vec F S64x1024 .f32) (x3 : Vec F S64x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core c: the arrays as the region finds them (V); after the body at point t
    each input's buffer at its block and each output's at out0_W of the input blocks; the invariant that of the
    class (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (before0_W), so sound_kernel0 applies; the
    invariant and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Gen

end
-- ==== Proof.R1Shared.lean ====
/-
  The second kernel region (the fused attention and output projection; grid (batch, head, key tile) = (2, 16, 8), 256 points
  numbered t = 128·b + 8·h + kv): what every case of its body shares. The body branches three times on the grid point:
  at kv = 0 it resets the running maximum, the running denominator and the running numerator (three scratch buffers);
  at h = 0 and kv = 0 it also zeroes the output block; at kv = 7 it adds this head's contribution to the output block.
  So a point is in one of four cases: A (h = 0, kv = 0), B (h ≠ 0, kv = 0), C (0 < kv < 7), D (kv = 7). Here: the
  windows' blocks read off the arrays as the region finds them, the three branch conditions in closed form over the grid,
  where the output window is idle, the staging and scratch memrefs by name, and the region's invariant opened at the three
  scratch buffers.
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, fetched there or not:
    where it is not fetched its block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, fetched there or not:
    where it is not fetched its block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, fetched there or not:
    where it is not fetched its block index has not moved since the last fetch, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every grid point, fetched there or not:
    where it is not fetched its block index has not moved since the last fetch, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The three branch conditions, in closed form over the grid -/

/-- "This is the first key tile": kv = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the first head and the first key tile": h = 0 and kv = 0. -/
abbrev cond1_1 (i : grid1.Coords) : Prop := k1_cond2 i = 1#1
theorem hcond1_1 : ∀ t : Fin cfg1.N, cond1_1 (grid1.coords t) ↔ t.val % 128 = 0 :=
  (by decide +kernel : ∀ t : Fin grid1.N, cond1_1 (grid1.coords t) ↔ t.val % 128 = 0)

/-- "This is the last key tile": kv = 7. -/
abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the body neither zeroes the output block nor adds to it, it stores nothing into it. -/
theorem idleAt1_4 : ∀ t : Fin cfg1.N, ¬cond1_1 (grid1.coords t) → ¬cond1_2 (grid1.coords t) → cfg1.idle 4 (grid1.coords t) = true := by decide +kernel
/-- The output block is written back only after a last key tile. -/
theorem noFlush1_4 : ∀ t : Fin cfg1.N, ¬cond1_2 (grid1.coords t) → (cfg1.win 4).flush t = false := by decide +kernel
theorem liveAt1_4_first : ∀ t : Fin cfg1.N, cond1_1 (grid1.coords t) → cfg1.idle 4 (grid1.coords t) = false := by decide +kernel
theorem liveAt1_4_last : ∀ t : Fin cfg1.N, cond1_2 (grid1.coords t) → cfg1.idle 4 (grid1.coords t) = false := by decide +kernel

/-! ## The memrefs the body is called with -/

/-- One staging buffer of the output window, through which its contents are stated (the choice does not matter). -/
abbrev VO1_4 : View sig .tc .vmem S1x2048x1024 .f32 := (Memref.whole cc1_stg4_0 : Memref sig .tc .vmem S1x2048x1024 .f32).view
abbrev ms1_0 (t : Fin cfg1.N) : Memref sig .tc .vmem S1x1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x256x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x1024 .f32 := win1_4.stage (cfg1.slots t 4)
abbrev hs1_4 (t : Fin cfg1.N) : (ms1_4 t).IsWhole := hstage1_4 ((cfg1.slots t 4).cast nbuf1_4)
/-- The three scratch operands: the running row maximum, the running denominator, the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x64 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x64 .f32 := scM1_2.view

/-! ## The region's invariant opened at the three scratch buffers -/

/-- Every scoped buffer that is neither a staging buffer of this region nor one of its three scratch buffers (the other
    region's staging buffers), each at some contents: carried through the region unopened. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's entry invariant is: the three scratch buffers at some contents, the other scoped buffers unopened, the
    generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL]; try rfl

end Cert.KernelIdeal.Gen

end
-- ==== Proof.R1RunA.lean ====
/-
  The second kernel's body run whole in case A (first head, first key tile: the scratch buffers are reset and the output block is zeroed): on whole staging and scratch memrefs, the input blocks at their
  contents, the body runs to its end leaving the inputs as they were and each buffer it stores into with its stores
  written, as a list of pieces (last store first) that the run itself finds.
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces case A leaves in the output block (none where the case does not store into it), the running maximum, the
    running denominator and the running numerator, with the proof that the body, run on buffers holding the stated
    contents, ends with exactly those pieces written. -/
noncomputable def kernelRun1_A (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, ?_, ?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Gen

end
-- ==== Proof.R1RunB.lean ====
/-
  The second kernel's body run whole in case B (a later head's first key tile: the scratch buffers are reset, the output block is not touched): on whole staging and scratch memrefs, the input blocks at their
  contents, the body runs to its end leaving the inputs as they were and each buffer it stores into with its stores
  written, as a list of pieces (last store first) that the run itself finds.
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces case B leaves in the output block (none where the case does not store into it), the running maximum, the
    running denominator and the running numerator, with the proof that the body, run on buffers holding the stated
    contents, ends with exactly those pieces written. -/
noncomputable def kernelRun1_B (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Gen

end
-- ==== Proof.R1RunC.lean ====
/-
  The second kernel's body run whole in case C (a middle key tile: the running maximum, denominator and numerator are updated from what the tile before left): on whole staging and scratch memrefs, the input blocks at their
  contents, the body runs to its end leaving the inputs as they were and each buffer it stores into with its stores
  written, as a list of pieces (last store first) that the run itself finds.
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces case C leaves in the output block (none where the case does not store into it), the running maximum, the
    running denominator and the running numerator, with the proof that the body, run on buffers holding the stated
    contents, ends with exactly those pieces written. -/
noncomputable def kernelRun1_C (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (xi4 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Gen

end
-- ==== Proof.R1RunD.lean ====
/-
  The second kernel's body run whole in case D (the last key tile: the running values are updated and this head's normalised output times its slice of the output weights is added to the output block): on whole staging and scratch memrefs, the input blocks at their
  contents, the body runs to its end leaving the inputs as they were and each buffer it stores into with its stores
  written, as a list of pieces (last store first) that the run itself finds.
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces case D leaves in the output block (none where the case does not store into it), the running maximum, the
    running denominator and the running numerator, with the proof that the body, run on buffers holding the stated
    contents, ends with exactly those pieces written. -/
noncomputable def kernelRun1_D (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, ?_, ?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Gen

end
-- ==== Proof.R1Frame.lean ====
/-
  The second kernel region's proof data and body obligation. After every grid point the output block's staging buffer and
  the three scratch buffers hold a definite state (output block, running maximum, running denominator, running numerator),
  computed point by point from the case the point is in: case A resets everything, case B resets the scratch and leaves
  the output block as the point before left it, case C updates the scratch from the point before, case D updates the
  scratch and adds to the output block. The region's invariant carries the three scratch buffers at that state; the
  output window, idle at the points of cases B and C, is handed back there as it was found, and at a point of case D
  holds what the last point that stored into it left (the look-back lemma `before1_4`).
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1RunA
import proofs.«110170_j50130858279277_2_alg».proof.Proof.R1RunB
import proofs.«110170_j50130858279277_2_alg».proof.Proof.R1RunC
import proofs.«110170_j50130858279277_2_alg».proof.Proof.R1RunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### Case A -/

/-- Case A's stores into the output block tile it, so they cover it. -/
theorem cover1_A_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S1x2048x1024.Idx) :
    ∃ pc ∈ (kernelRun1_A c i arg3 harg3 arg4 harg4 arg5 harg5 arg6 harg6 arg7 harg7 arg8 harg8 arg9 harg9 arg10 harg10 hc0 hc1 hc2 x0 x1 x2 x3).1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).1 S1x2048x1024.size (by sl_kernel_rfl) y

/-- What case A leaves in the output block: its pieces read back. -/
def out1_A_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S1x2048x1024 .f32 :=
  VO1_4.read (Elt F) (VO1_4.writes (Elt F) VO1_4.junk (kernelRun1_A c i arg3 harg3 arg4 harg4 arg5 harg5 arg6 harg6 arg7 harg7 arg8 harg8 arg9 harg9 arg10 harg10 hc0 hc1 hc2 x0 x1 x2 x3).1)

/-- Case A's stores into the running maximum tile it, so they cover it. -/
theorem scover1_A_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_A c i arg3 harg3 arg4 harg4 arg5 harg5 arg6 harg6 arg7 harg7 arg8 harg8 arg9 harg9 arg10 harg10 hc0 hc1 hc2 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.1 S2048x1.size (by sl_kernel_rfl) y

/-- What case A leaves in the running maximum: its pieces read back. -/
def sout1_A_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 hc2 x0 x1 x2 x3).2.1)

/-- Case A's stores into the running denominator tile it, so they cover it. -/
theorem scover1_A_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_A c i arg3 harg3 arg4 harg4 arg5 harg5 arg6 harg6 arg7 harg7 arg8 harg8 arg9 harg9 arg10 harg10 hc0 hc1 hc2 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.2.1 S2048x1.size (by sl_kernel_rfl) y

/-- What case A leaves in the running denominator: its pieces read back. -/
def sout1_A_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 hc2 x0 x1 x2 x3).2.2.1)

/-- Case A's stores into the running numerator tile it, so they cover it. -/
theorem scover1_A_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x64.Idx) :
    ∃ pc ∈ (kernelRun1_A c i arg3 harg3 arg4 harg4 arg5 harg5 arg6 harg6 arg7 harg7 arg8 harg8 arg9 harg9 arg10 harg10 hc0 hc1 hc2 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 hc2 x0 x1 x2 x3).2.2.2.1 S2048x64.size (by sl_kernel_rfl) y

/-- What case A leaves in the running numerator: its pieces read back. -/
def sout1_A_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x64 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 hc2 x0 x1 x2 x3).2.2.2.1)

/-! ### Case B -/

/-- Case B's stores into the running maximum tile it, so they cover it. -/
theorem scover1_B_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_B c i arg3 harg3 arg4 harg4 arg5 harg5 arg6 harg6 arg7 harg7 arg8 harg8 arg9 harg9 arg10 harg10 hc0 hc1 hc2 x0 x1 x2 x3).2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3).2.1 S2048x1.size (by sl_kernel_rfl) y

/-- What case B leaves in the running maximum: its pieces read back. -/
def sout1_B_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 hc2 x0 x1 x2 x3).2.1)

/-- Case B's stores into the running denominator tile it, so they cover it. -/
theorem scover1_B_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x1.Idx) :
    ∃ pc ∈ (kernelRun1_B c i arg3 harg3 arg4 harg4 arg5 harg5 arg6 harg6 arg7 harg7 arg8 harg8 arg9 harg9 arg10 harg10 hc0 hc1 hc2 x0 x1 x2 x3).2.2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3).2.2.1 S2048x1.size (by sl_kernel_rfl) y

/-- What case B leaves in the running denominator: its pieces read back. -/
def sout1_B_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 hc2 x0 x1 x2 x3).2.2.1)

/-- Case B's stores into the running numerator tile it, so they cover it. -/
theorem scover1_B_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (y : S2048x64.Idx) :
    ∃ pc ∈ (kernelRun1_B c i arg3 harg3 arg4 harg4 arg5 harg5 arg6 harg6 arg7 harg7 arg8 harg8 arg9 harg9 arg10 harg10 hc0 hc1 hc2 x0 x1 x2 x3).2.2.2.1, y ∈ pc.1.set :=
  View.cover_of_tiledL (kernelRun1_B c i arg3 harg3 arg4 harg4 arg5 harg5 arg6 harg6 arg7 harg7 arg8 harg8 arg9 harg9 arg10 harg10 hc0 hc1 hc2 x0 x1 x2 x3).2.2.2.1 S2048x64.size (by sl_kernel_rfl) y

/-- What case B leaves in the running numerator: its pieces read back. -/
def sout1_B_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) : Vec F S2048x64 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 hc2 x0 x1 x2 x3).2.2.2.1)

/-! ### Case C -/

/-- Case C's stores into the running maximum tile it, so they cover it. -/
theorem scover1_C_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 hc2 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 hc0 hc1 hc2 x0 x1 x2 x3 xs0 xs1 xs2).2.1 S2048x1.size (by sl_kernel_rfl) y

/-- What case C leaves in the running maximum: its pieces read back. -/
def sout1_C_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 hc2 x0 x1 x2 x3 xs0 xs1 xs2).2.1)

/-- Case C's stores into the running denominator tile it, so they cover it. -/
theorem scover1_C_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) (y : S2048x1.Idx) :
    ∃ pc ∈ (kernelRun1_C c i arg3 harg3 arg4 harg4 arg5 harg5 arg6 harg6 arg7 harg7 arg8 harg8 arg9 harg9 arg10 harg10 hc0 hc1 hc2 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 hc0 hc1 hc2 x0 x1 x2 x3 xs0 xs1 xs2).2.2.1 S2048x1.size (by sl_kernel_rfl) y

/-- What case C leaves in the running denominator: its pieces read back. -/
def sout1_C_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 hc2 x0 x1 x2 x3 xs0 xs1 xs2).2.2.1)

/-- Case C's stores into the running numerator tile it, so they cover it. -/
theorem scover1_C_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) (y : S2048x64.Idx) :
    ∃ pc ∈ (kernelRun1_C c i arg3 harg3 arg4 harg4 arg5 harg5 arg6 harg6 arg7 harg7 arg8 harg8 arg9 harg9 arg10 harg10 hc0 hc1 hc2 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 hc0 hc1 hc2 x0 x1 x2 x3 xs0 xs1 xs2).2.2.2.1 S2048x64.size (by sl_kernel_rfl) y

/-- What case C leaves in the running numerator: its pieces read back. -/
def sout1_C_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 hc2 x0 x1 x2 x3 xs0 xs1 xs2).2.2.2.1)

/-! ### Case D -/

/-- Case D's stores into the output block tile it, so they cover it. -/
theorem cover1_D_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S1x2048x1024.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).1 S1x2048x1024.size (by sl_kernel_rfl) y

/-- What case D leaves in the output block: its pieces read back. -/
def out1_D_4 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S1x2048x1024 .f32 :=
  VO1_4.read (Elt F) (VO1_4.writes (Elt F) VO1_4.junk (kernelRun1_D c i arg3 harg3 arg4 harg4 arg5 harg5 arg6 harg6 arg7 harg7 arg8 harg8 arg9 harg9 arg10 harg10 hc0 hc1 hc2 x0 x1 x2 x3 xo4 xs0 xs1 xs2).1)

/-- Case D's stores into the running maximum tile it, so they cover it. -/
theorem scover1_D_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S2048x1.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).2.1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).2.1 S2048x1.size (by sl_kernel_rfl) y

/-- What case D leaves in the running maximum: its pieces read back. -/
def sout1_D_0 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S2048x1 .f32 :=
  VS1_0.read (Elt F) (VS1_0.writes (Elt F) VS1_0.junk (kernelRun1_D c i arg3 harg3 arg4 harg4 arg5 harg5 arg6 harg6 arg7 harg7 arg8 harg8 arg9 harg9 arg10 harg10 hc0 hc1 hc2 x0 x1 x2 x3 xo4 xs0 xs1 xs2).2.1)

/-- Case D's stores into the running denominator tile it, so they cover it. -/
theorem scover1_D_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S2048x1.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).2.2.1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).2.2.1 S2048x1.size (by sl_kernel_rfl) y

/-- What case D leaves in the running denominator: its pieces read back. -/
def sout1_D_1 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S2048x1 .f32 :=
  VS1_1.read (Elt F) (VS1_1.writes (Elt F) VS1_1.junk (kernelRun1_D c i arg3 harg3 arg4 harg4 arg5 harg5 arg6 harg6 arg7 harg7 arg8 harg8 arg9 harg9 arg10 harg10 hc0 hc1 hc2 x0 x1 x2 x3 xo4 xs0 xs1 xs2).2.2.1)

/-- Case D's stores into the running numerator tile it, so they cover it. -/
theorem scover1_D_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) (y : S2048x64.Idx) :
    ∃ pc ∈ (kernelRun1_D c i arg3 harg3 arg4 harg4 arg5 harg5 arg6 harg6 arg7 harg7 arg8 harg8 arg9 harg9 arg10 harg10 hc0 hc1 hc2 x0 x1 x2 x3 xo4 xs0 xs1 xs2).2.2.2.1, y ∈ pc.1.set :=
  View.cover_of_tiledL (kernelRun1_D c i arg3 harg3 arg4 harg4 arg5 harg5 arg6 harg6 arg7 harg7 arg8 harg8 arg9 harg9 arg10 harg10 hc0 hc1 hc2 x0 x1 x2 x3 xo4 xs0 xs1 xs2).2.2.2.1 S2048x64.size (by sl_kernel_rfl) y

/-- What case D leaves in the running numerator: its pieces read back. -/
def sout1_D_2 (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) : Vec F S2048x64 .f32 :=
  VS1_2.read (Elt F) (VS1_2.writes (Elt F) VS1_2.junk (kernelRun1_D c i arg3 harg3 arg4 harg4 arg5 harg5 arg6 harg6 arg7 harg7 arg8 harg8 arg9 harg9 arg10 harg10 hc0 hc1 hc2 x0 x1 x2 x3 xo4 xs0 xs1 xs2).2.2.2.1)

/-! ## The state after each point -/

section State
variable (V : (c : Dev nD) → (b : Ref sig .tc) → Buf (Elt F) ((c : Thread nD τ).loc b))

/-- After a point of case A: everything freshly stored. -/
def stA (c : Dev nD) (t : Fin cfg1.N) (h1 : t.val % 128 = 0) : Vec F S1x2048x1024 .f32 × Vec F S2048x1 .f32 × Vec F S2048x1 .f32 × Vec F S2048x64 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t))

/-- After a point of case B: the scratch freshly stored, the output block as the point before left it. -/
def stB (c : Dev nD) (t : Fin cfg1.N) (h0 : t.val % 8 = 0) (h1 : ¬t.val % 128 = 0) (p : Vec F S1x2048x1024 .f32 × Vec F S2048x1 .f32 × Vec F S2048x1 .f32 × Vec F S2048x64 .f32) : Vec F S1x2048x1024 .f32 × Vec F S2048x1 .f32 × Vec F S2048x1 .f32 × Vec F S2048x64 .f32 :=
  (p.1,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t),
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t),
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t))

/-- After a point of case C: the scratch updated from the point before, the output block as the point before left it. -/
def stC (c : Dev nD) (t : Fin cfg1.N) (h0 : ¬t.val % 8 = 0) (h2 : ¬t.val % 8 = 7) (p : Vec F S1x2048x1024 .f32 × Vec F S2048x1 .f32 × Vec F S2048x1 .f32 × Vec F S2048x64 .f32) : Vec F S1x2048x1024 .f32 × Vec F S2048x1 .f32 × Vec F S2048x1 .f32 × Vec F S2048x64 .f32 :=
  (p.1,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) p.2.1 p.2.2.1 p.2.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) p.2.1 p.2.2.1 p.2.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) p.2.1 p.2.2.1 p.2.2.2)

/-- After a point of case D: the scratch updated and the output block added to, both from the point before. -/
def stD (c : Dev nD) (t : Fin cfg1.N) (h2 : t.val % 8 = 7) (p : Vec F S1x2048x1024 .f32 × Vec F S2048x1 .f32 × Vec F S2048x1 .f32 × Vec F S2048x64 .f32) : Vec F S1x2048x1024 .f32 × Vec F S2048x1 .f32 × Vec F S2048x1 .f32 × Vec F S2048x64 .f32 :=
  (out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2,
   sout1_D_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2,
   sout1_D_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2,
   sout1_D_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) p.1 p.2.1 p.2.2.1 p.2.2.2)

/-- THE STATE after the body at position `n`: the case of the point, over the state the point before left. -/
def stAt (c : Dev nD) : (n : ℕ) → n < cfg1.N → Vec F S1x2048x1024 .f32 × Vec F S2048x1 .f32 × Vec F S2048x1 .f32 × Vec F S2048x64 .f32
  | 0, hn => stA V c ⟨0, hn⟩ (Nat.zero_mod _)
  | n + 1, hn =>
    if h1 : (n + 1) % 128 = 0 then stA V c ⟨n + 1, hn⟩ h1
    else if h0 : (n + 1) % 8 = 0 then stB V c ⟨n + 1, hn⟩ h0 h1 (stAt c n (Nat.lt_of_succ_lt hn))
    else if h2 : (n + 1) % 8 = 7 then stD V c ⟨n + 1, hn⟩ h2 (stAt c n (Nat.lt_of_succ_lt hn))
    else stC V c ⟨n + 1, hn⟩ h0 h2 (stAt c n (Nat.lt_of_succ_lt hn))

theorem stAt_A (c : Dev nD) (t : Fin cfg1.N) (h1 : t.val % 128 = 0) : stAt V c t.val t.isLt = stA V c t h1 := by
  obtain ⟨n, hn⟩ := t
  cases n with
  | zero => exact rfl
  | succ n => exact (dif_pos h1).trans rfl

theorem stAt_B (c : Dev nD) (t : Fin cfg1.N) (h0 : t.val % 8 = 0) (h1 : ¬t.val % 128 = 0) :
    stAt V c t.val t.isLt = stB V c t h0 h1 (stAt V c (t.val - 1) (Nat.lt_of_le_of_lt (Nat.sub_le _ _) t.isLt)) := by
  obtain ⟨n, hn⟩ := t
  cases n with
  | zero => exact absurd (Nat.zero_mod _) h1
  | succ n => exact (dif_neg h1).trans ((dif_pos h0).trans rfl)

theorem stAt_C (c : Dev nD) (t : Fin cfg1.N) (h0 : ¬t.val % 8 = 0) (h2 : ¬t.val % 8 = 7) :
    stAt V c t.val t.isLt = stC V c t h0 h2 (stAt V c (t.val - 1) (Nat.lt_of_le_of_lt (Nat.sub_le _ _) t.isLt)) := by
  obtain ⟨n, hn⟩ := t
  cases n with
  | zero => exact absurd (Nat.zero_mod _) h0
  | succ n => exact (dif_neg (fun h => h0 (by dsimp only at h ⊢; omega))).trans ((dif_neg h0).trans ((dif_neg h2).trans rfl))

theorem stAt_D (c : Dev nD) (t : Fin cfg1.N) (h2 : t.val % 8 = 7) :
    stAt V c t.val t.isLt = stD V c t h2 (stAt V c (t.val - 1) (Nat.lt_of_le_of_lt (Nat.sub_le _ _) t.isLt)) := by
  obtain ⟨n, hn⟩ := t
  cases n with
  | zero => exact absurd h2 (by show ¬(0 % 8 = 7); decide)
  | succ n => exact (dif_neg (fun h => by dsimp only at h h2; omega)).trans ((dif_neg (fun h => by dsimp only at h h2; omega)).trans ((dif_pos h2).trans rfl))

/-- Cases B and C leave the state's output block as they found it. -/
theorem stB_fst (c : Dev nD) (t : Fin cfg1.N) (h0 : t.val % 8 = 0) (h1 : ¬t.val % 128 = 0) (p : Vec F S1x2048x1024 .f32 × Vec F S2048x1 .f32 × Vec F S2048x1 .f32 × Vec F S2048x64 .f32) :
    (stB V c t h0 h1 p).1 = p.1 := by
  unfold stB; dsimp only
theorem stC_fst (c : Dev nD) (t : Fin cfg1.N) (h0 : ¬t.val % 8 = 0) (h2 : ¬t.val % 8 = 7) (p : Vec F S1x2048x1024 .f32 × Vec F S2048x1 .f32 × Vec F S2048x1 .f32 × Vec F S2048x64 .f32) :
    (stC V c t h0 h2 p).1 = p.1 := by
  unfold stC; dsimp only

/-- At a point that does not store into the output block, the block is as the point before left it. -/
theorem stAt_idle_fst (c : Dev nD) (t : Fin cfg1.N) (h1 : ¬t.val % 128 = 0) (h2 : ¬t.val % 8 = 7) :
    (stAt V c t.val t.isLt).1 = (stAt V c (t.val - 1) (Nat.lt_of_le_of_lt (Nat.sub_le _ _) t.isLt)).1 := by
  by_cases h0 : t.val % 8 = 0
  · rw [stAt_B V c t h0 h1, stB_fst]
  · rw [stAt_C V c t h0 h2, stC_fst]

/-! ## The invariant: the three scratch buffers at the state the point before left -/

def PhiS (c : Dev nD) : (n : ℕ) → n ≤ cfg1.N → sProp 𝕄
  | 0, _ => Pipeline.ΦA spec1 c
  | n + 1, hn => iprop(iprop(iprop(owns (c : Thread nD τ) scM1_0 fullShare (stAt V c n hn).2.1 ∗ owns (c : Thread nD τ) scM1_1 fullShare (stAt V c n hn).2.2.1 ∗ owns (c : Thread nD τ) scM1_2 fullShare (stAt V c n hn).2.2.2) ∗ others1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare (stAt V c n hn).2.1 ∗ owns (c : Thread nD τ) scM1_1 fullShare (stAt V c n hn).2.2.1 ∗ owns (c : Thread nD τ) scM1_2 fullShare (stAt V c n hn).2.2.2) ∗ others1 c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare (stAt V c (n - 1) (by omega)).2.1 ∗ owns (c : Thread nD τ) scM1_1 fullShare (stAt V c (n - 1) (by omega)).2.2.1 ∗ owns (c : Thread nD τ) scM1_2 fullShare (stAt V c (n - 1) (by omega)).2.2.2) ∗ others1 c) ∗ (∃ r, prngReg c r)) := by
  cases n with
  | zero => exact absurd rfl hz
  | succ n => rfl

/-! ## The proof data -/

/-- The region's proof data on core `c`: the arrays as the region finds them; after the body at point `t` each input's
    buffer at its block and the output's at the state's first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (stAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (stAt V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- THE LOOK-BACK. At a point that is not the first of a batch, the output window's current staging buffer holds the
    state's output block as the point before left it: the block was not written back in between, and through a run of
    points that store nothing into it the buffer keeps what the last storing point left. -/
theorem before1_4 (c : Dev nD) : ∀ (n : ℕ) (hn : n < cfg1.N), n % 128 ≠ 0 → ∀ d,
    (dat1 V c).before 4 ⟨n, hn⟩ d = (stAt V c (n - 1) (Nat.lt_of_le_of_lt (Nat.sub_le _ _) hn)).1 := by
  intro n
  induction n using Nat.strong_induction_on with
  | _ n ih =>
    intro hn hne d
    have hN : n < 256 := lt_of_lt_of_eq hn (show cfg1.N = 256 from N_1)
    have hpos : n ≠ 0 := fun h => hne (by rw [h])
    have hn' : n - 1 < cfg1.N := Nat.lt_of_le_of_lt (Nat.sub_le _ _) hn
    rw [(dat1 V c).before_of_pos 4 ⟨n, hn⟩ hpos ((cfg1.win 4).fetch_out rfl _) d]
    have hfl : (cfg1.win 4).flush ⟨n - 1, hn'⟩ = false :=
      Bool.eq_false_iff.mpr fun h => by have := (flush1_4 _).mp h; dsimp only at this; omega
    rw [hfl, if_neg Bool.false_ne_true]
    unfold Dat.left
    by_cases h1 : (n - 1) % 128 = 0
    · rw [liveAt1_4_first ⟨n - 1, hn'⟩ ((hcond1_1 _).mpr h1)]
      dsimp only
      unfold Dat.kept
      rw [Pipeline.fill_of_clip_none 4 _ (fun _ => rfl) d ((dat1 V c).after 4 ⟨n - 1, hn'⟩) ((dat1 V c).after 4 ⟨n - 1, hn'⟩), Window.fill_cut, after1_4]
    · by_cases h2 : (n - 1) % 8 = 7
      · rw [liveAt1_4_last ⟨n - 1, hn'⟩ ((hcond1_2 _).mpr h2)]
        dsimp only
        unfold Dat.kept
        rw [Pipeline.fill_of_clip_none 4 _ (fun _ => rfl) d ((dat1 V c).after 4 ⟨n - 1, hn'⟩) ((dat1 V c).after 4 ⟨n - 1, hn'⟩), Window.fill_cut, after1_4]
      · rw [idleAt1_4 ⟨n - 1, hn'⟩ (fun h => h1 ((hcond1_1 _).mp h)) (fun h => h2 ((hcond1_2 _).mp h))]
        dsimp only
        rw [ih (n - 1) (by omega) hn' h1 d]
        exact (stAt_idle_fst V c ⟨n - 1, hn'⟩ h1 h2).symm

end State

end Cert.KernelIdeal.Gen

end
-- ==== Proof.R1Body.lean ====
/-
  The second kernel region's body obligation: at every grid point the body, called with the region's invariant, the core's
  dues and each window's current staging buffer at what it holds there, runs to the end and hands back the invariant at
  the next point and each buffer at what the proof data say it leaves. The point's case is read off its number; the
  invariant hands the body the three scratch buffers (at anything before the very first point, afterwards at the state the
  point before left) and takes them back at the state this point leaves.
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (V : (c : Dev nD) → (b : Ref sig .tc) → Buf (Elt F) ((c : Thread nD τ).loc b))

theorem before1_4' (c : Dev nD) (t : Fin cfg1.N) (h : t.val % 128 ≠ 0) (d) :
    (dat1 V c).before 4 t d = (stAt V c (t.val - 1) (Nat.lt_of_le_of_lt (Nat.sub_le _ _) t.isLt)).1 :=
  before1_4 V c t.val t.isLt h d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 128 = 0
  · -- case A: first head, first key tile
    rw [show (dat1 V c).leavesExact 4 t = owns (c : Thread nD τ) (ms1_4 t) fullShare ((dat1 V c).after 4 t) from by
      unfold Dat.leavesExact; rw [liveAt1_4_first t ((hcond1_1 t).mpr h1)], after1_4]
    rw [stAt_A V c t h1]
    unfold stA out1_A_4 sout1_A_0 sout1_A_1 sout1_A_2; (try dsimp only)
    by_cases hz : t.val = 0
    · rw [PhiS_castSucc V c t, PhiS_zero V c _ _ hz, PhiA1_eq]
      iintro ⟨⟨⟨⟨HS0, HS1, HS2⟩, HO⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HO Hg]
      · isplitl [HS0 HS1 HS2 HO]
        · isplitl [HS0 HS1 HS2]
          · isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _)
          iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 _ _ _ _ _ _ _ _ _ _ _ _ _ _ _ _ _ _ _ _ _ _ _ _ _)
    · rw [PhiS_castSucc V c t, PhiS_pos V c _ _ hz]
      iintro ⟨⟨⟨⟨HS0, HS1, HS2⟩, HO⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr (by omega)) ((hcond1_1 t).mpr h1) (fun h => absurd ((hcond1_2 t).mp h) (by omega)) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      iintro ⟨H0, H1, H2, H3, ⟨%e4, H4⟩, ⟨%es0, HS0⟩, ⟨%es1, HS1⟩, ⟨%es2, HS2⟩⟩
      isplitl [HS0 HS1 HS2 HO Hg]
      · isplitl [HS0 HS1 HS2 HO]
        · isplitl [HS0 HS1 HS2]
          · isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _)
          iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 _ _ _ _ _ _ _ _ _ _ _ _ _ _ _ _ _ _ _ _ _ _ _ _ _)
  · have hz : t.val ≠ 0 := fun h => h1 (by rw [h])
    rw [PhiS_castSucc V c t, PhiS_pos V c _ _ hz]
    by_cases h2 : t.val % 8 = 7
    · -- case D: last key tile
      rw [show (dat1 V c).leavesExact 4 t = owns (c : Thread nD τ) (ms1_4 t) fullShare ((dat1 V c).after 4 t) from by
        unfold Dat.leavesExact; rw [liveAt1_4_last t ((hcond1_2 t).mpr h2)], after1_4]
      simp only [before1_4' V c t h1]
      rw [stAt_D V c t h2]
      unfold stD out1_D_4 sout1_D_0 sout1_D_1 sout1_D_2; (try dsimp only)
      iintro ⟨⟨⟨⟨HS0, HS1, HS2⟩, HO⟩, Hg⟩, Ho, ⟨%d0, H0⟩, ⟨%d1, H1⟩, ⟨%d2, H2⟩, ⟨%d3, H3⟩, ⟨%d4, H4⟩⟩
      iapply ((kernelRun1_D c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => absurd ((hcond1_0 t).mp h) (by omega)) (fun h => absurd ((hcond1_1 t).mp h) (by omega)) ((hcond1_2 t).mpr h2) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 HO Hg]
      · isplitl [HS0 HS1 HS2 HO]
        · isplitl [HS0 HS1 HS2]
          · isplitl [HS0]
            · unfold owns; iexists _; isplitr
              swap; · iexact HS0
              ipureintro; exact View.read_writes_of_cover _ _ _ _ _ (scover1_D_0 _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_D_1 _ _ _ _ _ _ _ _ _ _ _ _ _ _ _ _ _ _ _ _ _ _ _ _ _ _ _ _ _)
            unfold owns; iexists _; isplitr
            swap; · iexact HS2
            ipureintro; exact View.read_writes_of_cover _ _ _ _ _ (scover1_D_2 _ _ _ _ _ _ _ _ _ _ _ _ _ _ _ _ _ _ _ _ _ _ _ _ _ _ _ _ _)
          iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_D_4 _ _ _ _ _ _ _ _ _ _ _ _ _ _ _ _ _ _ _ _ _ _ _ _ _ _ _ _ _)
    · have hidle := Dat.leavesExact_idle (dat1 V c) 4 t (idleAt1_4 t (fun h => h1 ((hcond1_1 t).mp h)) (fun h => h2 ((hcond1_2 t).mp h))) (noFlush1_4 t (fun h => h2 ((hcond1_2 t).mp h)))
      rw [hidle]
      by_cases h0 : t.val % 8 = 0
      · -- case B: a later head's first key tile
        rw [stAt_B V c t h0 h1]
        unfold stB sout1_B_0 sout1_B_1 sout1_B_2; (try dsimp only)
        iintro ⟨⟨⟨⟨HS0, HS1, HS2⟩, HO⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => absurd ((hcond1_2 t).mp h) (by omega)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              · unfold owns; iexists _; isplitr
                swap; · iexact HS0
                ipureintro; exact View.read_writes_of_cover _ _ _ _ _ (scover1_B_0 _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 _ _ _ _ _ _ _ _ _ _ _ _ _ _ _ _ _ _ _ _ _ _ _ _ _)
              unfold owns; iexists _; isplitr
              swap; · iexact HS2
              ipureintro; exact View.read_writes_of_cover _ _ _ _ _ (scover1_B_2 _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        iexists _; iexact H4
      · -- case C: a middle key tile
        rw [stAt_C V c t h0 h2]
        unfold stC sout1_C_0 sout1_C_1 sout1_C_2; (try dsimp only)
        iintro ⟨⟨⟨⟨HS0, HS1, HS2⟩, HO⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => absurd ((hcond1_1 t).mp h) (by omega)) (fun h => h2 ((hcond1_2 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              · unfold owns; iexists _; isplitr
                swap; · iexact HS0
                ipureintro; exact View.read_writes_of_cover _ _ _ _ _ (scover1_C_0 _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 _ _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, HO⟩, Hg⟩
  isplitl [HS0 HS1 HS2 HO]
  · isplitl [HS0 HS1 HS2]
    · isplitl [HS0]; · iexists _; iexact HS0
      isplitl [HS1]; · iexists _; iexact HS1
      iexists _; iexact HS2
    iexact HO
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Body

end Cert.KernelIdeal.Gen

end
-- ==== Proof.Assembly.lean ====
/- THE RUN of @main through both kernel regions: the buffer contents at every segment boundary as a fold from the
   launch memory (a host stretch's results; a region's arrays at what its write-backs leave, every other buffer as
   entered), each argument array read back through the fold to its launch contents, the two pipelines' proof data each at
   its region's entry contents, a host segment per stretch and a region segment per kernel over the thread state
   "every unscoped buffer at the boundary's contents, the generator register at some state, nothing owed", and the run:
   every weakly fair execution terminates and every final memory holds every unscoped buffer at the last boundary's
   contents; hence the five arguments end as launched, and the result array ends at what region 1's write-backs leave. -/
import proofs.«110170_j50130858279277_2_alg».proof.Proof.Region0
import proofs.«110170_j50130858279277_2_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (a region reads it through an
    input window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### The result array, and what region 1 is entered with -/

/-- The result array ends at what region 1's write-backs leave in it. -/
theorem W4_main_v4 (c : Dev nD) : W4 m ρ c (Proc.devRef .tc main_v4) = (dat1 (V3 m ρ) c).arrAt 4 cfg1.N :=
  W4_arr m ρ c 4

/-- Region 1 is entered with region 0's three output arrays as region 0 left them: the second host stretch writes
    none of them. -/
theorem V3_main_v1_0 (c : Dev nD) : V3 m ρ c main_v1_0 = (dat0 (V1 m ρ) c).arrAt 4 cfg0.N :=
  (StableHlo.after_of_forall_not_mem (b := Proc.devRef .tc main_v1_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 4)
theorem V3_main_v1_1 (c : Dev nD) : V3 m ρ c main_v1_1 = (dat0 (V1 m ρ) c).arrAt 5 cfg0.N :=
  (StableHlo.after_of_forall_not_mem (b := Proc.devRef .tc main_v1_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 5)
theorem V3_main_v1_2 (c : Dev nD) : V3 m ρ c main_v1_2 = (dat0 (V1 m ρ) c).arrAt 6 cfg0.N :=
  (StableHlo.after_of_forall_not_mem (b := Proc.devRef .tc main_v1_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 6)

/-- Region 0 is entered with the weights as launched: the first host stretch writes none of them. -/
theorem V1_main_arg1 (c : Dev nD) : V1 m ρ c main_arg1 = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_main_arg2 (c : Dev nD) : V1 m ρ c main_arg2 = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem V1_main_arg3 (c : Dev nD) : V1 m ρ c main_arg3 = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- … and with the activations rounded to the narrower format. -/
theorem V1_main_v0 (c : Dev nD) : (V1 m ρ c main_v0 : S2x2048x1024.Idx → Elt F .bf16)
    = truncf .bf16 (m ((c : Thread nD τ).loc main_arg0) : S2x2048x1024.Idx → Elt F .f32) bitsLt_bf16_f32 := by
  show StableHlo.after hostOps0 (W0 m ρ c) (Proc.devRef .tc main_v0) = _
  after_results

/-- Region 1 is entered with the last weight viewed [1024, 16, 64] and its first two axes exchanged. -/
theorem V3_main_v3 (c : Dev nD) : (V3 m ρ c main_v3 : S16x1024x64.Idx → Elt F .f32)
    = transpose S16x1024x64 [1, 0, 2] (shapeCast S1024x16x64 (m ((c : Thread nD τ).loc main_arg4) : S1024x1024.Idx → Elt F .f32) shapeCasts_S1024x1024_S1024x16x64) transposes_S1024x16x64_S16x1024x64_1_0_2 := by
  show StableHlo.after hostOps1 (W2 m ρ c) (Proc.devRef .tc main_v3) = _
  after_results
  have e : W2 m ρ c (Proc.devRef .tc main_arg4) = m ((c : Thread nD τ).loc main_arg4) :=
    (W2_of_ne m ρ c main_arg4 (by decide)).trans (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  rw [e]
  rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owes, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at W1, left at W2. Its arrays split out of the
    unscoped buffers and put back at the exit contents; the generator register into the class invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at W4. Its invariant carries the
    kernel's three scratch buffers from point to point: it starts from the class invariant and ends in it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    show _ ⊢ (dat1 (V3 m ρ) c).Φ 0
    iintro ⟨Hp, -, Hr⟩
    iapply h
    isplitl [Hr]; · iexact Hr
    iexact Hp
  hout c := by
    have h := hout1 (V3 m ρ) c
    unfold Pipeline.ΦA at h
    rw [Pipeline.ownSems0_none]
    show (dat1 (V3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates and every final state has the five argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The result array at the end of the run: what region 1's write-backs leave in it. -/
theorem run_result : θ_run defs (onTc (τ := τ) (main (F := F))) ⟨m, fun _ => 0, ρ⟩ (fun r => ∀ c : Dev nD,
      r.2.mem ((c.tc : Thread nD τ).loc main_v4) = (dat1 (V3 m ρ) c).arrAt 4 cfg1.N) :=
  (θ_run defs _ _).mono (fun r h c => (h c _ (mem_uc main_v4 (by decide))).trans (W4_main_v4 m ρ c)) (run_all m ρ)

end Cert.KernelIdeal.Gen

end
-- ==== Proof.AttnSpec.lean ====
/-
  Multi-head softmax attention with an output projection, as ONE function of its five argument arrays, element by
  element, over the extended reals.

  The arrays: X : [2, 2048, 1024] (batch, position, feature) and four weight matrices Wq Wk Wv Wo : [1024, 1024]
  (output feature, input feature). There are 16 heads of dimension 64: feature h' = 64 n + d is coordinate d of head n.

    proj X W b n s d   = ∑ j, X[b, s, j] * W[64 n + d, j]                       (q, k, v are proj at Wq, Wk, Wv)
    score b n s t      = (∑ d, q[b,n,s,d] * k[b,n,t,d]) / 8
    rowMax b n s       = sup over t of score b n s t
    expo b n s t       = exp (score b n s t - rowMax b n s)
    denom b n s        = ∑ t, expo b n s t
    attn b n s d       = ∑ t, (expo b n s t / denom b n s) * v[b,n,t,d]
    out b s c          = ∑ h', attn b (h' / 64) s (h' % 64) * Wo[c, h']

  Every operation is the extended reals' exact one (the quotient is Ideal.div, the exponential Ideal.exp); nothing is
  assumed of the arguments here. For arguments without infinities every quantity above is a real number: the real-valued
  twins projR and scoreR and the lemmas proj_eq_coe and score_eq_coe say so.
-/
import Idealize.ShloMosaic.PureOps.Ideal
import Idealize.ShloMosaic.PureOps.Ideal.Laws
import Idealize.ShloMosaic.Lib.ValueIdx

noncomputable section

open scoped BigOperators

namespace Cert.Proof.AttnSpec

open Idealize.ShloMosaic Idealize.ShloMosaic.ValueIdx

/-- A rank-3 array of extended reals of extents 2, 2048, 1024. -/
abbrev Arr3 : Type := (⟨3, ![2, 2048, 1024]⟩ : Shape).Idx → EReal
/-- A 1024 × 1024 matrix of extended reals. -/
abbrev Arr2 : Type := (⟨2, ![1024, 1024]⟩ : Shape).Idx → EReal

/-- Feature 64 n + d: coordinate d of head n. -/
def hcol (n : Fin 16) (d : Fin 64) : Fin 1024 := ⟨n.val * 64 + d.val, by omega⟩
/-- The head a feature belongs to. -/
def headOf (h : Fin 1024) : Fin 16 := ⟨h.val / 64, by omega⟩
/-- A feature's coordinate within its head. -/
def dimOf (h : Fin 1024) : Fin 64 := ⟨h.val % 64, by omega⟩

theorem hcol_headOf_dimOf (h : Fin 1024) : hcol (headOf h) (dimOf h) = h :=
  Fin.ext (by show h.val / 64 * 64 + h.val % 64 = h.val; omega)
theorem headOf_hcol (n : Fin 16) (d : Fin 64) : headOf (hcol n d) = n :=
  Fin.ext (by show (n.val * 64 + d.val) / 64 = n.val; omega)
theorem dimOf_hcol (n : Fin 16) (d : Fin 64) : dimOf (hcol n d) = d :=
  Fin.ext (by show (n.val * 64 + d.val) % 64 = d.val; omega)

/-- The linear projection of position (b, s) onto coordinate d of head n. -/
def proj (X : Arr3) (W : Arr2) (b : Fin 2) (n : Fin 16) (s : Fin 2048) (d : Fin 64) : EReal :=
  ∑ j : Fin 1024, X (ix3 b s j) * W (ix2 (hcol n d) j)

/-- The scaled score of query position s against key position t in head n. -/
def score (X : Arr3) (Wq Wk : Arr2) (b : Fin 2) (n : Fin 16) (s t : Fin 2048) : EReal :=
  Ideal.div (∑ d : Fin 64, proj X Wq b n s d * proj X Wk b n t d) ((8 : ℝ) : EReal)

/-- A score row's maximum. -/
def rowMax (X : Arr3) (Wq Wk : Arr2) (b : Fin 2) (n : Fin 16) (s : Fin 2048) : EReal :=
  Finset.univ.sup fun t : Fin 2048 => score X Wq Wk b n s t

/-- The shifted exponential of a score. -/
def expo (X : Arr3) (Wq Wk : Arr2) (b : Fin 2) (n : Fin 16) (s t : Fin 2048) : EReal :=
  Ideal.exp (score X Wq Wk b n s t - rowMax X Wq Wk b n s)

/-- The softmax denominator of a score row. -/
def denom (X : Arr3) (Wq Wk : Arr2) (b : Fin 2) (n : Fin 16) (s : Fin 2048) : EReal :=
  ∑ t : Fin 2048, expo X Wq Wk b n s t

/-- One head's attention output at position s, coordinate d. -/
def attn (X : Arr3) (Wq Wk Wv : Arr2) (b : Fin 2) (n : Fin 16) (s : Fin 2048) (d : Fin 64) : EReal :=
  ∑ t : Fin 2048, Ideal.div (expo X Wq Wk b n s t) (denom X Wq Wk b n s) * proj X Wv b n t d

/-- The output projection of the concatenated heads. -/
def out (X : Arr3) (Wq Wk Wv Wo : Arr2) (b : Fin 2) (s : Fin 2048) (c : Fin 1024) : EReal :=
  ∑ h : Fin 1024, attn X Wq Wk Wv b (headOf h) s (dimOf h) * Wo (ix2 c h)

/-- The whole result as an array. -/
def spec (X : Arr3) (Wq Wk Wv Wo : Arr2) : Arr3 := fun i => out X Wq Wk Wv Wo (i 0) (i 1) (i 2)

theorem spec_ix3 (X : Arr3) (Wq Wk Wv Wo : Arr2) (b : Fin 2) (s : Fin 2048) (c : Fin 1024) :
    spec X Wq Wk Wv Wo (ix3 b s c) = out X Wq Wk Wv Wo b s c := rfl

/-! ## Arguments without infinities: everything is a real number -/

/-- An array none of whose elements is an infinity. -/
def Finite {ι : Type} (f : ι → EReal) : Prop := ∀ i, f i ≠ ⊥ ∧ f i ≠ ⊤

theorem Finite.coe_toReal {ι : Type} {f : ι → EReal} (h : Finite f) (i : ι) : ((f i).toReal : EReal) = f i :=
  EReal.coe_toReal (h i).2 (h i).1

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The projection over the reals. -/
def projR (X : Arr3) (W : Arr2) (b : Fin 2) (n : Fin 16) (s : Fin 2048) (d : Fin 64) : ℝ :=
  ∑ j : Fin 1024, (X (ix3 b s j)).toReal * (W (ix2 (hcol n d) j)).toReal

theorem proj_eq_coe {X : Arr3} {W : Arr2} (hX : Finite X) (hW : Finite W) (b : Fin 2) (n : Fin 16) (s : Fin 2048)
    (d : Fin 64) : proj X W b n s d = (projR X W b n s d : EReal) := by
  unfold proj projR
  rw [coe_sum]
  refine Finset.sum_congr rfl fun j _ => ?_
  rw [EReal.coe_mul, hX.coe_toReal, hW.coe_toReal]

/-- The score over the reals. -/
def scoreR (X : Arr3) (Wq Wk : Arr2) (b : Fin 2) (n : Fin 16) (s t : Fin 2048) : ℝ :=
  (∑ d : Fin 64, projR X Wq b n s d * projR X Wk b n t d) * (1 / 8)

theorem score_eq_coe {X : Arr3} {Wq Wk : Arr2} (hX : Finite X) (hq : Finite Wq) (hk : Finite Wk) (b : Fin 2) (n : Fin 16)
    (s t : Fin 2048) : score X Wq Wk b n s t = (scoreR X Wq Wk b n s t : EReal) := by
  unfold score scoreR
  rw [Ideal.div_coe (by norm_num), EReal.coe_mul, coe_sum]
  congr 1
  refine Finset.sum_congr rfl fun d _ => ?_
  rw [EReal.coe_mul, proj_eq_coe hX hq, proj_eq_coe hX hk]

/-- The score as a product with the reciprocal of 8: the form a program that multiplies by 0.125 computes. -/
theorem score_eq_mul (X : Arr3) (Wq Wk : Arr2) (b : Fin 2) (n : Fin 16) (s t : Fin 2048) :
    score X Wq Wk b n s t = (∑ d : Fin 64, proj X Wq b n s d * proj X Wk b n t d) * ((1 / 8 : ℝ) : EReal) :=
  Ideal.div_coe (by norm_num) _

end Cert.Proof.AttnSpec

end
-- ==== Proof.Region0Value.lean ====
/- What REGION 0 of @main (the q/k/v projection kernel, grid 2 x 16) leaves in its three output arrays, at the ideal
   values and at a PARAMETER V (the buffer contents when the region is entered): each output array as ONE function of
   the activations x = V main_v0 : [2, 2048, 1024] and of its weight W = V main_arg1 / main_arg2 / main_arg3 :
   [1024, 1024], index by index,
       out[b, h, s, d] = ∑ j, x[b, s, j] * W[64 h + d, j].
   The road: a payload of the body read at an index (the format changes are the identity at the ideal values, a matrix
   product into a zero accumulator is the plain sum over the contracted coordinate); the block index maps decided over
   the 32 grid points (point t is batch t / 16, head t % 16); each input block as a restriction of its array; what a
   point writes back as a block of the one function; the blocks cover the array; so the array ends at the function. -/
import proofs.«110170_j50130858279277_2_alg».proof.Proof.Region0
import proofs.«110170_j50130858279277_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

/-- The body's one matrix product, read at an index: rows of the activations block against rows of the weight block. -/
theorem matmul_apply0 (x0 : Vec Ideal S1x2048x1024 .bf16) (w : Vec Ideal S64x1024 .f32) (s : Fin 2048) (d : Fin 64) :
    matmul dot_S2048x1024_S64x1024_S2048x64_1_1_0_0_n_n none (shapeCast S2048x1024 x0 shapeCasts_S1x2048x1024_S2048x1024 : FVec Ideal S2048x1024 .bf16)
      (truncf .bf16 w bitsLt_bf16_f32 : FVec Ideal S64x1024 .bf16) (constant (F := Ideal) S2048x64 .f32 0x00000000#32) (ix2 s d)
      = ∑ j : Fin 1024, x0 (ix3 (0 : Fin 1) s j) * w (ix2 d j) := by
  refine (Ideal.matmul_constant_zero_apply dot_S2048x1024_S64x1024_S2048x64_1_1_0_0_n_n none
    (shapeCast S2048x1024 x0 shapeCasts_S1x2048x1024_S2048x1024 : FVec Ideal S2048x1024 .bf16)
    (truncf .bf16 w bitsLt_bf16_f32 : FVec Ideal S64x1024 .bf16) (ix2 s d)).trans ?_
  refine (Equiv.sum_comp (contrEquiv1 dot_S2048x1024_S64x1024_S2048x64_1_1_0_0_n_n 1024 rfl rfl).symm _).symm.trans ?_
  refine Finset.sum_congr rfl fun j _ => ?_
  have cj := contrEquiv1_symm_val dot_S2048x1024_S64x1024_S2048x64_1_1_0_0_n_n 1024 rfl rfl j
  have l2 : dot_S2048x1024_S64x1024_S2048x64_1_1_0_0_n_n.lhsIdx (ix2 s d)
      ((contrEquiv1 dot_S2048x1024_S64x1024_S2048x64_1_1_0_0_n_n 1024 rfl rfl).symm j) = ix2 s j := by
    funext ax; apply Fin.ext
    match ax with
    | ⟨0, _⟩ => simp [DotDims.lhsIdx, dot_S2048x1024_S64x1024_S2048x64_1_1_0_0_n_n]; rfl
    | ⟨1, _⟩ => simp [DotDims.lhsIdx, dot_S2048x1024_S64x1024_S2048x64_1_1_0_0_n_n]; exact cj
  have r2 : dot_S2048x1024_S64x1024_S2048x64_1_1_0_0_n_n.rhsIdx (ix2 s d)
      ((contrEquiv1 dot_S2048x1024_S64x1024_S2048x64_1_1_0_0_n_n 1024 rfl rfl).symm j) = ix2 d j := by
    funext ax; apply Fin.ext
    match ax with
    | ⟨0, _⟩ => simp [DotDims.rhsIdx, dot_S2048x1024_S64x1024_S2048x64_1_1_0_0_n_n]; rfl
    | ⟨1, _⟩ => simp [DotDims.rhsIdx, dot_S2048x1024_S64x1024_S2048x64_1_1_0_0_n_n]; exact cj
  rw [l2, r2]
  exact congrArg (· * w (ix2 d j)) (shapeCast_1ab_ab_apply x0 _ s j)

/-- A payload of the body read at an index. -/
theorem pay2_apply (x0 : Vec Ideal S1x2048x1024 .bf16) (w : Vec Ideal S64x1024 .f32) (u0 u1 : Fin 1) (s : Fin 2048) (d : Fin 64) :
    k0_pay2 x0 w (ix4 u0 u1 s d) = ∑ j : Fin 1024, x0 (ix3 (0 : Fin 1) s j) * w (ix2 d j) := by
  unfold k0_pay2 k0_pay1
  refine (shapeCast_apply _ _ (ix4 u0 u1 s d) (ix2 s d) ?_).trans (matmul_apply0 x0 w s d)
  have h0 : u0.val = 0 := by omega
  have h1 : u1.val = 0 := by omega
  rw [Shape.rowMajor_val_two, Shape.rowMajor_val_four]
  show s.val * 64 + d.val = ((u0.val * 1 + u1.val) * 2048 + s.val) * 64 + d.val
  rw [h0, h1]; omega
theorem pay3_apply (x0 : Vec Ideal S1x2048x1024 .bf16) (w : Vec Ideal S64x1024 .f32) (u0 u1 : Fin 1) (s : Fin 2048) (d : Fin 64) :
    k0_pay3 x0 w (ix4 u0 u1 s d) = ∑ j : Fin 1024, x0 (ix3 (0 : Fin 1) s j) * w (ix2 d j) := by
  unfold k0_pay3 k0_pay1
  refine (shapeCast_apply _ _ (ix4 u0 u1 s d) (ix2 s d) ?_).trans (matmul_apply0 x0 w s d)
  have h0 : u0.val = 0 := by omega
  have h1 : u1.val = 0 := by omega
  rw [Shape.rowMajor_val_two, Shape.rowMajor_val_four]
  show s.val * 64 + d.val = ((u0.val * 1 + u1.val) * 2048 + s.val) * 64 + d.val
  rw [h0, h1]; omega
theorem pay4_apply (x0 : Vec Ideal S1x2048x1024 .bf16) (w : Vec Ideal S64x1024 .f32) (u0 u1 : Fin 1) (s : Fin 2048) (d : Fin 64) :
    k0_pay4 x0 w (ix4 u0 u1 s d) = ∑ j : Fin 1024, x0 (ix3 (0 : Fin 1) s j) * w (ix2 d j) := by
  unfold k0_pay4 k0_pay1
  refine (shapeCast_apply _ _ (ix4 u0 u1 s d) (ix2 s d) ?_).trans (matmul_apply0 x0 w s d)
  have h0 : u0.val = 0 := by omega
  have h1 : u1.val = 0 := by omega
  rw [Shape.rowMajor_val_two, Shape.rowMajor_val_four]
  show s.val * 64 + d.val = ((u0.val * 1 + u1.val) * 2048 + s.val) * 64 + d.val
  rw [h0, h1]; omega

/-! ## The block index maps, decided over the grid: point t = 16 b + h is batch b, head h -/

theorem idx_facts0 : ∀ t : Fin cfg0.N,
    win0_0.index t (0 : Fin 3) = t.val / 16 ∧ win0_0.index t (1 : Fin 3) = 0 ∧ win0_0.index t (2 : Fin 3) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = 0
    ∧ win0_4.index t (0 : Fin 4) = t.val / 16 ∧ win0_4.index t (1 : Fin 4) = t.val % 16 ∧ win0_4.index t (2 : Fin 4) = 0 ∧ win0_4.index t (3 : Fin 4) = 0
    ∧ win0_5.index t (0 : Fin 4) = t.val / 16 ∧ win0_5.index t (1 : Fin 4) = t.val % 16 ∧ win0_5.index t (2 : Fin 4) = 0 ∧ win0_5.index t (3 : Fin 4) = 0
    ∧ win0_6.index t (0 : Fin 4) = t.val / 16 ∧ win0_6.index t (1 : Fin 4) = t.val % 16 ∧ win0_6.index t (2 : Fin 4) = 0 ∧ win0_6.index t (3 : Fin 4) = 0 :=
  (by decide +kernel : ∀ t : Fin grid0.N, _)

theorem zeros0_2 : (![0, 0] : Fin 2 → Nat) = fun _ => 0 := funext fun a => by fin_cases a <;> rfl
theorem zeros0_3 : (![0, 0, 0] : Fin 3 → Nat) = fun _ => 0 := funext fun a => by fin_cases a <;> rfl
theorem zeros0_4 : (![0, 0, 0, 0] : Fin 4 → Nat) = fun _ => 0 := funext fun a => by fin_cases a <;> rfl

/-- One element of an output block: if the payload is the product of the activations block with the weight block,
    the activations block is batch b of X and the weight block is head n's rows of W, then the element at (s, d) of the
    block is the projection at (b, n, s, d). -/
theorem point0 (X : Cert.Proof.AttnSpec.Arr3) (W : Cert.Proof.AttnSpec.Arr2) (x0 : Vec Ideal S1x2048x1024 .bf16) (w : Vec Ideal S64x1024 .f32)
    (p : Vec Ideal S1x1x2048x64 .bf16) (b : Fin 2) (n : Fin 16)
    (hp : ∀ (u0 u1 : Fin 1) (s : Fin 2048) (d : Fin 64), p (ix4 u0 u1 s d) = ∑ j : Fin 1024, x0 (ix3 (0 : Fin 1) s j) * w (ix2 d j))
    (hx : ∀ (u : Fin 1) (s : Fin 2048) (j : Fin 1024), x0 (ix3 u s j) = X (ix3 b s j))
    (hw : ∀ (d : Fin 64) (j : Fin 1024), w (ix2 d j) = W (ix2 (Cert.Proof.AttnSpec.hcol n d) j))
    (y : S1x1x2048x64.Idx) (i : S2x16x2048x64.Idx)
    (h0 : (i 0).val = b.val) (h1 : (i 1).val = n.val) (h2 : (i 2).val = (y 2).val) (h3 : (i 3).val = (y 3).val) :
    p y = Cert.Proof.AttnSpec.proj X W (i 0) (i 1) (i 2) (i 3) := by
  obtain ⟨u0, u1, s, d, rfl⟩ : ∃ (u0 u1 : Fin 1) (s : Fin 2048) (d : Fin 64), y = ix4 u0 u1 s d := ⟨y 0, y 1, y 2, y 3, eq_ix4 y⟩
  have e0 : i 0 = b := Fin.ext h0
  have e1 : i 1 = n := Fin.ext h1
  have e2 : i 2 = s := Fin.ext h2
  have e3 : i 3 = d := Fin.ext h3
  rw [hp, e0, e1, e2, e3]
  unfold Cert.Proof.AttnSpec.proj
  exact Finset.sum_congr rfl fun j _ => by rw [hx, hw]

section
variable (V : (c : Dev nD) → (b : Ref sig .tc) → Buf (Elt Ideal) ((c : Thread nD τ).loc b))

/-- The activations block at point t is batch t / 16 of the activations. -/
theorem iblk0_0_apply (c : Dev nD) (t : Fin cfg0.N) (u : Fin 1) (s : Fin 2048) (j : Fin 1024) (b : Fin 2) (hb : b.val = t.val / 16) :
    (iblk0 V c 0 t : Vec Ideal S1x2048x1024 .bf16) (ix3 u s j) = (V c main_v0 : S2x2048x1024.Idx → EReal) (ix3 b s j) := by
  obtain ⟨e0, e1, e2, -⟩ := idx_facts0 t
  unfold iblk0
  rw [View.read_apply]
  show V c main_v0 _ = V c main_v0 _
  congr 1
  funext a
  apply Fin.ext
  match a with
  | ⟨0, _⟩ => show win0_0.index t (0 : Fin 3) * 1 + 1 * u.val = b.val; omega
  | ⟨1, _⟩ => show win0_0.index t (1 : Fin 3) * 2048 + 1 * s.val = s.val; omega
  | ⟨2, _⟩ => show win0_0.index t (2 : Fin 3) * 1024 + 1 * j.val = j.val; omega

/-- Weight window 1's block at point t is rows 64 (t % 16) … of its matrix. -/
theorem iblk0_1_apply (c : Dev nD) (t : Fin cfg0.N) (d : Fin 64) (j : Fin 1024) (n : Fin 16) (hn : n.val = t.val % 16) :
    (iblk0 V c 1 t : Vec Ideal S64x1024 .f32) (ix2 d j) = (V c main_arg1 : S1024x1024.Idx → EReal) (ix2 (Cert.Proof.AttnSpec.hcol n d) j) := by
  obtain ⟨-, -, -, e10, e11, e20, e21, e30, e31, -⟩ := idx_facts0 t
  unfold iblk0
  rw [View.read_apply]
  show V c main_arg1 _ = V c main_arg1 _
  congr 1
  funext a
  apply Fin.ext
  match a with
  | ⟨0, _⟩ => show win0_1.index t (0 : Fin 2) * 64 + 1 * d.val = n.val * 64 + d.val; omega
  | ⟨1, _⟩ => show win0_1.index t (1 : Fin 2) * 1024 + 1 * j.val = j.val; omega
/-- Weight window 2's block at point t is rows 64 (t % 16) … of its matrix. -/
theorem iblk0_2_apply (c : Dev nD) (t : Fin cfg0.N) (d : Fin 64) (j : Fin 1024) (n : Fin 16) (hn : n.val = t.val % 16) :
    (iblk0 V c 2 t : Vec Ideal S64x1024 .f32) (ix2 d j) = (V c main_arg2 : S1024x1024.Idx → EReal) (ix2 (Cert.Proof.AttnSpec.hcol n d) j) := by
  obtain ⟨-, -, -, e10, e11, e20, e21, e30, e31, -⟩ := idx_facts0 t
  unfold iblk0
  rw [View.read_apply]
  show V c main_arg2 _ = V c main_arg2 _
  congr 1
  funext a
  apply Fin.ext
  match a with
  | ⟨0, _⟩ => show win0_2.index t (0 : Fin 2) * 64 + 1 * d.val = n.val * 64 + d.val; omega
  | ⟨1, _⟩ => show win0_2.index t (1 : Fin 2) * 1024 + 1 * j.val = j.val; omega
/-- Weight window 3's block at point t is rows 64 (t % 16) … of its matrix. -/
theorem iblk0_3_apply (c : Dev nD) (t : Fin cfg0.N) (d : Fin 64) (j : Fin 1024) (n : Fin 16) (hn : n.val = t.val % 16) :
    (iblk0 V c 3 t : Vec Ideal S64x1024 .f32) (ix2 d j) = (V c main_arg3 : S1024x1024.Idx → EReal) (ix2 (Cert.Proof.AttnSpec.hcol n d) j) := by
  obtain ⟨-, -, -, e10, e11, e20, e21, e30, e31, -⟩ := idx_facts0 t
  unfold iblk0
  rw [View.read_apply]
  show V c main_arg3 _ = V c main_arg3 _
  congr 1
  funext a
  apply Fin.ext
  match a with
  | ⟨0, _⟩ => show win0_3.index t (0 : Fin 2) * 64 + 1 * d.val = n.val * 64 + d.val; omega
  | ⟨1, _⟩ => show win0_3.index t (1 : Fin 2) * 1024 + 1 * j.val = j.val; omega

/-! ## Output window 4 -/

/-- What point t writes back is block t of the projection of the activations by weight 1. -/
theorem flushed4_eq (c : Dev nD) (t : Fin cfg0.N) :
    (dat0 (F := Ideal) V c).flushed 4 t = ((cfg0.win 4).blk t).view.read (Elt Ideal)
      (fun i => Cert.Proof.AttnSpec.proj (V c main_v0) (V c main_arg1) (i 0) (i 1) (i 2) (i 3)) := by
  show (cfg0.win 4).cut (grid0.coords t) ((dat0 V c).after 4 t) = _
  rw [after0_4]
  unfold out0_4
  rw [View.canon_unit_zero zeros0_4]
  simp only [View.ld_unit_zero (S := S1x2048x1024) zeros0_3, View.ld_unit_zero (S := S64x1024) zeros0_2]
  funext y
  have hN : t.val < 32 := lt_of_lt_of_eq t.isLt N_0
  obtain ⟨-, -, -, -, -, -, -, -, -, a0, a1, a2, a3, b0, b1, b2, b3, c0, c1, c2, c3⟩ := idx_facts0 t
  have y0 : (y 0).val < 1 := (y 0).isLt
  have y1 : (y 1).val < 1 := (y 1).isLt
  exact point0 (V c main_v0) (V c main_arg1) (iblk0 V c 0 t) (iblk0 V c 1 t) (k0_pay2 (iblk0 V c 0 t) (iblk0 V c 1 t))
    ⟨t.val / 16, by omega⟩ ⟨t.val % 16, by omega⟩ (pay2_apply (iblk0 V c 0 t) (iblk0 V c 1 t))
    (fun u s j => iblk0_0_apply V c t u s j ⟨t.val / 16, by omega⟩ rfl)
    (fun d j => iblk0_1_apply V c t d j ⟨t.val % 16, by omega⟩ rfl)
    y (((cfg0.win 4).blk t).view.emb y)
    (by show win0_4.index t (0 : Fin 4) * 1 + 1 * (y 0).val = t.val / 16; omega)
    (by show win0_4.index t (1 : Fin 4) * 1 + 1 * (y 1).val = t.val % 16; omega)
    (by show win0_4.index t (2 : Fin 4) * 2048 + 1 * (y 2).val = (y 2).val; omega)
    (by show win0_4.index t (3 : Fin 4) * 64 + 1 * (y 3).val = (y 3).val; omega)

/-- An index of the array is in point t's block iff each coordinate is in the block's range on its axis. -/
theorem mem_blk4 (t : Fin cfg0.N) (i : S2x16x2048x64.Idx) :
    i ∈ ((cfg0.win 4).blk t).view.set ↔ ∀ a : Fin 4, win0_4.index t a * S1x1x2048x64.size a ≤ (i a).val ∧ (i a).val < win0_4.index t a * S1x1x2048x64.size a + S1x1x2048x64.size a := by
  show i ∈ ((View.whole main_v1_0).slice (win0_4.rect t)).set ↔ _
  rw [View.set_slice_whole, Rect.mem_set_unit]
  exact Iff.rfl

/-- Every index (b, h, s, d) of the array is in the block of point 16 b + h, which is written back. -/
theorem cover4 (i : S2x16x2048x64.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 32 := N_0
  have hlt : (i 0).val * 16 + (i 1).val < cfg0.N := by rw [hN]; omega
  refine ⟨⟨(i 0).val * 16 + (i 1).val, hlt⟩, flush0_4 _, ?_⟩
  rw [mem_blk4]
  obtain ⟨-, -, -, -, -, -, -, -, -, a0, a1, a2, a3, b0, b1, b2, b3, c0, c1, c2, c3⟩ := idx_facts0 ⟨(i 0).val * 16 + (i 1).val, hlt⟩
  have ht : (⟨(i 0).val * 16 + (i 1).val, hlt⟩ : Fin cfg0.N).val = (i 0).val * 16 + (i 1).val := rfl
  rw [ht] at a0 a1 b0 b1 c0 c1
  intro a
  match a with
  | ⟨0, _⟩ => show win0_4.index ⟨(i 0).val * 16 + (i 1).val, hlt⟩ (0 : Fin 4) * 1 ≤ (i 0).val ∧ (i 0).val < win0_4.index ⟨(i 0).val * 16 + (i 1).val, hlt⟩ (0 : Fin 4) * 1 + 1; omega
  | ⟨1, _⟩ => show win0_4.index ⟨(i 0).val * 16 + (i 1).val, hlt⟩ (1 : Fin 4) * 1 ≤ (i 1).val ∧ (i 1).val < win0_4.index ⟨(i 0).val * 16 + (i 1).val, hlt⟩ (1 : Fin 4) * 1 + 1; omega
  | ⟨2, _⟩ => show win0_4.index ⟨(i 0).val * 16 + (i 1).val, hlt⟩ (2 : Fin 4) * 2048 ≤ (i 2).val ∧ (i 2).val < win0_4.index ⟨(i 0).val * 16 + (i 1).val, hlt⟩ (2 : Fin 4) * 2048 + 2048; omega
  | ⟨3, _⟩ => show win0_4.index ⟨(i 0).val * 16 + (i 1).val, hlt⟩ (3 : Fin 4) * 64 ≤ (i 3).val ∧ (i 3).val < win0_4.index ⟨(i 0).val * 16 + (i 1).val, hlt⟩ (3 : Fin 4) * 64 + 64; omega

/-- The array after the region: out[b, h, s, d] = ∑ j, x[b, s, j] * W[64 h + d, j], at every index. -/
theorem final0_4 (c : Dev nD) : (dat0 (F := Ideal) V c).arrAt 4 cfg0.N
    = fun i => Cert.Proof.AttnSpec.proj (V c main_v0) (V c main_arg1) (i 0) (i 1) (i 2) (i 3) :=
  (dat0 (F := Ideal) V c).arrAt_eq_of_cover 4 _ (fun t _ => flushed4_eq V c t) cover4

/-! ## Output window 5 -/

/-- What point t writes back is block t of the projection of the activations by weight 2. -/
theorem flushed5_eq (c : Dev nD) (t : Fin cfg0.N) :
    (dat0 (F := Ideal) V c).flushed 5 t = ((cfg0.win 5).blk t).view.read (Elt Ideal)
      (fun i => Cert.Proof.AttnSpec.proj (V c main_v0) (V c main_arg2) (i 0) (i 1) (i 2) (i 3)) := by
  show (cfg0.win 5).cut (grid0.coords t) ((dat0 V c).after 5 t) = _
  rw [after0_5]
  unfold out0_5
  rw [View.canon_unit_zero zeros0_4]
  simp only [View.ld_unit_zero (S := S1x2048x1024) zeros0_3, View.ld_unit_zero (S := S64x1024) zeros0_2]
  funext y
  have hN : t.val < 32 := lt_of_lt_of_eq t.isLt N_0
  obtain ⟨-, -, -, -, -, -, -, -, -, a0, a1, a2, a3, b0, b1, b2, b3, c0, c1, c2, c3⟩ := idx_facts0 t
  have y0 : (y 0).val < 1 := (y 0).isLt
  have y1 : (y 1).val < 1 := (y 1).isLt
  exact point0 (V c main_v0) (V c main_arg2) (iblk0 V c 0 t) (iblk0 V c 2 t) (k0_pay3 (iblk0 V c 0 t) (iblk0 V c 2 t))
    ⟨t.val / 16, by omega⟩ ⟨t.val % 16, by omega⟩ (pay3_apply (iblk0 V c 0 t) (iblk0 V c 2 t))
    (fun u s j => iblk0_0_apply V c t u s j ⟨t.val / 16, by omega⟩ rfl)
    (fun d j => iblk0_2_apply V c t d j ⟨t.val % 16, by omega⟩ rfl)
    y (((cfg0.win 5).blk t).view.emb y)
    (by show win0_5.index t (0 : Fin 4) * 1 + 1 * (y 0).val = t.val / 16; omega)
    (by show win0_5.index t (1 : Fin 4) * 1 + 1 * (y 1).val = t.val % 16; omega)
    (by show win0_5.index t (2 : Fin 4) * 2048 + 1 * (y 2).val = (y 2).val; omega)
    (by show win0_5.index t (3 : Fin 4) * 64 + 1 * (y 3).val = (y 3).val; omega)

/-- An index of the array is in point t's block iff each coordinate is in the block's range on its axis. -/
theorem mem_blk5 (t : Fin cfg0.N) (i : S2x16x2048x64.Idx) :
    i ∈ ((cfg0.win 5).blk t).view.set ↔ ∀ a : Fin 4, win0_5.index t a * S1x1x2048x64.size a ≤ (i a).val ∧ (i a).val < win0_5.index t a * S1x1x2048x64.size a + S1x1x2048x64.size a := by
  show i ∈ ((View.whole main_v1_1).slice (win0_5.rect t)).set ↔ _
  rw [View.set_slice_whole, Rect.mem_set_unit]
  exact Iff.rfl

/-- Every index (b, h, s, d) of the array is in the block of point 16 b + h, which is written back. -/
theorem cover5 (i : S2x16x2048x64.Idx) : ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 32 := N_0
  have hlt : (i 0).val * 16 + (i 1).val < cfg0.N := by rw [hN]; omega
  refine ⟨⟨(i 0).val * 16 + (i 1).val, hlt⟩, flush0_5 _, ?_⟩
  rw [mem_blk5]
  obtain ⟨-, -, -, -, -, -, -, -, -, a0, a1, a2, a3, b0, b1, b2, b3, c0, c1, c2, c3⟩ := idx_facts0 ⟨(i 0).val * 16 + (i 1).val, hlt⟩
  have ht : (⟨(i 0).val * 16 + (i 1).val, hlt⟩ : Fin cfg0.N).val = (i 0).val * 16 + (i 1).val := rfl
  rw [ht] at a0 a1 b0 b1 c0 c1
  intro a
  match a with
  | ⟨0, _⟩ => show win0_5.index ⟨(i 0).val * 16 + (i 1).val, hlt⟩ (0 : Fin 4) * 1 ≤ (i 0).val ∧ (i 0).val < win0_5.index ⟨(i 0).val * 16 + (i 1).val, hlt⟩ (0 : Fin 4) * 1 + 1; omega
  | ⟨1, _⟩ => show win0_5.index ⟨(i 0).val * 16 + (i 1).val, hlt⟩ (1 : Fin 4) * 1 ≤ (i 1).val ∧ (i 1).val < win0_5.index ⟨(i 0).val * 16 + (i 1).val, hlt⟩ (1 : Fin 4) * 1 + 1; omega
  | ⟨2, _⟩ => show win0_5.index ⟨(i 0).val * 16 + (i 1).val, hlt⟩ (2 : Fin 4) * 2048 ≤ (i 2).val ∧ (i 2).val < win0_5.index ⟨(i 0).val * 16 + (i 1).val, hlt⟩ (2 : Fin 4) * 2048 + 2048; omega
  | ⟨3, _⟩ => show win0_5.index ⟨(i 0).val * 16 + (i 1).val, hlt⟩ (3 : Fin 4) * 64 ≤ (i 3).val ∧ (i 3).val < win0_5.index ⟨(i 0).val * 16 + (i 1).val, hlt⟩ (3 : Fin 4) * 64 + 64; omega

/-- The array after the region: out[b, h, s, d] = ∑ j, x[b, s, j] * W[64 h + d, j], at every index. -/
theorem final0_5 (c : Dev nD) : (dat0 (F := Ideal) V c).arrAt 5 cfg0.N
    = fun i => Cert.Proof.AttnSpec.proj (V c main_v0) (V c main_arg2) (i 0) (i 1) (i 2) (i 3) :=
  (dat0 (F := Ideal) V c).arrAt_eq_of_cover 5 _ (fun t _ => flushed5_eq V c t) cover5

/-! ## Output window 6 -/

/-- What point t writes back is block t of the projection of the activations by weight 3. -/
theorem flushed6_eq (c : Dev nD) (t : Fin cfg0.N) :
    (dat0 (F := Ideal) V c).flushed 6 t = ((cfg0.win 6).blk t).view.read (Elt Ideal)
      (fun i => Cert.Proof.AttnSpec.proj (V c main_v0) (V c main_arg3) (i 0) (i 1) (i 2) (i 3)) := by
  show (cfg0.win 6).cut (grid0.coords t) ((dat0 V c).after 6 t) = _
  rw [after0_6]
  unfold out0_6
  rw [View.canon_unit_zero zeros0_4]
  simp only [View.ld_unit_zero (S := S1x2048x1024) zeros0_3, View.ld_unit_zero (S := S64x1024) zeros0_2]
  funext y
  have hN : t.val < 32 := lt_of_lt_of_eq t.isLt N_0
  obtain ⟨-, -, -, -, -, -, -, -, -, a0, a1, a2, a3, b0, b1, b2, b3, c0, c1, c2, c3⟩ := idx_facts0 t
  have y0 : (y 0).val < 1 := (y 0).isLt
  have y1 : (y 1).val < 1 := (y 1).isLt
  exact point0 (V c main_v0) (V c main_arg3) (iblk0 V c 0 t) (iblk0 V c 3 t) (k0_pay4 (iblk0 V c 0 t) (iblk0 V c 3 t))
    ⟨t.val / 16, by omega⟩ ⟨t.val % 16, by omega⟩ (pay4_apply (iblk0 V c 0 t) (iblk0 V c 3 t))
    (fun u s j => iblk0_0_apply V c t u s j ⟨t.val / 16, by omega⟩ rfl)
    (fun d j => iblk0_3_apply V c t d j ⟨t.val % 16, by omega⟩ rfl)
    y (((cfg0.win 6).blk t).view.emb y)
    (by show win0_6.index t (0 : Fin 4) * 1 + 1 * (y 0).val = t.val / 16; omega)
    (by show win0_6.index t (1 : Fin 4) * 1 + 1 * (y 1).val = t.val % 16; omega)
    (by show win0_6.index t (2 : Fin 4) * 2048 + 1 * (y 2).val = (y 2).val; omega)
    (by show win0_6.index t (3 : Fin 4) * 64 + 1 * (y 3).val = (y 3).val; omega)

/-- An index of the array is in point t's block iff each coordinate is in the block's range on its axis. -/
theorem mem_blk6 (t : Fin cfg0.N) (i : S2x16x2048x64.Idx) :
    i ∈ ((cfg0.win 6).blk t).view.set ↔ ∀ a : Fin 4, win0_6.index t a * S1x1x2048x64.size a ≤ (i a).val ∧ (i a).val < win0_6.index t a * S1x1x2048x64.size a + S1x1x2048x64.size a := by
  show i ∈ ((View.whole main_v1_2).slice (win0_6.rect t)).set ↔ _
  rw [View.set_slice_whole, Rect.mem_set_unit]
  exact Iff.rfl

/-- Every index (b, h, s, d) of the array is in the block of point 16 b + h, which is written back. -/
theorem cover6 (i : S2x16x2048x64.Idx) : ∃ t : Fin cfg0.N, (cfg0.win 6).flush t = true ∧ i ∈ ((cfg0.win 6).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 32 := N_0
  have hlt : (i 0).val * 16 + (i 1).val < cfg0.N := by rw [hN]; omega
  refine ⟨⟨(i 0).val * 16 + (i 1).val, hlt⟩, flush0_6 _, ?_⟩
  rw [mem_blk6]
  obtain ⟨-, -, -, -, -, -, -, -, -, a0, a1, a2, a3, b0, b1, b2, b3, c0, c1, c2, c3⟩ := idx_facts0 ⟨(i 0).val * 16 + (i 1).val, hlt⟩
  have ht : (⟨(i 0).val * 16 + (i 1).val, hlt⟩ : Fin cfg0.N).val = (i 0).val * 16 + (i 1).val := rfl
  rw [ht] at a0 a1 b0 b1 c0 c1
  intro a
  match a with
  | ⟨0, _⟩ => show win0_6.index ⟨(i 0).val * 16 + (i 1).val, hlt⟩ (0 : Fin 4) * 1 ≤ (i 0).val ∧ (i 0).val < win0_6.index ⟨(i 0).val * 16 + (i 1).val, hlt⟩ (0 : Fin 4) * 1 + 1; omega
  | ⟨1, _⟩ => show win0_6.index ⟨(i 0).val * 16 + (i 1).val, hlt⟩ (1 : Fin 4) * 1 ≤ (i 1).val ∧ (i 1).val < win0_6.index ⟨(i 0).val * 16 + (i 1).val, hlt⟩ (1 : Fin 4) * 1 + 1; omega
  | ⟨2, _⟩ => show win0_6.index ⟨(i 0).val * 16 + (i 1).val, hlt⟩ (2 : Fin 4) * 2048 ≤ (i 2).val ∧ (i 2).val < win0_6.index ⟨(i 0).val * 16 + (i 1).val, hlt⟩ (2 : Fin 4) * 2048 + 2048; omega
  | ⟨3, _⟩ => show win0_6.index ⟨(i 0).val * 16 + (i 1).val, hlt⟩ (3 : Fin 4) * 64 ≤ (i 3).val ∧ (i 3).val < win0_6.index ⟨(i 0).val * 16 + (i 1).val, hlt⟩ (3 : Fin 4) * 64 + 64; omega

/-- The array after the region: out[b, h, s, d] = ∑ j, x[b, s, j] * W[64 h + d, j], at every index. -/
theorem final0_6 (c : Dev nD) : (dat0 (F := Ideal) V c).arrAt 6 cfg0.N
    = fun i => Cert.Proof.AttnSpec.proj (V c main_v0) (V c main_arg3) (i 0) (i 1) (i 2) (i 3) :=
  (dat0 (F := Ideal) V c).arrAt_eq_of_cover 6 _ (fun t _ => flushed6_eq V c t) cover6
end

end Cert.KernelIdeal.Gen
end
-- ==== Proof.R1Steps.lean ====
/-
  One key tile's update of the running statistics of a block of query rows, as four functions of the blocks and of what
  the tile before left: the new running maximum, the new running denominator, the new running numerator, and (after a
  head's last key tile) the output block with the head's contribution added. They are compositions of the body's
  arithmetic; the second kernel's stores are these and nothing else.
-/
import proofs.«110170_j50130858279277_2_alg».proof.Proof.Gen.KernelIdeal.Skeleton

noncomputable section

namespace Cert.KernelIdeal.Gen

open Idealize.ShloMosaic Idealize.SL.Sem

variable {F : FTy → Type} [FloatOps F] [Named F]

/-- The new running maximum of each query row: the larger of the old one and the largest score of the tile. -/
def mNew (x0 : Vec F S1x1x2048x64 .bf16) (x1 : Vec F S1x1x256x64 .bf16) (m : Vec F S2048x1 .f32) : Vec F S2048x1 .f32 :=
  k1_pay3 (k1_pay11 x0 x1 m)
/-- The new running denominator: the old one rescaled to the new maximum, plus the tile's exponentials. -/
def lNew (x0 : Vec F S1x1x2048x64 .bf16) (x1 : Vec F S1x1x256x64 .bf16) (m l : Vec F S2048x1 .f32) : Vec F S2048x1 .f32 :=
  k1_pay1 (k1_pay13 x0 x1 m) (k1_pay14 x0 x1 m m l)
/-- The new running numerator: the old one rescaled, plus the tile's exponentials times the tile's values. -/
def aNew (x0 : Vec F S1x1x2048x64 .bf16) (x1 x2 : Vec F S1x1x256x64 .bf16) (m : Vec F S2048x1 .f32) (a : Vec F S2048x64 .f32) : Vec F S2048x64 .f32 :=
  k1_pay2 (k1_pay9 x2) (k1_pay12 x0 x1 m m) (k1_pay13 x0 x1 m) a
/-- The output block after a head's last key tile: the old block plus (numerator / denominator) times the head's slice
    of the output weights. -/
def oNew (x3 : Vec F S1x1024x64 .f32) (a : Vec F S2048x64 .f32) (l : Vec F S2048x1 .f32) (o : Vec F S1x2048x1024 .f32) : Vec F S1x2048x1024 .f32 :=
  k1_pay4 a l x3 o

end Cert.KernelIdeal.Gen

end
-- ==== Proof.R1Pieces.lean ====
/-
  What each case of the second kernel's body leaves in the buffers it stores into, as explicit terms of the body's
  arithmetic. One key tile's update of the running statistics of a block of query rows is three functions: the new
  running maximum, the new running denominator, the new running numerator; the last key tile's contribution to the output
  block is a fourth. Cases C and D apply them to what the tile before left; cases A and B to the reset values (maximum
  at the named constant, denominator and numerator at zero); case A also zeroes the output block.
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1Frame
import proofs.«110170_j50130858279277_2_alg».proof.Proof.R1Steps
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! ## Case C: a middle key tile -/

theorem sout1_C_0_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) :
    sout1_C_0 c i arg3 harg3 arg4 harg4 arg5 harg5 arg6 harg6 arg7 harg7 arg8 harg8 arg9 harg9 arg10 harg10 hc0 hc1 hc2 x0 x1 x2 x3 xs0 xs1 xs2 = mNew x0 x1 xs0 := by
  unfold sout1_C_0
  rw [View.read_writes_eq_canon _ _ _ (scover1_C_0 c i arg3 harg3 arg4 harg4 arg5 harg5 arg6 harg6 arg7 harg7 arg8 harg8 arg9 harg9 arg10 harg10 hc0 hc1 hc2 x0 x1 x2 x3 xs0 xs1 xs2)]
  unfold kernelRun1_C
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_C_1_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) :
    sout1_C_1 c i arg3 harg3 arg4 harg4 arg5 harg5 arg6 harg6 arg7 harg7 arg8 harg8 arg9 harg9 arg10 harg10 hc0 hc1 hc2 x0 x1 x2 x3 xs0 xs1 xs2 = lNew x0 x1 xs0 xs1 := by
  unfold sout1_C_1
  rw [View.read_writes_eq_canon _ _ _ (scover1_C_1 c i arg3 harg3 arg4 harg4 arg5 harg5 arg6 harg6 arg7 harg7 arg8 harg8 arg9 harg9 arg10 harg10 hc0 hc1 hc2 x0 x1 x2 x3 xs0 xs1 xs2)]
  unfold kernelRun1_C
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_C_2_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) (xs0 : Vec F S2048x1 .f32) (xs1 : Vec F S2048x1 .f32) (xs2 : Vec F S2048x64 .f32) :
    sout1_C_2 c i arg3 harg3 arg4 harg4 arg5 harg5 arg6 harg6 arg7 harg7 arg8 harg8 arg9 harg9 arg10 harg10 hc0 hc1 hc2 x0 x1 x2 x3 xs0 xs1 xs2 = aNew x0 x1 x2 xs0 xs2 := by
  unfold sout1_C_2
  rw [View.read_writes_eq_canon _ _ _ (scover1_C_2 c i arg3 harg3 arg4 harg4 arg5 harg5 arg6 harg6 arg7 harg7 arg8 harg8 arg9 harg9 arg10 harg10 hc0 hc1 hc2 x0 x1 x2 x3 xs0 xs1 xs2)]
  unfold kernelRun1_C
  dsimp only
  sl_unfold_words
  rw [View.canon_unit_zero (S := S2048x64) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

/-! ## Case D: the last key tile -/

theorem sout1_D_0_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) :
    sout1_D_0 c i arg3 harg3 arg4 harg4 arg5 harg5 arg6 harg6 arg7 harg7 arg8 harg8 arg9 harg9 arg10 harg10 hc0 hc1 hc2 x0 x1 x2 x3 xo4 xs0 xs1 xs2 = mNew x0 x1 xs0 := by
  unfold sout1_D_0
  rw [View.read_writes_eq_canon _ _ _ (scover1_D_0 c i arg3 harg3 arg4 harg4 arg5 harg5 arg6 harg6 arg7 harg7 arg8 harg8 arg9 harg9 arg10 harg10 hc0 hc1 hc2 x0 x1 x2 x3 xo4 xs0 xs1 xs2)]
  unfold kernelRun1_D
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_D_1_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) :
    sout1_D_1 c i arg3 harg3 arg4 harg4 arg5 harg5 arg6 harg6 arg7 harg7 arg8 harg8 arg9 harg9 arg10 harg10 hc0 hc1 hc2 x0 x1 x2 x3 xo4 xs0 xs1 xs2 = lNew x0 x1 xs0 xs1 := by
  unfold sout1_D_1
  rw [View.read_writes_eq_canon _ _ _ (scover1_D_1 c i arg3 harg3 arg4 harg4 arg5 harg5 arg6 harg6 arg7 harg7 arg8 harg8 arg9 harg9 arg10 harg10 hc0 hc1 hc2 x0 x1 x2 x3 xo4 xs0 xs1 xs2)]
  unfold kernelRun1_D
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_D_2_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) :
    sout1_D_2 c i arg3 harg3 arg4 harg4 arg5 harg5 arg6 harg6 arg7 harg7 arg8 harg8 arg9 harg9 arg10 harg10 hc0 hc1 hc2 x0 x1 x2 x3 xo4 xs0 xs1 xs2 = aNew x0 x1 x2 xs0 xs2 := by
  unfold sout1_D_2
  rw [View.read_writes_eq_canon _ _ _ (scover1_D_2 c i arg3 harg3 arg4 harg4 arg5 harg5 arg6 harg6 arg7 harg7 arg8 harg8 arg9 harg9 arg10 harg10 hc0 hc1 hc2 x0 x1 x2 x3 xo4 xs0 xs1 xs2)]
  unfold kernelRun1_D
  dsimp only
  sl_unfold_words
  rw [View.canon_unit_zero (S := S2048x64) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem out1_D_4_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond1_0 i) (hc1 : ¬cond1_1 i) (hc2 : cond1_2 i)
    (x0 : Vec F S1x1x2048x64 .bf16) (x1 : Vec F S1x1x256x64 .bf16) (x2 : Vec F S1x1x256x64 .bf16) (x3 : Vec F S1x1024x64 .f32) (xo4 : Vec F S1x2048x1024 .f32) (xs0 : Vec F S2048x1 .f32) (xs1 : Vec F S2048x1 .f32) (xs2 : Vec F S2048x64 .f32) :
    out1_D_4 c i arg3 harg3 arg4 harg4 arg5 harg5 arg6 harg6 arg7 harg7 arg8 harg8 arg9 harg9 arg10 harg10 hc0 hc1 hc2 x0 x1 x2 x3 xo4 xs0 xs1 xs2 = oNew x3 (aNew x0 x1 x2 xs0 xs2) (lNew x0 x1 xs0 xs1) xo4 := by
  unfold out1_D_4
  rw [View.read_writes_eq_canon _ _ _ (cover1_D_4 c i arg3 harg3 arg4 harg4 arg5 harg5 arg6 harg6 arg7 harg7 arg8 harg8 arg9 harg9 arg10 harg10 hc0 hc1 hc2 x0 x1 x2 x3 xo4 xs0 xs1 xs2)]
  unfold kernelRun1_D
  dsimp only
  sl_unfold_words
  rw [View.canon_unit_zero (S := S1x2048x1024) hz3]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

/-! ## Case B: a later head's first key tile (the scratch reset first) -/

theorem sout1_B_0_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) :
    sout1_B_0 c i arg3 harg3 arg4 harg4 arg5 harg5 arg6 harg6 arg7 harg7 arg8 harg8 arg9 harg9 arg10 harg10 hc0 hc1 hc2 x0 x1 x2 x3 = mNew x0 x1 (k1_pay5 (F := F)) := by
  unfold sout1_B_0
  rw [View.read_writes_eq_canon _ _ _ (scover1_B_0 c i arg3 harg3 arg4 harg4 arg5 harg5 arg6 harg6 arg7 harg7 arg8 harg8 arg9 harg9 arg10 harg10 hc0 hc1 hc2 x0 x1 x2 x3)]
  unfold kernelRun1_B
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_B_1_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) :
    sout1_B_1 c i arg3 harg3 arg4 harg4 arg5 harg5 arg6 harg6 arg7 harg7 arg8 harg8 arg9 harg9 arg10 harg10 hc0 hc1 hc2 x0 x1 x2 x3 = lNew x0 x1 (k1_pay5 (F := F)) (k1_pay6 (F := F)) := by
  unfold sout1_B_1
  rw [View.read_writes_eq_canon _ _ _ (scover1_B_1 c i arg3 harg3 arg4 harg4 arg5 harg5 arg6 harg6 arg7 harg7 arg8 harg8 arg9 harg9 arg10 harg10 hc0 hc1 hc2 x0 x1 x2 x3)]
  unfold kernelRun1_B
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_B_2_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : ¬cond1_1 i) (hc2 : ¬cond1_2 i)
    (x0 : Vec F S1x1x2048x64 .bf16) (x1 : Vec F S1x1x256x64 .bf16) (x2 : Vec F S1x1x256x64 .bf16) (x3 : Vec F S1x1024x64 .f32) :
    sout1_B_2 c i arg3 harg3 arg4 harg4 arg5 harg5 arg6 harg6 arg7 harg7 arg8 harg8 arg9 harg9 arg10 harg10 hc0 hc1 hc2 x0 x1 x2 x3 = aNew x0 x1 x2 (k1_pay5 (F := F)) (k1_pay7 (F := F)) := by
  unfold sout1_B_2
  rw [View.read_writes_eq_canon _ _ _ (scover1_B_2 c i arg3 harg3 arg4 harg4 arg5 harg5 arg6 harg6 arg7 harg7 arg8 harg8 arg9 harg9 arg10 harg10 hc0 hc1 hc2 x0 x1 x2 x3)]
  unfold kernelRun1_B
  dsimp only
  sl_unfold_words
  rw [View.canon_cons_unit_zero (S := S2048x64) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

/-! ## Case A: the first head's first key tile (the scratch reset and the output block zeroed) -/

theorem sout1_A_0_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) :
    sout1_A_0 c i arg3 harg3 arg4 harg4 arg5 harg5 arg6 harg6 arg7 harg7 arg8 harg8 arg9 harg9 arg10 harg10 hc0 hc1 hc2 x0 x1 x2 x3 = mNew x0 x1 (k1_pay5 (F := F)) := by
  unfold sout1_A_0
  rw [View.read_writes_eq_canon _ _ _ (scover1_A_0 c i arg3 harg3 arg4 harg4 arg5 harg5 arg6 harg6 arg7 harg7 arg8 harg8 arg9 harg9 arg10 harg10 hc0 hc1 hc2 x0 x1 x2 x3)]
  unfold kernelRun1_A
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_A_1_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) :
    sout1_A_1 c i arg3 harg3 arg4 harg4 arg5 harg5 arg6 harg6 arg7 harg7 arg8 harg8 arg9 harg9 arg10 harg10 hc0 hc1 hc2 x0 x1 x2 x3 = lNew x0 x1 (k1_pay5 (F := F)) (k1_pay6 (F := F)) := by
  unfold sout1_A_1
  rw [View.read_writes_eq_canon _ _ _ (scover1_A_1 c i arg3 harg3 arg4 harg4 arg5 harg5 arg6 harg6 arg7 harg7 arg8 harg8 arg9 harg9 arg10 harg10 hc0 hc1 hc2 x0 x1 x2 x3)]
  unfold kernelRun1_A
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem sout1_A_2_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) :
    sout1_A_2 c i arg3 harg3 arg4 harg4 arg5 harg5 arg6 harg6 arg7 harg7 arg8 harg8 arg9 harg9 arg10 harg10 hc0 hc1 hc2 x0 x1 x2 x3 = aNew x0 x1 x2 (k1_pay5 (F := F)) (k1_pay7 (F := F)) := by
  unfold sout1_A_2
  rw [View.read_writes_eq_canon _ _ _ (scover1_A_2 c i arg3 harg3 arg4 harg4 arg5 harg5 arg6 harg6 arg7 harg7 arg8 harg8 arg9 harg9 arg10 harg10 hc0 hc1 hc2 x0 x1 x2 x3)]
  unfold kernelRun1_A
  dsimp only
  sl_unfold_words
  rw [View.canon_cons_unit_zero (S := S2048x64) hz2]
  simp only [View.readAt_eq_ld, harg3.read_unread, harg4.read_unread, harg5.read_unread, harg6.read_unread, harg7.read_unread, harg8.read_unread, harg9.read_unread, harg10.read_unread,
    View.readCov_unit_zero (S := S2048x1) _ hz2, View.readCov_unit_zero (S := S2048x64) _ hz2, View.readCov_unit_zero (S := S1x2048x1024) _ hz3,
    View.ld_unit_zero (S := S1x1x2048x64) hz4, View.ld_unit_zero (S := S1x1x256x64) hz4, View.ld_unit_zero (S := S1x1024x64) hz3, View.ld_unit_zero (S := S1x2048x1024) hz3,
    View.ld_unit_zero (S := S2048x1) hz2, View.ld_unit_zero (S := S2048x64) hz2]
  rfl

theorem out1_A_4_eq (c : Dev nD) (i : grid1.Coords) (arg3 : Memref sig .tc .vmem S1x1x2048x64 .bf16) (harg3 : arg3.IsWhole) (arg4 : Memref sig .tc .vmem S1x1x256x64 .bf16) (harg4 : arg4.IsWhole) (arg5 : Memref sig .tc .vmem S1x1x256x64 .bf16) (harg5 : arg5.IsWhole) (arg6 : Memref sig .tc .vmem S1x1024x64 .f32) (harg6 : arg6.IsWhole) (arg7 : Memref sig .tc .vmem S1x2048x1024 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond1_0 i) (hc1 : cond1_1 i) (hc2 : ¬cond1_2 i)
    (x0 : Vec F S1x1x2048x64 .bf16) (x1 : Vec F S1x1x256x64 .bf16) (x2 : Vec F S1x1x256x64 .bf16) (x3 : Vec F S1x1024x64 .f32) :
    out1_A_4 c i arg3 harg3 arg4 harg4 arg5 harg5 arg6 harg6 arg7 harg7 arg8 harg8 arg9 harg9 arg10 harg10 hc0 hc1 hc2 x0 x1 x2 x3 = k1_pay8 (F := F) := by
  unfold out1_A_4
  rw [View.read_writes_eq_canon _ _ _ (cover1_A_4 c i arg3 harg3 arg4 harg4 arg5 harg5 arg6 harg6 arg7 harg7 arg8 harg8 arg9 harg9 arg10 harg10 hc0 hc1 hc2 x0 x1 x2 x3)]
  unfold kernelRun1_A
  dsimp only
  sl_unfold_words
  rw [View.canon_unit_zero (S := S1x2048x1024) hz3]

end Cert.KernelIdeal.Gen

end
-- ==== Proof.OnlineSoftmax.lean ====
/-
  The online softmax: a row of 2048 real scores S and 2048 real values V, read in 8 tiles of 256 (position t = 256 j + c).
  A running maximum m, a running denominator l and a running numerator acc start at ⊥, 0, 0; tile j updates them to

    m'   = max m (the tile's maximum)
    l'   = exp (m - m') * l   + ∑ c, exp (S (256 j + c) - m')
    acc' = exp (m - m') * acc + ∑ c, exp (S (256 j + c) - m') * V (256 j + c)

  in the extended reals (exp ⊥ = 0, and ⊥ minus a real is ⊥, so the first tile's rescaling factor is 0 and 0 * 0 = 0).
  After j tiles the three are, in closed form over the positions t < 256 j seen so far,

    mAfter j = sup S,  lAfter j = ∑ exp (S t - mAfter j),  accAfter j = ∑ exp (S t - mAfter j) * V t

  (m_step, l_step, acc_step), and after all 8 the quotient acc / l is the softmax-weighted sum of the values
  ∑ t, (exp (S t - M) / ∑ t', exp (S t' - M)) * V t with M the row's maximum (final). The algebra is the reals'
  (exp (a - m) * exp (m - m') = exp (a - m'), a positive denominator); the coercion into the extended reals carries it.
  Also here: a sum over the 1024 features is the double sum over 16 heads and 64 coordinates (sum_heads), an accumulator
  that starts at 0 and adds one head's term after another ends at the sum over the heads (head_accum), and, for
  arguments without infinities, one head's attention output in the specification is the online quotient (attn_eq_online).
-/
import Idealize.ShloMosaic.PureOps.Ideal
import Idealize.ShloMosaic.PureOps.Ideal.Laws
import Idealize.ShloMosaic.Lib.ValueIdx
import proofs.«110170_j50130858279277_2_alg».proof.Proof.AttnSpec

noncomputable section

open scoped BigOperators

namespace Cert.Proof.OnlineSoftmax

open Idealize.ShloMosaic Cert.Proof.AttnSpec

/-- Position 256 j + c: column c of tile j. -/
def tileIdx (j : Fin 8) (c : Fin 256) : Fin 2048 := ⟨256 * j.val + c.val, by omega⟩

/-- The positions of the first j tiles. -/
def firstTiles (j : ℕ) : Finset (Fin 2048) := Finset.univ.filter fun t => t.val < 256 * j

/-- The running maximum after j tiles: the supremum of the scores seen (⊥ before the first). -/
def mAfter (S : Fin 2048 → ℝ) (j : ℕ) : EReal := (firstTiles j).sup fun t => (S t : EReal)
/-- The running denominator after j tiles. -/
def lAfter (S : Fin 2048 → ℝ) (j : ℕ) : EReal := ∑ t ∈ firstTiles j, Ideal.exp ((S t : EReal) - mAfter S j)
/-- The running numerator after j tiles. -/
def accAfter (S V : Fin 2048 → ℝ) (j : ℕ) : EReal :=
  ∑ t ∈ firstTiles j, Ideal.exp ((S t : EReal) - mAfter S j) * (V t : EReal)
/-- One tile's maximum. -/
def tileMax (S : Fin 2048 → ℝ) (j : Fin 8) : EReal := Finset.univ.sup fun c : Fin 256 => (S (tileIdx j c) : EReal)

/-- A fold of max from ⊥ is the supremum. -/
theorem fold_max_bot {ι : Type} (s : Finset ι) (f : ι → EReal) : s.fold max ⊥ f = s.sup f := rfl

/-! ## The algebra over any finite index set -/

section Generic
variable {ι : Type} [DecidableEq ι]

/-- The exponential of a difference of reals, in the extended reals. -/
theorem exp_coe_sub (a m : ℝ) : Ideal.exp ((a : EReal) - (m : EReal)) = ((Real.exp (a - m) : ℝ) : EReal) := by
  rw [← EReal.coe_sub]; rfl

/-- The supremum of finitely many reals over a nonempty set is a real. -/
theorem sup_coe_real (S : ι → ℝ) {A : Finset ι} (hA : A.Nonempty) :
    ∃ μ : ℝ, (A.sup fun t => (S t : EReal)) = (μ : EReal) := by
  obtain ⟨i, _, hi⟩ := Finset.exists_mem_eq_sup A hA (fun t => (S t : EReal))
  exact ⟨S i, hi⟩

theorem sum_exp_coe (S : ι → ℝ) (A : Finset ι) (μ : ℝ) :
    ∑ t ∈ A, Ideal.exp ((S t : EReal) - (μ : EReal)) = ((∑ t ∈ A, Real.exp (S t - μ) : ℝ) : EReal) := by
  rw [coe_sum]
  exact Finset.sum_congr rfl fun t _ => exp_coe_sub _ _

theorem sum_exp_mul_coe (S V : ι → ℝ) (A : Finset ι) (μ : ℝ) :
    ∑ t ∈ A, Ideal.exp ((S t : EReal) - (μ : EReal)) * (V t : EReal)
      = ((∑ t ∈ A, Real.exp (S t - μ) * V t : ℝ) : EReal) := by
  rw [coe_sum]
  refine Finset.sum_congr rfl fun t _ => ?_
  rw [exp_coe_sub, EReal.coe_mul]

/-- One update of the weighted running sum: the sum over A shifted by A's supremum, rescaled to the supremum of A ∪ B,
    plus the sum over B shifted by that supremum, is the sum over A ∪ B shifted by it. With A empty the rescaling factor
    is exp ⊥ = 0 against an empty sum. -/
theorem step_gen (S V : ι → ℝ) (A B : Finset ι) (hAB : Disjoint A B) (hB : B.Nonempty) :
    Ideal.exp ((A.sup fun t => (S t : EReal)) - ((A ∪ B).sup fun t => (S t : EReal)))
        * (∑ t ∈ A, Ideal.exp ((S t : EReal) - A.sup fun t => (S t : EReal)) * (V t : EReal))
      + ∑ t ∈ B, Ideal.exp ((S t : EReal) - (A ∪ B).sup fun t => (S t : EReal)) * (V t : EReal)
      = ∑ t ∈ A ∪ B, Ideal.exp ((S t : EReal) - (A ∪ B).sup fun t => (S t : EReal)) * (V t : EReal) := by
  obtain ⟨μ', hμ'⟩ := sup_coe_real S (A := A ∪ B) (hB.mono Finset.subset_union_right)
  rw [hμ', Finset.sum_union hAB]
  congr 1
  rcases A.eq_empty_or_nonempty with hA | hA
  · subst hA
    simp only [Finset.sum_empty, mul_zero]
  · obtain ⟨μ, hμ⟩ := sup_coe_real S hA
    rw [hμ, sum_exp_mul_coe, sum_exp_mul_coe, exp_coe_sub, ← EReal.coe_mul, Finset.mul_sum]
    congr 1
    refine Finset.sum_congr rfl fun t _ => ?_
    rw [← mul_assoc, ← Real.exp_add]
    congr 2
    ring

end Generic

/-! ## The tiles -/

/-- Tile j's positions, by column. -/
def tileEmb (j : Fin 8) : Fin 256 ↪ Fin 2048 :=
  ⟨tileIdx j, fun c c' h => Fin.ext (by
    have h' : 256 * j.val + c.val = 256 * j.val + c'.val := congrArg Fin.val h
    omega)⟩

/-- Tile j's positions. -/
def tile (j : Fin 8) : Finset (Fin 2048) := Finset.univ.map (tileEmb j)

theorem tile_nonempty (j : Fin 8) : (tile j).Nonempty := Finset.map_nonempty.2 Finset.univ_nonempty

theorem firstTiles_zero : firstTiles 0 = ∅ := by
  ext t
  simp only [firstTiles, Finset.mem_filter, Finset.mem_univ, true_and, Finset.notMem_empty, iff_false]
  omega

theorem firstTiles_eight : firstTiles 8 = Finset.univ := by
  ext t
  simp only [firstTiles, Finset.mem_filter, Finset.mem_univ, true_and, iff_true]
  have := t.isLt
  omega

theorem firstTiles_succ (j : Fin 8) : firstTiles (j.val + 1) = firstTiles j.val ∪ tile j := by
  ext t
  simp only [firstTiles, tile, Finset.mem_filter, Finset.mem_univ, true_and, Finset.mem_union, Finset.mem_map]
  constructor
  · intro h
    by_cases h' : t.val < 256 * j.val
    · exact Or.inl h'
    · exact Or.inr ⟨⟨t.val - 256 * j.val, by omega⟩, Fin.ext (by
        show 256 * j.val + (t.val - 256 * j.val) = t.val
        omega)⟩
  · rintro (h | ⟨c, rfl⟩)
    · omega
    · have := c.isLt
      show 256 * j.val + c.val < 256 * (j.val + 1)
      omega

theorem disjoint_tile (j : Fin 8) : Disjoint (firstTiles j.val) (tile j) := by
  rw [Finset.disjoint_left]
  intro t ht ht'
  simp only [firstTiles, Finset.mem_filter, Finset.mem_univ, true_and] at ht
  simp only [tile, Finset.mem_map, Finset.mem_univ, true_and] at ht'
  obtain ⟨c, rfl⟩ := ht'
  have : (tileEmb j c).val = 256 * j.val + c.val := rfl
  omega

/-! ## The three running quantities -/

theorem mAfter_zero (S : Fin 2048 → ℝ) : mAfter S 0 = ⊥ := by
  unfold mAfter; rw [firstTiles_zero, Finset.sup_empty]
theorem lAfter_zero (S : Fin 2048 → ℝ) : lAfter S 0 = 0 := by
  unfold lAfter; rw [firstTiles_zero, Finset.sum_empty]
theorem accAfter_zero (S V : Fin 2048 → ℝ) : accAfter S V 0 = 0 := by
  unfold accAfter; rw [firstTiles_zero, Finset.sum_empty]

/-- The running maximum's update. -/
theorem m_step (S : Fin 2048 → ℝ) (j : Fin 8) : max (mAfter S j.val) (tileMax S j) = mAfter S (j.val + 1) := by
  unfold mAfter tileMax
  rw [firstTiles_succ, Finset.sup_union, tile, Finset.sup_map]
  rfl

/-- The running numerator's update. -/
theorem acc_step (S V : Fin 2048 → ℝ) (j : Fin 8) :
    Ideal.exp (mAfter S j.val - mAfter S (j.val + 1)) * accAfter S V j.val
      + ∑ c : Fin 256, Ideal.exp ((S (tileIdx j c) : EReal) - mAfter S (j.val + 1)) * (V (tileIdx j c) : EReal)
      = accAfter S V (j.val + 1) := by
  unfold accAfter mAfter
  rw [firstTiles_succ]
  refine Eq.trans ?_ (step_gen S V (firstTiles j.val) (tile j) (disjoint_tile j) (tile_nonempty j))
  rw [tile, Finset.sum_map]
  rfl

/-- The denominator is the numerator at the constant value 1. -/
theorem lAfter_eq_accAfter_one (S : Fin 2048 → ℝ) (j : ℕ) : lAfter S j = accAfter S (fun _ => 1) j := by
  unfold lAfter accAfter
  refine Finset.sum_congr rfl fun t _ => ?_
  rw [EReal.coe_one, mul_one]

/-- The running denominator's update. -/
theorem l_step (S : Fin 2048 → ℝ) (j : Fin 8) :
    Ideal.exp (mAfter S j.val - mAfter S (j.val + 1)) * lAfter S j.val
      + ∑ c : Fin 256, Ideal.exp ((S (tileIdx j c) : EReal) - mAfter S (j.val + 1)) = lAfter S (j.val + 1) := by
  have h := acc_step S (fun _ => 1) j
  rw [← lAfter_eq_accAfter_one, ← lAfter_eq_accAfter_one] at h
  simpa only [EReal.coe_one, mul_one] using h

/-- After the eighth tile the quotient is the softmax-weighted sum of the values. -/
theorem final (S V : Fin 2048 → ℝ) :
    Ideal.div (accAfter S V 8) (lAfter S 8)
      = ∑ t : Fin 2048,
          Ideal.div (Ideal.exp ((S t : EReal) - Finset.univ.sup fun u : Fin 2048 => (S u : EReal)))
            (∑ t' : Fin 2048, Ideal.exp ((S t' : EReal) - Finset.univ.sup fun u : Fin 2048 => (S u : EReal)))
          * (V t : EReal) := by
  unfold accAfter lAfter mAfter
  rw [firstTiles_eight]
  obtain ⟨μ, hμ⟩ := sup_coe_real S (A := Finset.univ) Finset.univ_nonempty
  rw [hμ, sum_exp_mul_coe S V Finset.univ μ, sum_exp_coe S Finset.univ μ]
  have hL : (0 : ℝ) < ∑ t : Fin 2048, Real.exp (S t - μ) :=
    Finset.sum_pos (fun t _ => Real.exp_pos _) Finset.univ_nonempty
  rw [Ideal.div_coe hL.ne', ← EReal.coe_mul, Finset.sum_mul, coe_sum]
  refine Finset.sum_congr rfl fun t _ => ?_
  rw [Ideal.div_coe hL.ne', exp_coe_sub, ← EReal.coe_mul, ← EReal.coe_mul]
  refine congrArg Real.toEReal ?_
  ring

/-! ## Heads -/

/-- Features as (head, coordinate) pairs. -/
def headEquiv : Fin 16 × Fin 64 ≃ Fin 1024 where
  toFun p := hcol p.1 p.2
  invFun h := (headOf h, dimOf h)
  left_inv p := Prod.ext (headOf_hcol _ _) (dimOf_hcol _ _)
  right_inv h := hcol_headOf_dimOf h

/-- A sum over the 1024 features is the double sum over heads and coordinates. -/
theorem sum_heads {M : Type} [AddCommMonoid M] (f : Fin 1024 → M) :
    ∑ h : Fin 1024, f h = ∑ n : Fin 16, ∑ d : Fin 64, f (hcol n d) := by
  rw [← Equiv.sum_comp headEquiv f, Fintype.sum_prod_type]
  rfl

/-- An accumulator that starts at 0 and adds the heads' terms one after another ends at their sum. -/
theorem head_accum {M : Type} [AddCommMonoid M] (δ : Fin 16 → M) (O : ℕ → M) (h0 : O 0 = 0)
    (hs : ∀ n : Fin 16, O (n.val + 1) = O n.val + δ n) : O 16 = ∑ n : Fin 16, δ n := by
  have key : ∀ k, k ≤ 16 → O k = ∑ i ∈ Finset.range k, (if h : i < 16 then δ ⟨i, h⟩ else 0) := by
    intro k
    induction k with
    | zero => intro _; rw [h0, Finset.range_zero, Finset.sum_empty]
    | succ k ih =>
      intro hk
      have hk' : k < 16 := hk
      rw [Finset.sum_range_succ, ← ih (by omega), dif_pos hk']
      exact hs ⟨k, hk'⟩
  rw [key 16 le_rfl, Finset.sum_range]
  refine Finset.sum_congr rfl fun n _ => ?_
  rw [dif_pos n.isLt]

/-- The specification's result through the heads: the form a program that adds one head's contribution after another meets. -/
theorem out_eq_heads (X : Arr3) (Wq Wk Wv Wo : Arr2) (b : Fin 2) (s : Fin 2048) (c : Fin 1024) :
    out X Wq Wk Wv Wo b s c
      = ∑ n : Fin 16, ∑ d : Fin 64, attn X Wq Wk Wv b n s d * Wo (ValueIdx.ix2 c (hcol n d)) := by
  unfold out
  rw [sum_heads]
  simp only [headOf_hcol, dimOf_hcol]

/-- For arguments without infinities one head's attention output is the online quotient over the real scores and values. -/
theorem attn_eq_online {X : Arr3} {Wq Wk Wv : Arr2} (hX : Finite X) (hq : Finite Wq) (hk : Finite Wk) (hv : Finite Wv)
    (b : Fin 2) (n : Fin 16) (s : Fin 2048) (d : Fin 64) :
    attn X Wq Wk Wv b n s d
      = Ideal.div (accAfter (fun t => scoreR X Wq Wk b n s t) (fun t => projR X Wv b n t d) 8)
          (lAfter (fun t => scoreR X Wq Wk b n s t) 8) := by
  rw [final]
  unfold attn denom expo rowMax
  simp only [score_eq_coe hX hq hk, proj_eq_coe hX hv]

end Cert.Proof.OnlineSoftmax

end
-- ==== Proof.R1States.lean ====
/-
  The state after a grid point of the second kernel region, case by case, as the four update functions applied to the
  point's blocks and to the state the point before left (cases C, D) or to the reset values (cases A, B).
-/
import proofs.«110170_j50130858279277_2_alg».proof.Proof.Gen.KernelIdeal.Launch
import proofs.«110170_j50130858279277_2_alg».proof.Proof.Gen.KernelIdeal.Skeleton
import proofs.«110170_j50130858279277_2_alg».proof.Proof.Gen.KernelIdeal.Points
import Idealize.ShloMosaic.Lib.Pipeline.FrameBody
import Idealize.ShloMosaic.Lib.Ring
import Idealize.ShloMosaic.Lib.Tactic
import proofs.«110170_j50130858279277_2_alg».proof.Proof.R1Pieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

theorem stA_eq (c : Dev nD) (t : Fin cfg1.N) (h1 : t.val % 128 = 0) :
    stA V c t h1 = (k1_pay8 (F := F), mNew (iblk1 V c 0 t) (iblk1 V c 1 t) (k1_pay5 (F := F)), lNew (iblk1 V c 0 t) (iblk1 V c 1 t) (k1_pay5 (F := F)) (k1_pay6 (F := F)),
      aNew (iblk1 V c 0 t) (iblk1 V c 1 t) (iblk1 V c 2 t) (k1_pay5 (F := F)) (k1_pay7 (F := F))) := by
  unfold stA
  rw [out1_A_4_eq, sout1_A_0_eq, sout1_A_1_eq, sout1_A_2_eq]

theorem stB_eq (c : Dev nD) (t : Fin cfg1.N) (h0 : t.val % 8 = 0) (h1 : ¬t.val % 128 = 0) (p : Vec F S1x2048x1024 .f32 × Vec F S2048x1 .f32 × Vec F S2048x1 .f32 × Vec F S2048x64 .f32) :
    stB V c t h0 h1 p = (p.1, mNew (iblk1 V c 0 t) (iblk1 V c 1 t) (k1_pay5 (F := F)), lNew (iblk1 V c 0 t) (iblk1 V c 1 t) (k1_pay5 (F := F)) (k1_pay6 (F := F)),
      aNew (iblk1 V c 0 t) (iblk1 V c 1 t) (iblk1 V c 2 t) (k1_pay5 (F := F)) (k1_pay7 (F := F))) := by
  unfold stB
  rw [sout1_B_0_eq, sout1_B_1_eq, sout1_B_2_eq]

theorem stC_eq (c : Dev nD) (t : Fin cfg1.N) (h0 : ¬t.val % 8 = 0) (h2 : ¬t.val % 8 = 7) (p : Vec F S1x2048x1024 .f32 × Vec F S2048x1 .f32 × Vec F S2048x1 .f32 × Vec F S2048x64 .f32) :
    stC V c t h0 h2 p = (p.1, mNew (iblk1 V c 0 t) (iblk1 V c 1 t) p.2.1, lNew (iblk1 V c 0 t) (iblk1 V c 1 t) p.2.1 p.2.2.1, aNew (iblk1 V c 0 t) (iblk1 V c 1 t) (iblk1 V c 2 t) p.2.1 p.2.2.2) := by
  unfold stC
  rw [sout1_C_0_eq, sout1_C_1_eq, sout1_C_2_eq]

theorem stD_eq (c : Dev nD) (t : Fin cfg1.N) (h2 : t.val % 8 = 7) (p : Vec F S1x2048x1024 .f32 × Vec F S2048x1 .f32 × Vec F S2048x1 .f32 × Vec F S2048x64 .f32) :
    stD V c t h2 p = (oNew (iblk1 V c 3 t) (aNew (iblk1 V c 0 t) (iblk1 V c 1 t) (iblk1 V c 2 t) p.2.1 p.2.2.2) (lNew (iblk1 V c 0 t) (iblk1 V c 1 t) p.2.1 p.2.2.1) p.1,
      mNew (iblk1 V c 0 t) (iblk1 V c 1 t) p.2.1, lNew (iblk1 V c 0 t) (iblk1 V c 1 t) p.2.1 p.2.2.1, aNew (iblk1 V c 0 t) (iblk1 V c 1 t) (iblk1 V c 2 t) p.2.1 p.2.2.2) := by
  unfold stD
  rw [out1_D_4_eq, sout1_D_0_eq, sout1_D_1_eq, sout1_D_2_eq]

end

end Cert.KernelIdeal.Gen

end
-- ==== Proof.R1Blocks.lean ====
/-
  The second kernel region's blocks, read at coordinates. Grid point t = 128·b + 8·h + kv is batch b, head h, key tile
  kv: the query window's block is head h of batch b whole, the key and value windows' blocks are rows 256·kv … of that
  head, the output-weight window's block is head h's slice, the output window's block is batch b whole.
-/
import proofs.«110170_j50130858279277_2_alg».proof.Proof.R1Pieces
import proofs.«110170_j50130858279277_2_alg».proof.Proof.OnlineSoftmax
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert.Proof.OnlineSoftmax

variable (V : (c : Dev nD) → (b : Ref sig .tc) → Buf (Elt Ideal) ((c : Thread nD τ).loc b))

/-- The five windows' block indices at every grid point, decided over the grid. -/
theorem idx_facts1 : ∀ t : Fin cfg1.N,
    win1_0.index t (0 : Fin 4) = t.val / 128 ∧ win1_0.index t (1 : Fin 4) = t.val / 8 % 16 ∧ win1_0.index t (2 : Fin 4) = 0 ∧ win1_0.index t (3 : Fin 4) = 0
    ∧ win1_1.index t (0 : Fin 4) = t.val / 128 ∧ win1_1.index t (1 : Fin 4) = t.val / 8 % 16 ∧ win1_1.index t (2 : Fin 4) = t.val % 8 ∧ win1_1.index t (3 : Fin 4) = 0
    ∧ win1_2.index t (0 : Fin 4) = t.val / 128 ∧ win1_2.index t (1 : Fin 4) = t.val / 8 % 16 ∧ win1_2.index t (2 : Fin 4) = t.val % 8 ∧ win1_2.index t (3 : Fin 4) = 0
    ∧ win1_3.index t (0 : Fin 3) = t.val / 8 % 16 ∧ win1_3.index t (1 : Fin 3) = 0 ∧ win1_3.index t (2 : Fin 3) = 0
    ∧ win1_4.index t (0 : Fin 3) = t.val / 128 ∧ win1_4.index t (1 : Fin 3) = 0 ∧ win1_4.index t (2 : Fin 3) = 0 :=
  (by decide +kernel : ∀ t : Fin grid1.N, _)

/-- The query window's block at point t is head n of batch b. -/
theorem iblk1_0_apply (c : Dev nD) (t : Fin cfg1.N) (u0 u1 : Fin 1) (r : Fin 2048) (d : Fin 64) (b : Fin 2) (n : Fin 16)
    (hb : b.val = t.val / 128) (hn : n.val = t.val / 8 % 16) :
    (iblk1 V c 0 t : Vec Ideal S1x1x2048x64 .bf16) (ix4 u0 u1 r d) = (V c main_v1_0 : S2x16x2048x64.Idx → EReal) (ix4 b n r d) := by
  obtain ⟨e0, e1, e2, e3, -⟩ := idx_facts1 t
  have hu0 : u0.val = 0 := by omega
  have hu1 : u1.val = 0 := by omega
  unfold iblk1
  rw [View.read_apply]
  show V c main_v1_0 _ = V c main_v1_0 _
  congr 1
  funext a
  apply Fin.ext
  match a with
  | ⟨0, _⟩ => show win1_0.index t (0 : Fin 4) * 1 + 1 * u0.val = b.val; omega
  | ⟨1, _⟩ => show win1_0.index t (1 : Fin 4) * 1 + 1 * u1.val = n.val; omega
  | ⟨2, _⟩ => show win1_0.index t (2 : Fin 4) * 2048 + 1 * r.val = r.val; omega
  | ⟨3, _⟩ => show win1_0.index t (3 : Fin 4) * 64 + 1 * d.val = d.val; omega

/-- The key window's block at point t is rows 256·j … of head n of batch b. -/
theorem iblk1_1_apply (c : Dev nD) (t : Fin cfg1.N) (u0 u1 : Fin 1) (k : Fin 256) (d : Fin 64) (b : Fin 2) (n : Fin 16) (j : Fin 8)
    (hb : b.val = t.val / 128) (hn : n.val = t.val / 8 % 16) (hj : j.val = t.val % 8) :
    (iblk1 V c 1 t : Vec Ideal S1x1x256x64 .bf16) (ix4 u0 u1 k d) = (V c main_v1_1 : S2x16x2048x64.Idx → EReal) (ix4 b n (tileIdx j k) d) := by
  obtain ⟨-, -, -, -, e0, e1, e2, e3, -⟩ := idx_facts1 t
  have hu0 : u0.val = 0 := by omega
  have hu1 : u1.val = 0 := by omega
  unfold iblk1
  rw [View.read_apply]
  show V c main_v1_1 _ = V c main_v1_1 _
  congr 1
  funext a
  apply Fin.ext
  match a with
  | ⟨0, _⟩ => show win1_1.index t (0 : Fin 4) * 1 + 1 * u0.val = b.val; omega
  | ⟨1, _⟩ => show win1_1.index t (1 : Fin 4) * 1 + 1 * u1.val = n.val; omega
  | ⟨2, _⟩ => show win1_1.index t (2 : Fin 4) * 256 + 1 * k.val = 256 * j.val + k.val; omega
  | ⟨3, _⟩ => show win1_1.index t (3 : Fin 4) * 64 + 1 * d.val = d.val; omega

/-- The value window's block at point t is rows 256·j … of head n of batch b. -/
theorem iblk1_2_apply (c : Dev nD) (t : Fin cfg1.N) (u0 u1 : Fin 1) (k : Fin 256) (d : Fin 64) (b : Fin 2) (n : Fin 16) (j : Fin 8)
    (hb : b.val = t.val / 128) (hn : n.val = t.val / 8 % 16) (hj : j.val = t.val % 8) :
    (iblk1 V c 2 t : Vec Ideal S1x1x256x64 .bf16) (ix4 u0 u1 k d) = (V c main_v1_2 : S2x16x2048x64.Idx → EReal) (ix4 b n (tileIdx j k) d) := by
  obtain ⟨-, -, -, -, -, -, -, -, e0, e1, e2, e3, -⟩ := idx_facts1 t
  have hu0 : u0.val = 0 := by omega
  have hu1 : u1.val = 0 := by omega
  unfold iblk1
  rw [View.read_apply]
  show V c main_v1_2 _ = V c main_v1_2 _
  congr 1
  funext a
  apply Fin.ext
  match a with
  | ⟨0, _⟩ => show win1_2.index t (0 : Fin 4) * 1 + 1 * u0.val = b.val; omega
  | ⟨1, _⟩ => show win1_2.index t (1 : Fin 4) * 1 + 1 * u1.val = n.val; omega
  | ⟨2, _⟩ => show win1_2.index t (2 : Fin 4) * 256 + 1 * k.val = 256 * j.val + k.val; omega
  | ⟨3, _⟩ => show win1_2.index t (3 : Fin 4) * 64 + 1 * d.val = d.val; omega

/-- The output-weight window's block at point t is head n's slice. -/
theorem iblk1_3_apply (c : Dev nD) (t : Fin cfg1.N) (u0 : Fin 1) (cc : Fin 1024) (d : Fin 64) (n : Fin 16) (hn : n.val = t.val / 8 % 16) :
    (iblk1 V c 3 t : Vec Ideal S1x1024x64 .f32) (ix3 u0 cc d) = (V c main_v3 : S16x1024x64.Idx → EReal) (ix3 n cc d) := by
  obtain ⟨-, -, -, -, -, -, -, -, -, -, -, -, e0, e1, e2, -⟩ := idx_facts1 t
  have hu0 : u0.val = 0 := by omega
  unfold iblk1
  rw [View.read_apply]
  show V c main_v3 _ = V c main_v3 _
  congr 1
  funext a
  apply Fin.ext
  match a with
  | ⟨0, _⟩ => show win1_3.index t (0 : Fin 3) * 1 + 1 * u0.val = n.val; omega
  | ⟨1, _⟩ => show win1_3.index t (1 : Fin 3) * 1024 + 1 * cc.val = cc.val; omega
  | ⟨2, _⟩ => show win1_3.index t (2 : Fin 3) * 64 + 1 * d.val = d.val; omega

/-- A sum over the heads below h + 1 is the sum over the heads below h, plus head h's term. -/
theorem sum_below_succ (f : Fin 16 → EReal) (h : Fin 16) :
    (∑ n : Fin 16, if n.val < h.val + 1 then f n else 0) = (∑ n : Fin 16, if n.val < h.val then f n else 0) + f h := by
  have e : ∀ n : Fin 16, (if n.val < h.val + 1 then f n else 0) = (if n.val < h.val then f n else 0) + (if n = h then f n else 0) := by
    intro n
    by_cases h1 : n.val < h.val
    · have h2 : n ≠ h := fun e => by rw [e] at h1; omega
      rw [if_pos h1, if_pos (by omega), if_neg h2, add_zero]
    · by_cases h2 : n = h
      · rw [if_neg h1, if_pos (by rw [h2]; omega), if_pos h2, zero_add]
      · have h3 : ¬ n.val < h.val + 1 := fun e => h2 (Fin.ext (by omega))
        rw [if_neg h1, if_neg h3, if_neg h2, add_zero]
  rw [Finset.sum_congr rfl (fun n _ => e n), Finset.sum_add_distrib, Finset.sum_ite_eq' Finset.univ h f, if_pos (Finset.mem_univ h)]

theorem sum_below_zero (f : Fin 16 → EReal) : (∑ n : Fin 16, if n.val < 0 then f n else 0) = 0 := by
  rw [Finset.sum_congr rfl (fun n _ => if_neg (Nat.not_lt_zero _))]; exact Finset.sum_const_zero

theorem sum_below_all (f : Fin 16 → EReal) : (∑ n : Fin 16, if n.val < 16 then f n else 0) = ∑ n : Fin 16, f n :=
  Finset.sum_congr rfl (fun n _ => if_pos n.isLt)

end Cert.KernelIdeal.Gen

end
-- ==== Proof.R1Payloads.lean ====
/-
  The arithmetic of one step of the fused attention kernel, read element by element over the extended reals.

  One step sees a block of 2048 query rows (64 coordinates each), a tile of 256 key rows and 256 value rows, and three
  running arrays: the row maxima m and the row denominators l (one column each) and the numerators acc (64 columns).
  With sc r c = (∑ d, q[r, d] * k[c, d]) * (1/8) the scores of row r against the tile's columns:

    the new maximum      m'[r]      = max m[r] (sup over c of sc r c)
    the new denominator  l'[r]      = exp (m[r] - m'[r]) * l[r]      + ∑ c, exp (sc r c - m'[r])
    the new numerator    acc'[r, d] = exp (m[r] - m'[r]) * acc[r, d] + ∑ c, exp (sc r c - m'[r]) * v[c, d]

  and after a head's last tile the output block gains, at (r, o), the sum over d of (acc[r, d] / l[r]) * wo[o, d].
  The resets are ⊥ (the maximum) and 0. Each statement below is one of the kernel's pure terms at an index; the last
  section composes them with the online-softmax step lemmas: if the three running arrays hold the closed forms after j
  tiles of a row of real scores S and real values V, they hold the closed forms after j + 1 tiles.
-/
import proofs.«110170_j50130858279277_2_alg».proof.Proof.R1Steps
import proofs.«110170_j50130858279277_2_alg».proof.Proof.OnlineSoftmax
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Proof.R1Payloads

open Cert.KernelIdeal Cert.KernelIdeal.Gen Idealize.ShloMosaic Idealize.ShloMosaic.ValueIdx
open Cert.Proof.AttnSpec Cert.Proof.OnlineSoftmax

/-! ## Layout operations at an index -/

section Layout
variable {α : Type}

/-- A column made of a vector: element (i, 0) is element i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two leading unit axes dropped: element (i, j) is element (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A column of 2048 rows spread over b columns: element (i, c) is element (i, 0). -/
theorem broadcastTo_col_apply {b : ℕ} (x : (⟨2, ![2048, 1]⟩ : Shape).Idx → α)
    (h : (⟨2, ![2048, 1]⟩ : Shape).Broadcasts ⟨2, ![2048, b]⟩) (i : Fin 2048) (c : Fin b) :
    broadcastTo ⟨2, ![2048, b]⟩ x h (ix2 i c) = x (ix2 i (0 : Fin 1)) :=
  broadcastTo_apply x h _ _ (fun a' => match a' with
    | ⟨0, _⟩ => by show i.val = if (2048 : ℕ) = 1 then 0 else i.val; rw [if_neg (by decide)]
    | ⟨1, _⟩ => by show 0 = if (1 : ℕ) = 1 then 0 else c.val; rw [if_pos rfl])

end Layout

/-- A one-column index has column 0. -/
theorem ix2_col (r : Fin 2048) (z : Fin 1) : (ix2 r z : (⟨2, ![2048, 1]⟩ : Shape).Idx) = ix2 r (0 : Fin 1) := by
  have : z = 0 := Subsingleton.elim _ _
  rw [this]

/-- Row r with column c put back is (r, c). -/
theorem lift_col (r : Fin 2048) (c : Fin (S2048x256.size 1)) :
    reduces_S2048x256_S2048.lift (ix1 r) c = ix2 r (⟨c.val, c.isLt⟩ : Fin 256) := by
  funext a; apply Fin.ext
  fin_cases a <;> rfl

/-! ## Constants -/

theorem ofBits_eighth : Ideal.ofBits .f32 0x3E000000#32 = ((1 / 8 : ℝ) : EReal) := by
  simp [Ideal.ofBits, Ideal.ieee, -EReal.coe_mul]; norm_num
theorem ofBits_neg_inf : Ideal.ofBits .f32 0xFF800000#32 = ⊥ := by
  simp [Ideal.ofBits, Ideal.ieee]

/-- The named stand-in for -∞ is ⊥. -/
theorem neg_big : Named.named (F := Ideal) Cert.KernelIdeal.κ "neg_big" (φ := .f32) 0xFF333332#32 = ⊥ :=
  IdealRules.named_const.ideal_named_scalar _ _ _ _ rfl

/-! ## The resets -/

theorem pay5_apply (i : S2048x1.Idx) : k1_pay5 (F := Ideal) i = ⊥ := by
  unfold k1_pay5
  refine (congrFun (shapeCast_self _ _) i).trans ?_
  exact neg_big
theorem pay6_apply (i : S2048x1.Idx) : k1_pay6 (F := Ideal) i = 0 := by
  unfold k1_pay6
  refine (congrFun (shapeCast_self _ _) i).trans ?_
  exact Ideal.ofBits_zero_f32
theorem pay7_apply (i : S2048x64.Idx) : k1_pay7 (F := Ideal) i = 0 := by
  unfold k1_pay7
  refine (congrFun (shapeCast_self _ _) i).trans ?_
  exact Ideal.ofBits_zero_f32
theorem pay8_apply (u : Fin 1) (r : Fin 2048) (o : Fin 1024) : k1_pay8 (F := Ideal) (ix3 u r o) = 0 := by
  unfold k1_pay8
  refine (shapeCast_ab_1ab_apply _ _ u r o).trans ?_
  exact Ideal.ofBits_zero_f32

/-! ## The contractions' operand indices -/

abbrev D10 := dot_S2048x64_S256x64_S2048x256_1_1_0_0_n_n
abbrev D2 := dot_S2048x256_S256x64_S2048x64_1_0_0_1_n_n
abbrev D4 := dot_S2048x64_S1024x64_S2048x1024_1_1_0_0_n_n

theorem D10_lhs0 (i : S2048x256.Idx) (q : D10.contr.Idx) : (D10.lhsIdx i q 0).val = (i 0).val := by
  unfold DotDims.lhsIdx
  rw [dif_neg (show ¬(0 : Fin S2048x64.rank) ∈ D10.lhsBatch by decide), dif_pos (show (0 : Fin S2048x64.rank) ∈ D10.lhsNonContracting by decide)]
  rfl
theorem D10_lhs1 (i : S2048x256.Idx) (q : D10.contr.Idx) : (D10.lhsIdx i q 1).val = (q ⟨0, by decide⟩).val :=
  D10.lhsIdx_val_of_single rfl i q
theorem D10_rhs0 (i : S2048x256.Idx) (q : D10.contr.Idx) : (D10.rhsIdx i q 0).val = (i 1).val := by
  unfold DotDims.rhsIdx
  rw [dif_neg (show ¬(0 : Fin S256x64.rank) ∈ D10.rhsBatch by decide), dif_pos (show (0 : Fin S256x64.rank) ∈ D10.rhsNonContracting by decide)]
  rfl
theorem D10_rhs1 (i : S2048x256.Idx) (q : D10.contr.Idx) : (D10.rhsIdx i q 1).val = (q ⟨0, by decide⟩).val :=
  D10.rhsIdx_val_of_single rfl i q

theorem D10_lhs (r : Fin 2048) (c : Fin 256) (d : Fin 64) :
    D10.lhsIdx (ix2 r c) ((contrEquiv1 D10 64 rfl rfl).symm d) = ix2 r d := by
  have hk := contrEquiv1_symm_val D10 64 rfl rfl d
  exact funext fun a => Fin.ext (by
    match a with
    | ⟨0, _⟩ => exact D10_lhs0 _ _
    | ⟨1, _⟩ => exact (D10_lhs1 _ _).trans hk)
theorem D10_rhs (r : Fin 2048) (c : Fin 256) (d : Fin 64) :
    D10.rhsIdx (ix2 r c) ((contrEquiv1 D10 64 rfl rfl).symm d) = ix2 c d := by
  have hk := contrEquiv1_symm_val D10 64 rfl rfl d
  exact funext fun a => Fin.ext (by
    match a with
    | ⟨0, _⟩ => exact D10_rhs0 _ _
    | ⟨1, _⟩ => exact (D10_rhs1 _ _).trans hk)

theorem D2_lhs0 (i : S2048x64.Idx) (q : D2.contr.Idx) : (D2.lhsIdx i q 0).val = (i 0).val := by
  unfold DotDims.lhsIdx
  rw [dif_neg (show ¬(0 : Fin S2048x256.rank) ∈ D2.lhsBatch by decide), dif_pos (show (0 : Fin S2048x256.rank) ∈ D2.lhsNonContracting by decide)]
  rfl
theorem D2_lhs1 (i : S2048x64.Idx) (q : D2.contr.Idx) : (D2.lhsIdx i q 1).val = (q ⟨0, by decide⟩).val :=
  D2.lhsIdx_val_of_single rfl i q
theorem D2_rhs0 (i : S2048x64.Idx) (q : D2.contr.Idx) : (D2.rhsIdx i q 0).val = (q ⟨0, by decide⟩).val :=
  D2.rhsIdx_val_of_single rfl i q
theorem D2_rhs1 (i : S2048x64.Idx) (q : D2.contr.Idx) : (D2.rhsIdx i q 1).val = (i 1).val := by
  unfold DotDims.rhsIdx
  rw [dif_neg (show ¬(1 : Fin S256x64.rank) ∈ D2.rhsBatch by decide), dif_pos (show (1 : Fin S256x64.rank) ∈ D2.rhsNonContracting by decide)]
  rfl

theorem D2_lhs (r : Fin 2048) (d : Fin 64) (c : Fin 256) :
    D2.lhsIdx (ix2 r d) ((contrEquiv1 D2 256 rfl rfl).symm c) = ix2 r c := by
  have hk := contrEquiv1_symm_val D2 256 rfl rfl c
  exact funext fun a => Fin.ext (by
    match a with
    | ⟨0, _⟩ => exact D2_lhs0 _ _
    | ⟨1, _⟩ => exact (D2_lhs1 _ _).trans hk)
theorem D2_rhs (r : Fin 2048) (d : Fin 64) (c : Fin 256) :
    D2.rhsIdx (ix2 r d) ((contrEquiv1 D2 256 rfl rfl).symm c) = ix2 c d := by
  have hk := contrEquiv1_symm_val D2 256 rfl rfl c
  exact funext fun a => Fin.ext (by
    match a with
    | ⟨0, _⟩ => exact (D2_rhs0 _ _).trans hk
    | ⟨1, _⟩ => exact D2_rhs1 _ _)

theorem D4_lhs0 (i : S2048x1024.Idx) (q : D4.contr.Idx) : (D4.lhsIdx i q 0).val = (i 0).val := by
  unfold DotDims.lhsIdx
  rw [dif_neg (show ¬(0 : Fin S2048x64.rank) ∈ D4.lhsBatch by decide), dif_pos (show (0 : Fin S2048x64.rank) ∈ D4.lhsNonContracting by decide)]
  rfl
theorem D4_lhs1 (i : S2048x1024.Idx) (q : D4.contr.Idx) : (D4.lhsIdx i q 1).val = (q ⟨0, by decide⟩).val :=
  D4.lhsIdx_val_of_single rfl i q
theorem D4_rhs0 (i : S2048x1024.Idx) (q : D4.contr.Idx) : (D4.rhsIdx i q 0).val = (i 1).val := by
  unfold DotDims.rhsIdx
  rw [dif_neg (show ¬(0 : Fin S1024x64.rank) ∈ D4.rhsBatch by decide), dif_pos (show (0 : Fin S1024x64.rank) ∈ D4.rhsNonContracting by decide)]
  rfl
theorem D4_rhs1 (i : S2048x1024.Idx) (q : D4.contr.Idx) : (D4.rhsIdx i q 1).val = (q ⟨0, by decide⟩).val :=
  D4.rhsIdx_val_of_single rfl i q

theorem D4_lhs (r : Fin 2048) (o : Fin 1024) (d : Fin 64) :
    D4.lhsIdx (ix2 r o) ((contrEquiv1 D4 64 rfl rfl).symm d) = ix2 r d := by
  have hk := contrEquiv1_symm_val D4 64 rfl rfl d
  exact funext fun a => Fin.ext (by
    match a with
    | ⟨0, _⟩ => exact D4_lhs0 _ _
    | ⟨1, _⟩ => exact (D4_lhs1 _ _).trans hk)
theorem D4_rhs (r : Fin 2048) (o : Fin 1024) (d : Fin 64) :
    D4.rhsIdx (ix2 r o) ((contrEquiv1 D4 64 rfl rfl).symm d) = ix2 o d := by
  have hk := contrEquiv1_symm_val D4 64 rfl rfl d
  exact funext fun a => Fin.ext (by
    match a with
    | ⟨0, _⟩ => exact D4_rhs0 _ _
    | ⟨1, _⟩ => exact (D4_rhs1 _ _).trans hk)

/-! ## The step's terms at an index -/

section Payloads
variable (v8 : Vec Ideal S1x1x2048x64 .bf16) (v10 v12 : Vec Ideal S1x1x256x64 .bf16)
variable (v17 v21 v27 : Vec Ideal S2048x1 .f32)

/-- The value tile without its unit axes. -/
theorem pay9_apply (c : Fin 256) (d : Fin 64) :
    k1_pay9 (F := Ideal) v12 (ix2 c d) = v12 (ix4 (0 : Fin 1) (0 : Fin 1) c d) := by
  unfold k1_pay9
  exact shapeCast_11ab_ab_apply _ _ c d

/-- The scores of row r against the tile's column c. -/
theorem pay10_apply (r : Fin 2048) (c : Fin 256) :
    k1_pay10 (F := Ideal) v8 v10 (ix2 r c)
      = (∑ d : Fin 64, v8 (ix4 (0 : Fin 1) (0 : Fin 1) r d) * v10 (ix4 (0 : Fin 1) (0 : Fin 1) c d)) * ((1 / 8 : ℝ) : EReal) := by
  unfold k1_pay10
  show FloatOps.matmul D10 none (shapeCast S2048x64 v8 shapeCasts_S1x1x2048x64_S2048x64)
      (shapeCast S256x64 v10 shapeCasts_S1x1x256x64_S256x64) (constant S2048x256 .f32 0x00000000#32) (ix2 r c)
      * Ideal.ofBits .f32 0x3E000000#32 = _
  rw [ofBits_eighth, Ideal.matmul_constant_zero_apply, ← Equiv.sum_comp (contrEquiv1 D10 64 rfl rfl).symm]
  congr 1
  refine Finset.sum_congr rfl fun d _ => ?_
  rw [D10_lhs, D10_rhs, shapeCast_11ab_ab_apply, shapeCast_11ab_ab_apply]

/-- The new row maximum. -/
theorem pay11_apply (r : Fin 2048) (z : Fin 1) :
    k1_pay11 (F := Ideal) v8 v10 v17 (ix2 r z)
      = max (v17 (ix2 r z)) (Finset.univ.sup fun c : Fin 256 => k1_pay10 (F := Ideal) v8 v10 (ix2 r c)) := by
  unfold k1_pay11
  generalize k1_pay10 (F := Ideal) v8 v10 = S
  show max (v17 (ix2 r z)) (shapeCast S2048x1 (multiReduction .maximumf [1] S2048 S 0xFF800000#32
      reduces_S2048x256_S2048 (.inl rfl) rfl) shapeCasts_S2048_S2048x1 (ix2 r z)) = _
  refine congrArg (max (v17 (ix2 r z))) ?_
  refine (shapeCast_a_a1_apply _ _ r z).trans ?_
  refine (Ideal.multiReduction_maximumf_single S 0xFF800000#32 reduces_S2048x256_S2048 (.inl rfl) rfl (ix1 r)).trans ?_
  have hb : FloatOps.ofBits (F := Ideal) .f32 0xFF800000#32 = ⊥ := ofBits_neg_inf
  rw [hb]
  show Finset.univ.sup _ = _
  refine congrArg (Finset.sup Finset.univ) (funext fun c => ?_)
  exact congrArg S (lift_col r c)

/-- The rescaling factor. -/
theorem pay12_apply (i : S2048x1.Idx) :
    k1_pay12 (F := Ideal) v8 v10 v17 v21 i = Ideal.exp (v21 i - k1_pay11 (F := Ideal) v8 v10 v17 i) := rfl

/-- The shifted exponentials of the scores. -/
theorem pay13_apply (r : Fin 2048) (c : Fin 256) :
    k1_pay13 (F := Ideal) v8 v10 v17 (ix2 r c)
      = Ideal.exp (k1_pay10 (F := Ideal) v8 v10 (ix2 r c) - k1_pay11 (F := Ideal) v8 v10 v17 (ix2 r (0 : Fin 1))) := by
  unfold k1_pay13
  generalize k1_pay11 (F := Ideal) v8 v10 v17 = M
  generalize k1_pay10 (F := Ideal) v8 v10 = S
  show Ideal.exp (S (ix2 r c) - broadcastTo S2048x256 M broadcasts_S2048x1_S2048x256 (ix2 r c)) = _
  rw [broadcastTo_col_apply]

/-- The rescaled old denominator. -/
theorem pay14_apply (i : S2048x1.Idx) :
    k1_pay14 (F := Ideal) v8 v10 v17 v21 v27 i = k1_pay12 (F := Ideal) v8 v10 v17 v21 i * v27 i := rfl

/-- The new denominator from the exponentials and the rescaled old one. -/
theorem pay1_apply (v26 : FVec Ideal S2048x256 .f32) (v28 : FVec Ideal S2048x1 .f32) (r : Fin 2048) (z : Fin 1) :
    k1_pay1 (F := Ideal) v26 v28 (ix2 r z) = v28 (ix2 r z) + ∑ c : Fin 256, v26 (ix2 r c) := by
  unfold k1_pay1
  refine (congrFun (shapeCast_self _ _) _).trans ?_
  show v28 (ix2 r z) + shapeCast S2048x1 (multiReduction .add [1] S2048 v26 0x00000000#32 reduces_S2048x256_S2048 (.inl rfl) rfl)
      shapeCasts_S2048_S2048x1 (ix2 r z) = _
  refine congrArg (v28 (ix2 r z) + ·) ?_
  refine (shapeCast_a_a1_apply _ _ r z).trans ?_
  refine (Ideal.multiReduction_add_single v26 0x00000000#32 reduces_S2048x256_S2048 (.inl rfl) rfl (ix1 r)).trans ?_
  refine Finset.sum_congr rfl fun c _ => ?_
  exact congrArg v26 (lift_col r c)

/-- The new numerator. -/
theorem pay2_apply (v13 : FVec Ideal S256x64 .bf16) (v23 : FVec Ideal S2048x1 .f32) (v26 : FVec Ideal S2048x256 .f32)
    (v37 : Vec Ideal S2048x64 .f32) (r : Fin 2048) (d : Fin 64) :
    k1_pay2 (F := Ideal) v13 v23 v26 v37 (ix2 r d)
      = v23 (ix2 r (0 : Fin 1)) * v37 (ix2 r d) + ∑ c : Fin 256, v26 (ix2 r c) * v13 (ix2 c d) := by
  unfold k1_pay2
  refine (congrFun (shapeCast_self _ _) _).trans ?_
  show broadcastTo S2048x64 v23 broadcasts_S2048x1_S2048x64 (ix2 r d) * v37 (ix2 r d)
      + FloatOps.matmul D2 none (truncf .bf16 v26 bitsLt_bf16_f32) v13 (constant S2048x64 .f32 0x00000000#32) (ix2 r d) = _
  rw [broadcastTo_col_apply, Ideal.matmul_constant_zero_apply, ← Equiv.sum_comp (contrEquiv1 D2 256 rfl rfl).symm]
  congr 1
  refine Finset.sum_congr rfl fun c _ => ?_
  rw [D2_lhs, D2_rhs]
  rfl

/-- The running maximum is stored as it is. -/
theorem pay3_eq (v20 : FVec Ideal S2048x1 .f32) : k1_pay3 (F := Ideal) v20 = v20 := by
  unfold k1_pay3
  exact shapeCast_self _ _

/-- The output block after a head's last tile. -/
theorem pay4_apply (v50 : Vec Ideal S2048x64 .f32) (v51 : Vec Ideal S2048x1 .f32) (v55 : Vec Ideal S1x1024x64 .f32)
    (v59 : Vec Ideal S1x2048x1024 .f32) (u : Fin 1) (r : Fin 2048) (o : Fin 1024) :
    k1_pay4 (F := Ideal) v50 v51 v55 v59 (ix3 u r o)
      = v59 (ix3 (0 : Fin 1) r o)
        + ∑ d : Fin 64, Ideal.div (v50 (ix2 r d)) (v51 (ix2 r (0 : Fin 1))) * v55 (ix3 (0 : Fin 1) o d) := by
  unfold k1_pay4
  refine (shapeCast_ab_1ab_apply _ _ u r o).trans ?_
  show shapeCast S2048x1024 v59 shapeCasts_S1x2048x1024_S2048x1024 (ix2 r o)
      + FloatOps.matmul (F := Ideal) D4 none (truncf .bf16 (divf (F := Ideal) (φ := .f32) v50 (broadcastTo S2048x64 v51 broadcasts_S2048x1_S2048x64)) bitsLt_bf16_f32)
          (truncf .bf16 (shapeCast S1024x64 v55 shapeCasts_S1x1024x64_S1024x64) bitsLt_bf16_f32)
          (constant S2048x1024 .f32 0x00000000#32) (ix2 r o) = _
  rw [shapeCast_1ab_ab_apply, Ideal.matmul_constant_zero_apply, ← Equiv.sum_comp (contrEquiv1 D4 64 rfl rfl).symm]
  congr 1
  refine Finset.sum_congr rfl fun d _ => ?_
  rw [D4_lhs, D4_rhs]
  show Ideal.div (v50 (ix2 r d)) (broadcastTo S2048x64 v51 broadcasts_S2048x1_S2048x64 (ix2 r d))
      * shapeCast S1024x64 v55 shapeCasts_S1x1024x64_S1024x64 (ix2 o d) = _
  rw [broadcastTo_col_apply, shapeCast_1ab_ab_apply]

end Payloads

/-! ## One step, for real-valued blocks -/

section Step
variable (x0 : Vec Ideal S1x1x2048x64 .bf16) (x1 x2 : Vec Ideal S1x1x256x64 .bf16)
variable (m l : Vec Ideal S2048x1 .f32) (a : Vec Ideal S2048x64 .f32)
variable (qr : Fin 2048 → Fin 64 → ℝ) (kr vr : Fin 256 → Fin 64 → ℝ)

/-- The real score of query row r against the tile's column c. -/
abbrev scR (qr : Fin 2048 → Fin 64 → ℝ) (kr : Fin 256 → Fin 64 → ℝ) (r : Fin 2048) (c : Fin 256) : ℝ :=
  (∑ d : Fin 64, qr r d * kr c d) * (1 / 8)

/-- For real-valued query and key blocks the step's scores are the real scores. -/
theorem pay10_real (hq : ∀ (r : Fin 2048) (d : Fin 64), x0 (ix4 (0 : Fin 1) (0 : Fin 1) r d) = ((qr r d : ℝ) : EReal))
    (hk : ∀ (c : Fin 256) (d : Fin 64), x1 (ix4 (0 : Fin 1) (0 : Fin 1) c d) = ((kr c d : ℝ) : EReal))
    (r : Fin 2048) (c : Fin 256) :
    k1_pay10 (F := Ideal) x0 x1 (ix2 r c) = ((scR qr kr r c : ℝ) : EReal) := by
  rw [pay10_apply]
  show _ = (((∑ d : Fin 64, qr r d * kr c d) * (1 / 8) : ℝ) : EReal)
  rw [EReal.coe_mul, coe_sum]
  congr 1
  refine Finset.sum_congr rfl fun d _ => ?_
  rw [hq, hk, EReal.coe_mul]

/-- The new running maximum of row r. -/
theorem mNew_apply (hq : ∀ (r : Fin 2048) (d : Fin 64), x0 (ix4 (0 : Fin 1) (0 : Fin 1) r d) = ((qr r d : ℝ) : EReal))
    (hk : ∀ (c : Fin 256) (d : Fin 64), x1 (ix4 (0 : Fin 1) (0 : Fin 1) c d) = ((kr c d : ℝ) : EReal)) (r : Fin 2048) :
    mNew (F := Ideal) x0 x1 m (ix2 r (0 : Fin 1))
      = max (m (ix2 r (0 : Fin 1))) (Finset.univ.sup fun c : Fin 256 => ((scR qr kr r c : ℝ) : EReal)) := by
  unfold mNew
  rw [pay3_eq, pay11_apply]
  exact congrArg (max (m (ix2 r (0 : Fin 1))))
    (congrArg (Finset.sup Finset.univ) (funext fun c => pay10_real x0 x1 qr kr hq hk r c))

/-- The new running denominator of row r, with M the new running maximum of the row. -/
theorem lNew_apply (hq : ∀ (r : Fin 2048) (d : Fin 64), x0 (ix4 (0 : Fin 1) (0 : Fin 1) r d) = ((qr r d : ℝ) : EReal))
    (hk : ∀ (c : Fin 256) (d : Fin 64), x1 (ix4 (0 : Fin 1) (0 : Fin 1) c d) = ((kr c d : ℝ) : EReal)) (r : Fin 2048)
    (M : EReal) (hM : mNew (F := Ideal) x0 x1 m (ix2 r (0 : Fin 1)) = M) :
    lNew (F := Ideal) x0 x1 m l (ix2 r (0 : Fin 1))
      = Ideal.exp (m (ix2 r (0 : Fin 1)) - M) * l (ix2 r (0 : Fin 1))
        + ∑ c : Fin 256, Ideal.exp (((scR qr kr r c : ℝ) : EReal) - M) := by
  have hM' : k1_pay11 (F := Ideal) x0 x1 m (ix2 r (0 : Fin 1)) = M := by
    rw [← hM]; unfold mNew; rw [pay3_eq]
  unfold lNew
  rw [pay1_apply, pay14_apply, pay12_apply, hM']
  simp only [pay13_apply, pay10_real x0 x1 qr kr hq hk, hM']

/-- The new running numerator of row r at coordinate d, with M the new running maximum of the row. -/
theorem aNew_apply (hq : ∀ (r : Fin 2048) (d : Fin 64), x0 (ix4 (0 : Fin 1) (0 : Fin 1) r d) = ((qr r d : ℝ) : EReal))
    (hk : ∀ (c : Fin 256) (d : Fin 64), x1 (ix4 (0 : Fin 1) (0 : Fin 1) c d) = ((kr c d : ℝ) : EReal))
    (hv : ∀ (c : Fin 256) (d : Fin 64), x2 (ix4 (0 : Fin 1) (0 : Fin 1) c d) = ((vr c d : ℝ) : EReal))
    (r : Fin 2048) (d : Fin 64) (M : EReal) (hM : mNew (F := Ideal) x0 x1 m (ix2 r (0 : Fin 1)) = M) :
    aNew (F := Ideal) x0 x1 x2 m a (ix2 r d)
      = Ideal.exp (m (ix2 r (0 : Fin 1)) - M) * a (ix2 r d)
        + ∑ c : Fin 256, Ideal.exp (((scR qr kr r c : ℝ) : EReal) - M) * ((vr c d : ℝ) : EReal) := by
  have hM' : k1_pay11 (F := Ideal) x0 x1 m (ix2 r (0 : Fin 1)) = M := by
    rw [← hM]; unfold mNew; rw [pay3_eq]
  unfold aNew
  rw [pay2_apply, pay12_apply, hM']
  simp only [pay13_apply, pay9_apply, pay10_real x0 x1 qr kr hq hk, hv, hM']

/-- The output block after a head's last tile. -/
theorem oNew_apply (x3 : Vec Ideal S1x1024x64 .f32) (o : Vec Ideal S1x2048x1024 .f32) (r : Fin 2048) (cc : Fin 1024) :
    oNew (F := Ideal) x3 a l o (ix3 (0 : Fin 1) r cc)
      = o (ix3 (0 : Fin 1) r cc)
        + ∑ d : Fin 64, Ideal.div (a (ix2 r d)) (l (ix2 r (0 : Fin 1))) * x3 (ix3 (0 : Fin 1) cc d) := by
  unfold oNew
  exact pay4_apply a l x3 o 0 r cc

/-! ## One step on the closed forms -/

variable (S V : Fin 2048 → ℝ) (j : Fin 8) (r : Fin 2048)

/-- If the old maximum of row r is the closed form after j tiles of the score row S and the step's real scores are tile
    j's, the new maximum is the closed form after j + 1 tiles. -/
theorem mNew_closed (hq : ∀ (r : Fin 2048) (d : Fin 64), x0 (ix4 (0 : Fin 1) (0 : Fin 1) r d) = ((qr r d : ℝ) : EReal))
    (hk : ∀ (c : Fin 256) (d : Fin 64), x1 (ix4 (0 : Fin 1) (0 : Fin 1) c d) = ((kr c d : ℝ) : EReal))
    (hs : ∀ c : Fin 256, scR qr kr r c = S (tileIdx j c)) (hm : m (ix2 r (0 : Fin 1)) = mAfter S j.val) :
    mNew (F := Ideal) x0 x1 m (ix2 r (0 : Fin 1)) = mAfter S (j.val + 1) := by
  rw [mNew_apply x0 x1 m qr kr hq hk r, hm, ← m_step]
  refine congrArg (max (mAfter S j.val)) ?_
  unfold tileMax
  exact congrArg (Finset.sup Finset.univ) (funext fun c => congrArg Real.toEReal (hs c))

/-- Likewise the denominator. -/
theorem lNew_closed (hq : ∀ (r : Fin 2048) (d : Fin 64), x0 (ix4 (0 : Fin 1) (0 : Fin 1) r d) = ((qr r d : ℝ) : EReal))
    (hk : ∀ (c : Fin 256) (d : Fin 64), x1 (ix4 (0 : Fin 1) (0 : Fin 1) c d) = ((kr c d : ℝ) : EReal))
    (hs : ∀ c : Fin 256, scR qr kr r c = S (tileIdx j c)) (hm : m (ix2 r (0 : Fin 1)) = mAfter S j.val)
    (hl : l (ix2 r (0 : Fin 1)) = lAfter S j.val) :
    lNew (F := Ideal) x0 x1 m l (ix2 r (0 : Fin 1)) = lAfter S (j.val + 1) := by
  rw [lNew_apply x0 x1 m l qr kr hq hk r _ (mNew_closed x0 x1 m qr kr S j r hq hk hs hm), hm, hl]
  simp only [hs]
  exact l_step S j

/-- Likewise the numerator at coordinate d, against the value row V. -/
theorem aNew_closed (d : Fin 64)
    (hq : ∀ (r : Fin 2048) (d : Fin 64), x0 (ix4 (0 : Fin 1) (0 : Fin 1) r d) = ((qr r d : ℝ) : EReal))
    (hk : ∀ (c : Fin 256) (d : Fin 64), x1 (ix4 (0 : Fin 1) (0 : Fin 1) c d) = ((kr c d : ℝ) : EReal))
    (hv : ∀ (c : Fin 256) (d : Fin 64), x2 (ix4 (0 : Fin 1) (0 : Fin 1) c d) = ((vr c d : ℝ) : EReal))
    (hs : ∀ c : Fin 256, scR qr kr r c = S (tileIdx j c)) (hV : ∀ c : Fin 256, vr c d = V (tileIdx j c))
    (hm : m (ix2 r (0 : Fin 1)) = mAfter S j.val) (ha : a (ix2 r d) = accAfter S V j.val) :
    aNew (F := Ideal) x0 x1 x2 m a (ix2 r d) = accAfter S V (j.val + 1) := by
  rw [aNew_apply x0 x1 x2 m a qr kr vr hq hk hv r d _ (mNew_closed x0 x1 m qr kr S j r hq hk hs hm), hm, ha]
  simp only [hs, hV]
  exact acc_step S V j

end Step

/-! ## The output block after a head's last tile -/

/-- With the numerators and denominators at their closed forms after all 8 tiles of head n, the output block gains head
    n's term of the specification's result. -/
theorem oNew_closed {X : Arr3} {Wq Wk Wv : Arr2} (Wo : Arr2) (hX : AttnSpec.Finite X) (hq : AttnSpec.Finite Wq)
    (hk : AttnSpec.Finite Wk) (hv : AttnSpec.Finite Wv) (b : Fin 2) (n : Fin 16)
    (a : Vec Ideal S2048x64 .f32) (l : Vec Ideal S2048x1 .f32) (x3 : Vec Ideal S1x1024x64 .f32)
    (o : Vec Ideal S1x2048x1024 .f32) (r : Fin 2048) (cc : Fin 1024)
    (ha : ∀ d : Fin 64, a (ix2 r d)
      = accAfter (fun t => scoreR X Wq Wk b n r t) (fun t => projR X Wv b n t d) 8)
    (hl : l (ix2 r (0 : Fin 1)) = lAfter (fun t => scoreR X Wq Wk b n r t) 8)
    (hw : ∀ d : Fin 64, x3 (ix3 (0 : Fin 1) cc d) = Wo (ix2 cc (hcol n d))) :
    oNew (F := Ideal) x3 a l o (ix3 (0 : Fin 1) r cc)
      = o (ix3 (0 : Fin 1) r cc) + ∑ d : Fin 64, attn X Wq Wk Wv b n r d * Wo (ix2 cc (hcol n d)) := by
  rw [oNew_apply]
  refine congrArg (o (ix3 (0 : Fin 1) r cc) + ·) (Finset.sum_congr rfl fun d _ => ?_)
  rw [ha, hl, hw, attn_eq_online hX hq hk hv]

end Cert.Proof.R1Payloads

end
-- ==== Proof.R1Value.lean ====
/-
  What the second kernel region leaves in its output array. After grid point t = 128·b + 8·h + kv the three scratch
  buffers hold, for every query row r of head h of batch b, the running maximum, denominator and numerator of the
  online softmax after kv + 1 key tiles — in closed form: the maximum of the first 256·(kv+1) scores, the sum of their
  exponentials shifted by it, and that sum weighted by the values — and the output block holds the contributions of the
  heads finished so far, head after head. This is an induction over the points; each step is one key tile's update of the
  closed forms, and at a head's last tile the quotient numerator / denominator times the head's slice of the output
  weights joins the output block. The last point of a batch writes the block back: the array ends at the sum over the
  sixteen heads.
-/
import proofs.«110170_j50130858279277_2_alg».proof.Proof.R1Pieces
import proofs.«110170_j50130858279277_2_alg».proof.Proof.OnlineSoftmax
import Idealize.ShloMosaic.Lib.Pipeline.Value
import Idealize.ShloMosaic.Lib.ValueIdx
import proofs.«110170_j50130858279277_2_alg».proof.Proof.R1States
import proofs.«110170_j50130858279277_2_alg».proof.Proof.R1Blocks
import proofs.«110170_j50130858279277_2_alg».proof.Proof.R1Payloads

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert.Proof.OnlineSoftmax
open Cert.Proof.R1Payloads

section Defs
variable (V : (c : Dev nD) → (b : Ref sig .tc) → Buf (Elt Ideal) ((c : Thread nD τ).loc b)) (c : Dev nD)
variable (qR kR vR : Fin 2 → Fin 16 → Fin 2048 → Fin 64 → ℝ)

/-- The scores of query row s of head n of batch b against every key row: the scaled inner products. -/
def Sc (b : Fin 2) (n : Fin 16) (s : Fin 2048) : Fin 2048 → ℝ := fun u => (∑ d : Fin 64, qR b n s d * kR b n u d) * (1 / 8)
/-- Coordinate d of every value row of head n of batch b. -/
def Vd (b : Fin 2) (n : Fin 16) (d : Fin 64) : Fin 2048 → ℝ := fun u => vR b n u d
/-- Head n's contribution to the output at row s, column cc: its normalised attention output times its slice of the
    output weights. -/
def delta (b : Fin 2) (n : Fin 16) (s : Fin 2048) (cc : Fin 1024) : EReal :=
  ∑ d : Fin 64, Ideal.div (accAfter (Sc qR kR b n s) (Vd vR b n d) 8) (lAfter (Sc qR kR b n s) 8) * (V c main_v3 : S16x1024x64.Idx → EReal) (ix3 n cc d)

/-- What the region leaves in the output array: at (b, s, cc) the sum of the sixteen heads' contributions. -/
def result1 : S2x2048x1024.Idx → EReal := fun i => ∑ n : Fin 16, delta V c qR kR vR (i 0) n (i 1) (i 2)

end Defs

section Flush

/-- One element of a flushed block: if the staging block holds, at (r, cc), the function G at batch b, then at a block
    index y it is G at the array index the block puts y at. -/
theorem point1 (G : Fin 2 → Fin 2048 → Fin 1024 → EReal) (o : Vec Ideal S1x2048x1024 .f32) (b : Fin 2)
    (ho : ∀ (r : Fin 2048) (cc : Fin 1024), o (ix3 (0 : Fin 1) r cc) = G b r cc)
    (y : S1x2048x1024.Idx) (i : S2x2048x1024.Idx) (h0 : (i 0).val = b.val) (h1 : (i 1).val = (y 1).val) (h2 : (i 2).val = (y 2).val) :
    o y = G (i 0) (i 1) (i 2) := by
  have hy : y = ix3 (0 : Fin 1) (y 1) (y 2) := by
    funext a
    apply Fin.ext
    match a with
    | ⟨0, _⟩ => have h01 : (y 0).val < 1 := (y 0).isLt; show (y 0).val = 0; omega
    | ⟨1, _⟩ => rfl
    | ⟨2, _⟩ => rfl
  calc o y = o (ix3 (0 : Fin 1) (y 1) (y 2)) := congrArg o hy
    _ = G b (y 1) (y 2) := ho _ _
    _ = G (i 0) (i 1) (i 2) := by
      rw [show (i 0 : Fin 2) = b from Fin.ext h0, show (i 1 : Fin 2048) = y 1 from Fin.ext h1, show (i 2 : Fin 1024) = y 2 from Fin.ext h2]

end Flush

section Cover

/-- An index of the output array is in point t's block iff each coordinate is in the block's range on its axis. -/
theorem mem_blk1_4 (t : Fin cfg1.N) (i : S2x2048x1024.Idx) :
    i ∈ ((cfg1.win 4).blk t).view.set ↔ ∀ a : Fin 3, win1_4.index t a * S1x2048x1024.size a ≤ (i a).val ∧ (i a).val < win1_4.index t a * S1x2048x1024.size a + S1x2048x1024.size a := by
  show i ∈ ((View.whole main_v4).slice (win1_4.rect t)).set ↔ _
  rw [View.set_slice_whole, Rect.mem_set_unit]
  exact Iff.rfl

/-- Every index (b, s, cc) of the output array is in the block of the last point of batch b, which is written back. -/
theorem cover1_4 (i : S2x2048x1024.Idx) : ∃ t : Fin cfg1.N, (cfg1.win 4).flush t = true ∧ i ∈ ((cfg1.win 4).blk t).view.set := by
  have h0 : (i 0).val < 2 := (i 0).isLt
  have h1 : (i 1).val < 2048 := (i 1).isLt
  have h2 : (i 2).val < 1024 := (i 2).isLt
  have hN : cfg1.N = 256 := N_1
  have hlt : (i 0).val * 128 + 127 < cfg1.N := by rw [hN]; omega
  refine ⟨⟨(i 0).val * 128 + 127, hlt⟩, (flush1_4 _).mpr (by show ((i 0).val * 128 + 127) % 128 = 127; omega), ?_⟩
  rw [mem_blk1_4]
  obtain ⟨-, -, -, -, -, -, -, -, -, -, -, -, -, -, -, e0, e1, e2⟩ := idx_facts1 ⟨(i 0).val * 128 + 127, hlt⟩
  have ht : (⟨(i 0).val * 128 + 127, hlt⟩ : Fin cfg1.N).val = (i 0).val * 128 + 127 := rfl
  rw [ht] at e0
  intro a
  match a with
  | ⟨0, _⟩ => show win1_4.index ⟨(i 0).val * 128 + 127, hlt⟩ (0 : Fin 3) * 1 ≤ (i 0).val ∧ (i 0).val < win1_4.index ⟨(i 0).val * 128 + 127, hlt⟩ (0 : Fin 3) * 1 + 1; omega
  | ⟨1, _⟩ => show win1_4.index ⟨(i 0).val * 128 + 127, hlt⟩ (1 : Fin 3) * 2048 ≤ (i 1).val ∧ (i 1).val < win1_4.index ⟨(i 0).val * 128 + 127, hlt⟩ (1 : Fin 3) * 2048 + 2048; omega
  | ⟨2, _⟩ => show win1_4.index ⟨(i 0).val * 128 + 127, hlt⟩ (2 : Fin 3) * 1024 ≤ (i 2).val ∧ (i 2).val < win1_4.index ⟨(i 0).val * 128 + 127, hlt⟩ (2 : Fin 3) * 1024 + 1024; omega

end Cover

section Induction
variable (V : (c : Dev nD) → (b : Ref sig .tc) → Buf (Elt Ideal) ((c : Thread nD τ).loc b)) (c : Dev nD)
variable (qR kR vR : Fin 2 → Fin 16 → Fin 2048 → Fin 64 → ℝ)
variable (hQ : ∀ b n s d, (V c main_v1_0 : S2x16x2048x64.Idx → EReal) (ix4 b n s d) = ((qR b n s d : ℝ) : EReal))
variable (hK : ∀ b n s d, (V c main_v1_1 : S2x16x2048x64.Idx → EReal) (ix4 b n s d) = ((kR b n s d : ℝ) : EReal))
variable (hV : ∀ b n s d, (V c main_v1_2 : S2x16x2048x64.Idx → EReal) (ix4 b n s d) = ((vR b n s d : ℝ) : EReal))
include hQ hK hV

/-- ONE KEY TILE. If the scratch holds the closed forms after j tiles of head n of batch b, then after the body at a
    point of that head with key tile j it holds the closed forms after j + 1 tiles. -/
theorem scratch_step (t : Fin cfg1.N) (b : Fin 2) (n : Fin 16) (j : Fin 8)
    (hb : b.val = t.val / 128) (hn : n.val = t.val / 8 % 16) (hj : j.val = t.val % 8)
    (m l : Vec Ideal S2048x1 .f32) (a : Vec Ideal S2048x64 .f32)
    (hm : ∀ r : Fin 2048, m (ix2 r (0 : Fin 1)) = mAfter (Sc qR kR b n r) j.val)
    (hl : ∀ r : Fin 2048, l (ix2 r (0 : Fin 1)) = lAfter (Sc qR kR b n r) j.val)
    (ha : ∀ (r : Fin 2048) (d : Fin 64), a (ix2 r d) = accAfter (Sc qR kR b n r) (Vd vR b n d) j.val) :
    (∀ r : Fin 2048, mNew (F := Ideal) (iblk1 V c 0 t) (iblk1 V c 1 t) m (ix2 r (0 : Fin 1)) = mAfter (Sc qR kR b n r) (j.val + 1))
    ∧ (∀ r : Fin 2048, lNew (F := Ideal) (iblk1 V c 0 t) (iblk1 V c 1 t) m l (ix2 r (0 : Fin 1)) = lAfter (Sc qR kR b n r) (j.val + 1))
    ∧ (∀ (r : Fin 2048) (d : Fin 64), aNew (F := Ideal) (iblk1 V c 0 t) (iblk1 V c 1 t) (iblk1 V c 2 t) m a (ix2 r d) = accAfter (Sc qR kR b n r) (Vd vR b n d) (j.val + 1)) := by
  have hq : ∀ (r : Fin 2048) (d : Fin 64), (iblk1 V c 0 t) (ix4 (0 : Fin 1) (0 : Fin 1) r d) = (((fun r d => qR b n r d) r d : ℝ) : EReal) :=
    fun r d => (iblk1_0_apply V c t 0 0 r d b n hb hn).trans (hQ b n r d)
  have hk : ∀ (k : Fin 256) (d : Fin 64), (iblk1 V c 1 t) (ix4 (0 : Fin 1) (0 : Fin 1) k d) = (((fun k d => kR b n (tileIdx j k) d) k d : ℝ) : EReal) :=
    fun k d => (iblk1_1_apply V c t 0 0 k d b n j hb hn hj).trans (hK b n (tileIdx j k) d)
  have hv : ∀ (k : Fin 256) (d : Fin 64), (iblk1 V c 2 t) (ix4 (0 : Fin 1) (0 : Fin 1) k d) = (((fun k d => vR b n (tileIdx j k) d) k d : ℝ) : EReal) :=
    fun k d => (iblk1_2_apply V c t 0 0 k d b n j hb hn hj).trans (hV b n (tileIdx j k) d)
  refine ⟨fun r => ?_, fun r => ?_, fun r d => ?_⟩
  · exact mNew_closed (iblk1 V c 0 t) (iblk1 V c 1 t) m (fun r d => qR b n r d) (fun k d => kR b n (tileIdx j k) d) (Sc qR kR b n r) j r hq hk (fun _ => rfl) (hm r)
  · exact lNew_closed (iblk1 V c 0 t) (iblk1 V c 1 t) m l (fun r d => qR b n r d) (fun k d => kR b n (tileIdx j k) d) (Sc qR kR b n r) j r hq hk (fun _ => rfl) (hm r) (hl r)
  · exact aNew_closed (iblk1 V c 0 t) (iblk1 V c 1 t) (iblk1 V c 2 t) m a (fun r d => qR b n r d) (fun k d => kR b n (tileIdx j k) d) (fun k d => vR b n (tileIdx j k) d)
      (Sc qR kR b n r) (Vd vR b n d) j r d hq hk hv (fun _ => rfl) (fun _ => rfl) (hm r) (ha r d)

/-- The same from the reset values (maximum ⊥, denominator and numerator 0): the closed forms after one tile. -/
theorem scratch_first (t : Fin cfg1.N) (b : Fin 2) (n : Fin 16) (hb : b.val = t.val / 128) (hn : n.val = t.val / 8 % 16) (h0 : t.val % 8 = 0) :
    (∀ r : Fin 2048, mNew (F := Ideal) (iblk1 V c 0 t) (iblk1 V c 1 t) (k1_pay5 (F := Ideal)) (ix2 r (0 : Fin 1)) = mAfter (Sc qR kR b n r) 1)
    ∧ (∀ r : Fin 2048, lNew (F := Ideal) (iblk1 V c 0 t) (iblk1 V c 1 t) (k1_pay5 (F := Ideal)) (k1_pay6 (F := Ideal)) (ix2 r (0 : Fin 1)) = lAfter (Sc qR kR b n r) 1)
    ∧ (∀ (r : Fin 2048) (d : Fin 64), aNew (F := Ideal) (iblk1 V c 0 t) (iblk1 V c 1 t) (iblk1 V c 2 t) (k1_pay5 (F := Ideal)) (k1_pay7 (F := Ideal)) (ix2 r d) = accAfter (Sc qR kR b n r) (Vd vR b n d) 1) :=
  scratch_step V c qR kR vR hQ hK hV t b n (0 : Fin 8) hb hn (by rw [h0]; rfl) _ _ _
    (fun r => (pay5_apply _).trans (mAfter_zero _).symm)
    (fun r => (pay6_apply _).trans (lAfter_zero _).symm)
    (fun r d => (pay7_apply _).trans (accAfter_zero _ _).symm)

/-- THE INVARIANT after point n: the scratch at the closed forms after n % 8 + 1 tiles of the point's head, the output
    block at the sum of the contributions of the heads finished so far. -/
def Inv (n : ℕ) (hn : n < cfg1.N) : Prop :=
  ∀ (b : Fin 2) (h : Fin 16), b.val = n / 128 → h.val = n / 8 % 16 →
    (∀ r : Fin 2048, (stAt V c n hn).2.1 (ix2 r (0 : Fin 1)) = mAfter (Sc qR kR b h r) (n % 8 + 1))
    ∧ (∀ r : Fin 2048, (stAt V c n hn).2.2.1 (ix2 r (0 : Fin 1)) = lAfter (Sc qR kR b h r) (n % 8 + 1))
    ∧ (∀ (r : Fin 2048) (d : Fin 64), (stAt V c n hn).2.2.2 (ix2 r d) = accAfter (Sc qR kR b h r) (Vd vR b h d) (n % 8 + 1))
    ∧ (∀ (r : Fin 2048) (cc : Fin 1024), (stAt V c n hn).1 (ix3 (0 : Fin 1) r cc)
        = ∑ n' : Fin 16, if n'.val < (n % 128 + 1) / 8 then delta V c qR kR vR b n' r cc else 0)

theorem inv_all : ∀ (n : ℕ) (hn : n < cfg1.N), Inv V c qR kR vR n hn := by
  intro n
  induction n with
  | zero =>
    intro hn b h hb hh
    have e : stAt V c 0 hn = stA V c ⟨0, hn⟩ (Nat.zero_mod _) := stAt_A V c ⟨0, hn⟩ (Nat.zero_mod _)
    obtain ⟨im, il, ia⟩ := scratch_first V c qR kR vR hQ hK hV ⟨0, hn⟩ b h hb hh (Nat.zero_mod _)
    rw [e, stA_eq]
    refine ⟨im, il, ia, fun r cc => ?_⟩
    show k1_pay8 (F := Ideal) (ix3 (0 : Fin 1) r cc) = _
    rw [pay8_apply]
    exact (sum_below_zero _).symm
  | succ n ih =>
    intro hn b h hb hh
    have hN : n + 1 < 256 := lt_of_lt_of_eq hn (show cfg1.N = 256 from N_1)
    have hn' : n < cfg1.N := Nat.lt_of_succ_lt hn
    by_cases h1 : (n + 1) % 128 = 0
    · -- the first point of the second batch
      have e : stAt V c (n + 1) hn = stA V c ⟨n + 1, hn⟩ h1 := stAt_A V c ⟨n + 1, hn⟩ h1
      rw [e, stA_eq]
      obtain ⟨im, il, ia⟩ := scratch_first V c qR kR vR hQ hK hV ⟨n + 1, hn⟩ b h hb hh (by show (n + 1) % 8 = 0; omega)
      have e8 : (n + 1) % 8 + 1 = 1 := by omega
      rw [e8]
      refine ⟨im, il, ia, fun r cc => ?_⟩
      show k1_pay8 (F := Ideal) (ix3 (0 : Fin 1) r cc) = _
      rw [pay8_apply, show ((n + 1) % 128 + 1) / 8 = 0 from by omega]
      exact (sum_below_zero _).symm
    · by_cases h0 : (n + 1) % 8 = 0
      · -- a later head's first key tile: the scratch restarts, the output block stays
        have e : stAt V c (n + 1) hn = stB V c ⟨n + 1, hn⟩ h0 h1 (stAt V c n hn') := stAt_B V c ⟨n + 1, hn⟩ h0 h1
        rw [e, stB_eq]
        obtain ⟨im, il, ia⟩ := scratch_first V c qR kR vR hQ hK hV ⟨n + 1, hn⟩ b h hb hh h0
        have e8 : (n + 1) % 8 + 1 = 1 := by omega
        rw [e8]
        refine ⟨im, il, ia, fun r cc => ?_⟩
        -- the point before is the last key tile of the head before, in the same batch
        have hh1 : 1 ≤ h.val := by omega
        obtain ⟨-, -, -, io⟩ := ih hn' b ⟨h.val - 1, by omega⟩ (by omega) (by show h.val - 1 = n / 8 % 16; omega)
        show (stAt V c n hn').1 (ix3 (0 : Fin 1) r cc) = _
        rw [show ((n + 1) % 128 + 1) / 8 = (n % 128 + 1) / 8 from by omega]
        exact io r cc
      · have hbn : b.val = n / 128 := by omega
        have hhn : h.val = n / 8 % 16 := by omega
        obtain ⟨im, il, ia, io⟩ := ih hn' b h hbn hhn
        have ej : n % 8 + 1 = (n + 1) % 8 := by omega
        rw [ej] at im il ia
        have hj8 : (n + 1) % 8 < 8 := Nat.mod_lt _ (by decide)
        obtain ⟨sm, sl, sa⟩ := scratch_step V c qR kR vR hQ hK hV ⟨n + 1, hn⟩ b h ⟨(n + 1) % 8, hj8⟩ hb hh rfl
          (stAt V c n hn').2.1 (stAt V c n hn').2.2.1 (stAt V c n hn').2.2.2 im il ia
        by_cases h2 : (n + 1) % 8 = 7
        · -- the head's last key tile: its contribution joins the output block
          have e : stAt V c (n + 1) hn = stD V c ⟨n + 1, hn⟩ h2 (stAt V c n hn') := stAt_D V c ⟨n + 1, hn⟩ h2
          rw [e, stD_eq]
          refine ⟨sm, sl, sa, fun r cc => ?_⟩
          show oNew (F := Ideal) (iblk1 V c 3 ⟨n + 1, hn⟩) _ _ (stAt V c n hn').1 (ix3 (0 : Fin 1) r cc) = _
          rw [oNew_apply]
          rw [show ((n + 1) % 128 + 1) / 8 = h.val + 1 from by omega, sum_below_succ]
          have io' := io r cc
          rw [show (n % 128 + 1) / 8 = h.val from by omega] at io'
          refine congrArg₂ (· + ·) io' (Finset.sum_congr rfl fun d _ => ?_)
          have sa' := sa r d
          have sl' := sl r
          rw [show (⟨(n + 1) % 8, hj8⟩ : Fin 8).val + 1 = 8 from by show (n + 1) % 8 + 1 = 8; omega] at sa' sl'
          rw [sa', sl', iblk1_3_apply V c ⟨n + 1, hn⟩ 0 cc d h hh]
        · -- a middle key tile: the output block stays
          have e : stAt V c (n + 1) hn = stC V c ⟨n + 1, hn⟩ h0 h2 (stAt V c n hn') := stAt_C V c ⟨n + 1, hn⟩ h0 h2
          rw [e, stC_eq]
          refine ⟨sm, sl, sa, fun r cc => ?_⟩
          show (stAt V c n hn').1 (ix3 (0 : Fin 1) r cc) = _
          rw [show ((n + 1) % 128 + 1) / 8 = (n % 128 + 1) / 8 from by omega]
          exact io r cc

/-- What the last point of a batch writes back is the batch's block of the sum over the sixteen heads. -/
theorem flushed1_4_eq (t : Fin cfg1.N) (hf : (cfg1.win 4).flush t = true) :
    (dat1 (F := Ideal) V c).flushed 4 t = ((cfg1.win 4).blk t).view.read (Elt Ideal) (result1 V c qR kR vR) := by
  have hN : t.val < 256 := lt_of_lt_of_eq t.isLt N_1
  have h127 : t.val % 128 = 127 := (flush1_4 t).mp hf
  show (cfg1.win 4).cut (grid1.coords t) ((dat1 V c).after 4 t) = _
  rw [after1_4]
  funext y
  obtain ⟨-, -, -, -, -, -, -, -, -, -, -, -, -, -, -, e0, e1, e2⟩ := idx_facts1 t
  have y0 : (y 0).val < 1 := (y 0).isLt
  obtain ⟨-, -, -, io⟩ := inv_all V c qR kR vR hQ hK hV t.val t.isLt ⟨t.val / 128, by omega⟩ ⟨t.val / 8 % 16, by omega⟩ rfl rfl
  exact point1 (fun b r cc => ∑ n : Fin 16, delta V c qR kR vR b n r cc) (stAt V c t.val t.isLt).1 ⟨t.val / 128, by omega⟩
    (fun r cc => by rw [io r cc, show (t.val % 128 + 1) / 8 = 16 from by omega]; exact sum_below_all _)
    y (((cfg1.win 4).blk t).view.emb y)
    (by show win1_4.index t (0 : Fin 3) * 1 + 1 * (y 0).val = t.val / 128; omega)
    (by show win1_4.index t (1 : Fin 3) * 2048 + 1 * (y 1).val = (y 1).val; omega)
    (by show win1_4.index t (2 : Fin 3) * 1024 + 1 * (y 2).val = (y 2).val; omega)

end Induction

/-- THE RESULT of the second region: for query, key and value arrays with real entries, the output array ends holding, at
    (b, s, cc), the sum over the sixteen heads of the head's normalised attention output times its slice of the output
    weights. -/
theorem final1_4 (V : (c : Dev nD) → (b : Ref sig .tc) → Buf (Elt Ideal) ((c : Thread nD τ).loc b)) (c : Dev nD)
    (qR kR vR : Fin 2 → Fin 16 → Fin 2048 → Fin 64 → ℝ)
    (hQ : ∀ b n s d, (V c main_v1_0 : S2x16x2048x64.Idx → EReal) (ix4 b n s d) = ((qR b n s d : ℝ) : EReal))
    (hK : ∀ b n s d, (V c main_v1_1 : S2x16x2048x64.Idx → EReal) (ix4 b n s d) = ((kR b n s d : ℝ) : EReal))
    (hV : ∀ b n s d, (V c main_v1_2 : S2x16x2048x64.Idx → EReal) (ix4 b n s d) = ((vR b n s d : ℝ) : EReal)) :
    (dat1 (F := Ideal) V c).arrAt 4 cfg1.N = result1 V c qR kR vR :=
  (dat1 (F := Ideal) V c).arrAt_eq_of_cover 4 (result1 V c qR kR vR) (fun t hf => flushed1_4_eq V c qR kR vR hQ hK hV t hf) cover1_4

end Cert.KernelIdeal.Gen

end
-- ==== Proof.FiniteInputs.lean ====
/- The precondition, read: the five argument arrays hold no infinity. The precondition is five "every |x| is below +inf"
   tests and-ed together; an and of bits that is 1 has every bit 1, a reduce by and that is 1 had a 1 at every index,
   and |x| < +inf over the extended reals says x is neither infinity. -/
import proofs.«110170_j50130858279277_2_alg».proof.Defs
import proofs.«110170_j50130858279277_2_alg».proof.Proof.Gen.Pre_finite_inputs
import proofs.«110170_j50130858279277_2_alg».proof.Proof.AttnSpec
import Idealize.ShloMosaic.Lib.ReduceAll
import Idealize.ShloMosaic.Lib.Affine
import Idealize.ShloMosaic.Lib.ValueIdx

noncomputable section

namespace Cert.Proof.FiniteInputs

open Idealize.ShloMosaic Idealize.ShloMosaic.TcCoe Idealize.SL.Sem
open Idealize.ShloMosaic.ValueIdx
open Cert.Proof.AttnSpec (Finite Arr2 Arr3)

/-- The scalar shape has one index. -/
instance : Subsingleton Cert.Pre_finite_inputs.S_.Idx := ⟨fun a b => funext fun d => d.elim0⟩

/-- The pattern 0x7F800000 is +inf. -/
theorem inf_bits : Ideal.ofBits .f32 0x7F800000#32 = (⊤ : EReal) := by simp [Ideal.ofBits, Ideal.ieee]

/-- |x| < +inf says x is neither infinity. -/
theorem ne_of_abs_lt (x : EReal) (h : Ideal.cmp .olt (max x (-x)) (Ideal.ofBits .f32 0x7F800000#32) = 1#1) : x ≠ ⊥ ∧ x ≠ ⊤ := by
  rw [inf_bits] at h
  have h' : max x (-x) < ⊤ := by
    by_contra hn
    simp [Ideal.cmp, hn] at h
  induction x using EReal.rec with
  | bot => simp at h'
  | top => simp at h'
  | coe r => exact ⟨EReal.coe_ne_bot r, EReal.coe_ne_top r⟩

/-- One test of the precondition: if every |x i| < +inf, reduced by and, is 1, the array holds no infinity. -/
theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x) (broadcastInDim s ![] hb (constant (F := Ideal) Cert.Pre_finite_inputs.S_ .f32 0x7F800000#32))) init hr hu ix0 = 1#1) :
    Finite x := fun i =>
  ne_of_abs_lt (x i) (Host.reduce_andi_all _ init hr hu ix0 e i)

/-- THE PRECONDITION, READ: on every device each of the five argument arrays holds no infinity. -/
theorem finite_of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0) : Arr3)
    ∧ Finite (m ((c.tc : Thread Cert.KernelIdeal.nD Cert.KernelIdeal.τ).loc Cert.KernelIdeal.main_arg1) : Arr2)
    ∧ Finite (m ((c.tc : Thread Cert.KernelIdeal.nD Cert.KernelIdeal.τ).loc Cert.KernelIdeal.main_arg2) : Arr2)
    ∧ Finite (m ((c.tc : Thread Cert.KernelIdeal.nD Cert.KernelIdeal.τ).loc Cert.KernelIdeal.main_arg3) : Arr2)
    ∧ Finite (m ((c.tc : Thread Cert.KernelIdeal.nD Cert.KernelIdeal.τ).loc Cert.KernelIdeal.main_arg4) : Arr2) := by
  have h0 := congrFun (h c) ix0
  dsimp only [Cert.Pre_finite_inputs.fn, Cert.Pre_finite_inputs.fn_part1] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨finite_of_all _ _ _ _ _ e0, finite_of_all _ _ _ _ _ e1, finite_of_all _ _ _ _ _ e2, finite_of_all _ _ _ _ _ e3,
    finite_of_all _ _ _ _ _ e4⟩

end Cert.Proof.FiniteInputs
end
-- ==== Proof.RefIsSpec.lean ====
/-
  The reference program computes the specification: its last stage, read one operation at a time at an index, is
  AttnSpec.spec of its five argument arrays.

  The stages, in the order the program computes them, each at an index built from its coordinates:
    the three projections (a product with a weight matrix, a split of the 1024 features into 16 heads of 64, a
      transposition of the position and head axes) are AttnSpec.proj;
    the scores (a batched product over the head coordinate, divided by the constant 8) are AttnSpec.score; the mask is
      the comparison 1 = 0 of two constants, false everywhere, so the select keeps the scores;
    the row maximum (a fold of max from -∞ over the last axis, then a max with -∞) is AttnSpec.rowMax;
    the exponentials, their row sums (from 0) and the quotients are AttnSpec.expo, AttnSpec.denom and their quotient;
    the weighted sum of the values is AttnSpec.attn, and after the heads are laid side by side again the product with
      the output weights is AttnSpec.out.
-/
import proofs.«110170_j50130858279277_2_alg».proof.Proof.RefReadP
import proofs.«110170_j50130858279277_2_alg».proof.Proof.AttnSpec

noncomputable section

open scoped BigOperators

namespace Cert.Proof.RefIsSpec

open Cert.ReferenceIdeal Cert.ReferenceIdeal.Gen Cert.ReferenceIdeal.ReadP Idealize.ShloMosaic Idealize.ShloMosaic.ValueIdx
open Cert.Proof.AttnSpec

/-! ## Constants -/

theorem ofBits_eight : Ideal.ofBits .f32 0x41000000#32 = ((8 : ℝ) : EReal) := by
  simp [Ideal.ofBits, Ideal.ieee, -EReal.coe_mul]; norm_num
theorem ofBits_one : Ideal.ofBits .f32 0x3F800000#32 = 1 := by
  simp [Ideal.ofBits, Ideal.ieee, -EReal.coe_mul]; norm_num
theorem ofBits_neg_inf : Ideal.ofBits .f32 0xFF800000#32 = ⊥ := by
  simp [Ideal.ofBits, Ideal.ieee]

/-! ## Index equations -/

section Idx
variable (b : Fin 2) (n : Fin 16) (s t : Fin 2048) (d : Fin 64) (h j : Fin 1024)

/-- Splitting the features into heads: element (b, t, n, d) of the split array is element (b, t, 64 n + d). -/
theorem idx_split : idx_main_v1 (ix4 b t n d) = ix3 b t (hcol n d) := by
  have hb := b.isLt; have ht := t.isLt; have hn := n.isLt; have hd := d.isLt
  funext a; apply Fin.ext
  match a with
  | ⟨0, _⟩ => show (((b.val * 2048 + t.val) * 16 + n.val) * 64 + d.val) / 2097152 = b.val; omega
  | ⟨1, _⟩ => show (((b.val * 2048 + t.val) * 16 + n.val) * 64 + d.val) / 1024 % 2048 = t.val; omega
  | ⟨2, _⟩ => show (((b.val * 2048 + t.val) * 16 + n.val) * 64 + d.val) % 1024 = n.val * 64 + d.val; omega

/-- Laying the heads side by side: element (b, s, h) of the joined array is element (b, s, h / 64, h % 64). -/
theorem idx_join : idx_main_v29 (ix3 b s h) = ix4 b s (headOf h) (dimOf h) := by
  have hb := b.isLt; have hs := s.isLt; have hh := h.isLt
  funext a; apply Fin.ext
  match a with
  | ⟨0, _⟩ => show ((b.val * 2048 + s.val) * 1024 + h.val) / 2097152 = b.val; omega
  | ⟨1, _⟩ => show ((b.val * 2048 + s.val) * 1024 + h.val) / 1024 % 2048 = s.val; omega
  | ⟨2, _⟩ => show ((b.val * 2048 + s.val) * 1024 + h.val) / 64 % 16 = h.val / 64; omega
  | ⟨3, _⟩ => show ((b.val * 2048 + s.val) * 1024 + h.val) % 64 = h.val % 64; omega

theorem idx_tr_in : idx_main_v2 (ix4 b n s d) = ix4 b s n d :=
  funext fun a => Fin.ext (by match a with | ⟨0, _⟩ => rfl | ⟨1, _⟩ => rfl | ⟨2, _⟩ => rfl | ⟨3, _⟩ => rfl)
theorem idx_tr_out : idx_main_v28 (ix4 b s n d) = ix4 b n s d :=
  funext fun a => Fin.ext (by match a with | ⟨0, _⟩ => rfl | ⟨1, _⟩ => rfl | ⟨2, _⟩ => rfl | ⟨3, _⟩ => rfl)
theorem lidx_proj : lidx_main_v0 (ix3 b s h) j = ix3 b s j :=
  funext fun a => Fin.ext (by match a with | ⟨0, _⟩ => rfl | ⟨1, _⟩ => rfl | ⟨2, _⟩ => rfl)
theorem ridx_proj : ridx_main_v0 (ix3 b s h) j = ix2 h j :=
  funext fun a => Fin.ext (by match a with | ⟨0, _⟩ => rfl | ⟨1, _⟩ => rfl)
theorem lidx_score : lidx_main_v9 (ix4 b n s t) d = ix4 b n s d :=
  funext fun a => Fin.ext (by match a with | ⟨0, _⟩ => rfl | ⟨1, _⟩ => rfl | ⟨2, _⟩ => rfl | ⟨3, _⟩ => rfl)
theorem ridx_score : ridx_main_v9 (ix4 b n s t) d = ix4 b n t d :=
  funext fun a => Fin.ext (by match a with | ⟨0, _⟩ => rfl | ⟨1, _⟩ => rfl | ⟨2, _⟩ => rfl | ⟨3, _⟩ => rfl)
theorem idx_row : idx_main_v19 (idx_main_v20 (ix4 b n s t)) = ix3 b n s :=
  funext fun a => Fin.ext (by match a with | ⟨0, _⟩ => rfl | ⟨1, _⟩ => rfl | ⟨2, _⟩ => rfl)
theorem idx_row' : idx_main_v24 (idx_main_v25 (ix4 b n s t)) = ix3 b n s :=
  funext fun a => Fin.ext (by match a with | ⟨0, _⟩ => rfl | ⟨1, _⟩ => rfl | ⟨2, _⟩ => rfl)
theorem idx_sum : idx_main_v23 (ix3 b n s) t = ix4 b n s t :=
  funext fun a => Fin.ext (by match a with | ⟨0, _⟩ => rfl | ⟨1, _⟩ => rfl | ⟨2, _⟩ => rfl | ⟨3, _⟩ => rfl)
theorem lidx_attn : lidx_main_v27 (ix4 b n s d) t = ix4 b n s t :=
  funext fun a => Fin.ext (by match a with | ⟨0, _⟩ => rfl | ⟨1, _⟩ => rfl | ⟨2, _⟩ => rfl | ⟨3, _⟩ => rfl)
theorem ridx_attn : ridx_main_v27 (ix4 b n s d) t = ix4 b n t d :=
  funext fun a => Fin.ext (by match a with | ⟨0, _⟩ => rfl | ⟨1, _⟩ => rfl | ⟨2, _⟩ => rfl | ⟨3, _⟩ => rfl)
theorem lidx_out : lidx_main_v30 (ix3 b s h) j = ix3 b s j :=
  funext fun a => Fin.ext (by match a with | ⟨0, _⟩ => rfl | ⟨1, _⟩ => rfl | ⟨2, _⟩ => rfl)
theorem ridx_out : ridx_main_v30 (ix3 b s h) j = ix2 h j :=
  funext fun a => Fin.ext (by match a with | ⟨0, _⟩ => rfl | ⟨1, _⟩ => rfl)

/-- The reduction of the last axis as a fact about the two shapes. -/
theorem red_last : S2x16x2048x2048.Reduces [3] S2x16x2048 := by decide

/-- Row (b, n, s) with column t put back is (b, n, s, t). -/
theorem lift_row (k : Fin (S2x16x2048x2048.size 3)) : red_last.lift (ix3 b n s) k = ix4 b n s (⟨k.val, k.isLt⟩ : Fin 2048) := by
  funext c; apply Fin.ext
  fin_cases c <;> rfl

end Idx

/-! ## The stages -/

section Stages
variable (x0 : (⟨S2x2048x1024, .f32⟩ : BufTy).Contents (Elt Ideal)) (x1 x2 x3 x4 : (⟨S1024x1024, .f32⟩ : BufTy).Contents (Elt Ideal))
variable (b : Fin 2) (n : Fin 16) (s t : Fin 2048) (d : Fin 64) (c : Fin 1024)

theorem v2_eq : val_main_v2 (F := Ideal) x0 x1 (ix4 b n s d) = proj x0 x1 b n s d := by
  rw [val_main_v2_apply, idx_tr_in, val_main_v1_apply, idx_split, val_main_v0_apply]
  unfold proj
  refine Finset.sum_congr rfl fun j _ => ?_
  rw [lidx_proj, ridx_proj]

theorem v5_eq : val_main_v5 (F := Ideal) x0 x2 (ix4 b n s d) = proj x0 x2 b n s d := v2_eq x0 x2 b n s d

theorem v8_eq : val_main_v8 (F := Ideal) x0 x3 (ix4 b n s d) = proj x0 x3 b n s d := v2_eq x0 x3 b n s d

theorem v11_eq : val_main_v11 (F := Ideal) x0 x1 x2 (ix4 b n s t) = score x0 x1 x2 b n s t := by
  rw [val_main_v11_apply, val_main_v10_apply, val_main_cst_apply, val_main_v9_apply]
  unfold score
  rw [Ideal.hostDivf_def, Ideal.ofBits_def, ofBits_eight]
  congr 1
  refine Finset.sum_congr rfl fun d _ => ?_
  rw [lidx_score, ridx_score, v2_eq, v5_eq]

/-- The mask compares the constants 1 and 0 for equality: it is false. -/
theorem mask_false : FloatOps.cmpf (F := Ideal) .oeq (FloatOps.ofBits .f32 0x3F800000#32) (FloatOps.ofBits .f32 0x00000000#32) = 0#1 := by
  show Ideal.cmp .oeq (Ideal.ofBits .f32 0x3F800000#32) (Ideal.ofBits .f32 0x00000000#32) = 0#1
  rw [ofBits_one, Ideal.ofBits_zero_f32]
  simp [Ideal.cmp]

theorem v15_eq : val_main_v15 (F := Ideal) x0 x1 x2 (ix4 b n s t) = score x0 x1 x2 b n s t := by
  rw [val_main_v15_apply, val_main_call0_v1_apply, val_main_v14_apply, val_main_v12_apply, val_main_v13_apply,
    val_main_cst_0_apply, val_main_cst_1_apply, mask_false, select_zero, v11_eq]

theorem v16_eq : val_main_v16 (F := Ideal) x0 x1 x2 (ix3 b n s) = rowMax x0 x1 x2 b n s := by
  unfold val_main_v16 rowMax
  rw [Host.reduce_eq_fold_single FloatOps.maximumf _ _ reducesTo_S2x16x2048x2048_S2x16x2048_d3 red_last h_S_]
  have hbot : val_main_cst_3 (F := Ideal) (Shape.Idx.first h_S_) = ⊥ := ofBits_neg_inf
  rw [hbot]
  show Finset.univ.sup _ = _
  refine congrArg (Finset.sup Finset.univ) (funext fun k => ?_)
  show val_main_v15 (F := Ideal) x0 x1 x2 (red_last.lift (ix3 b n s) k) = _
  rw [lift_row, v15_eq]
  rfl

theorem v18_eq : val_main_v18 (F := Ideal) x0 x1 x2 (ix3 b n s) = rowMax x0 x1 x2 b n s := by
  rw [val_main_v18_apply, val_main_v17_apply, val_main_cst_4_apply, v16_eq]
  show max (Ideal.ofBits .f32 0xFF800000#32) _ = _
  rw [ofBits_neg_inf]
  exact max_bot_left _

theorem v22_eq : val_main_v22 (F := Ideal) x0 x1 x2 (ix4 b n s t) = expo x0 x1 x2 b n s t := by
  rw [val_main_v22_apply, val_main_v21_apply, v15_eq, val_main_v20_apply, val_main_v19_apply, idx_row, v18_eq]
  rfl

theorem v23_eq : val_main_v23 (F := Ideal) x0 x1 x2 (ix3 b n s) = denom x0 x1 x2 b n s := by
  rw [val_main_v23_apply, val_main_cst_5_apply, Ideal.ofBits_def, Ideal.ofBits_zero_f32, zero_add]
  unfold denom
  refine Finset.sum_congr rfl fun t _ => ?_
  rw [idx_sum, v22_eq]

theorem v26_eq : val_main_v26 (F := Ideal) x0 x1 x2 (ix4 b n s t)
    = Ideal.div (expo x0 x1 x2 b n s t) (denom x0 x1 x2 b n s) := by
  rw [val_main_v26_apply, v22_eq, val_main_v25_apply, val_main_v24_apply, idx_row', v23_eq]
  rfl

theorem v27_eq : val_main_v27 (F := Ideal) x0 x1 x2 x3 (ix4 b n s d) = attn x0 x1 x2 x3 b n s d := by
  rw [val_main_v27_apply]
  unfold attn
  refine Finset.sum_congr rfl fun t _ => ?_
  rw [lidx_attn, ridx_attn, v26_eq, v8_eq]

theorem v30_eq : val_main_v30 (F := Ideal) x0 x1 x2 x3 x4 (ix3 b s c) = out x0 x1 x2 x3 x4 b s c := by
  rw [val_main_v30_apply]
  unfold out
  refine Finset.sum_congr rfl fun h _ => ?_
  rw [lidx_out, ridx_out, val_main_v29_apply, idx_join, val_main_v28_apply, idx_tr_out, v27_eq]

/-- The reference's last stage is the specification. -/
theorem ref_is_spec : val_main_v30 (F := Ideal) x0 x1 x2 x3 x4 = spec x0 x1 x2 x3 x4 := by
  funext i
  obtain ⟨b, s, c, rfl⟩ : ∃ (b : Fin 2) (s : Fin 2048) (c : Fin 1024), i = ix3 b s c := ⟨i 0, i 1, i 2, eq_ix3 i⟩
  rw [v30_eq, spec_ix3]

end Stages

/-! ## At the run's result -/

open Idealize.ShloMosaic.TcCoe Idealize.SL.Sem in
/-- The value the reference's run leaves in its result buffer is the specification of the launch contents of its five
    argument buffers. -/
theorem res_is_spec (m : (ℓ : Loc nD τ sig) → Buf (Elt Ideal) ℓ) (c : Dev nD) :
    Cert.ReferenceIdeal.ValueP.res_main_v30 (F := Ideal) m c
      = spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v30_eq, ref_is_spec]

end Cert.Proof.RefIsSpec

end
-- ==== Proof.KernelValue.lean ====
/- THE KERNEL'S VALUE AND THE VALUE CLAIM. Multi-head softmax attention with an output projection: the kernel computes
   q, k, v = the activations projected by three weights (region 0), then per batch and head the online softmax of the
   scaled scores q k^T over 8 tiles of key positions, the quotient against v, and its product with the head's slice of the
   fourth weight, accumulated over the 16 heads (region 1). Here: what region 1 is entered with as functions of the launch
   memory (the three projections; the fourth weight head by head), region 1's value at those, and the law that joins the
   two sides: for arguments without infinities the online quotient after the eighth tile is the softmax-weighted sum, and a
   sum over 1024 features is the double sum over 16 heads and 64 coordinates — so the kernel's result array is the
   specification, which the reference's last stage also is. -/
import proofs.«110170_j50130858279277_2_alg».proof.Defs
import proofs.«110170_j50130858279277_2_alg».proof.Proof.Assembly
import proofs.«110170_j50130858279277_2_alg».proof.Proof.Region0Value
import proofs.«110170_j50130858279277_2_alg».proof.Proof.R1Value
import proofs.«110170_j50130858279277_2_alg».proof.Proof.FiniteInputs
import proofs.«110170_j50130858279277_2_alg».proof.Proof.OnlineSoftmax
import proofs.«110170_j50130858279277_2_alg».proof.Proof.AttnSpec
import proofs.«110170_j50130858279277_2_alg».proof.Proof.RefIsSpec
import proofs.«110170_j50130858279277_2_alg».proof.Proof.RefRunP
import Idealize.ShloMosaic.Lib.Pipeline.Value
import Idealize.ShloMosaic.Lib.ValueIdx
import Idealize.ShloMosaic.Lib.ValueLayout

noncomputable section

open scoped BigOperators

namespace Cert.KernelIdeal.Gen

open Idealize.ShloMosaic Idealize.ShloMosaic.TcCoe Idealize.SL.Sem
open Idealize.ShloMosaic.ValueIdx
open Cert.Proof.AttnSpec Cert.Proof.OnlineSoftmax

variable (m : (ℓ : Loc nD τ sig) → Buf (Elt Ideal) ℓ) (ρ : Dev nD → PrngReg)

/-! ## What the two regions are entered with, as functions of the launch memory -/

/-- Region 0 is entered with the activations as launched: the rounding to the narrower format is the identity at the
    ideal values. -/
theorem V1_main_v0_ideal (c : Dev nD) : (V1 (F := Ideal) m ρ c main_v0 : Arr3) = m ((c : Thread nD τ).loc main_arg0) :=
  (V1_main_v0 (F := Ideal) m ρ c).trans rfl

/-- Region 1 is entered with q = the projection of the activations by the first weight, -/
theorem entry_q (c : Dev nD) (b : Fin 2) (n : Fin 16) (s : Fin 2048) (d : Fin 64) :
    (V3 (F := Ideal) m ρ c main_v1_0 : S2x16x2048x64.Idx → EReal) (ix4 b n s d)
      = proj (m ((c : Thread nD τ).loc main_arg0)) (m ((c : Thread nD τ).loc main_arg1)) b n s d := by
  refine (congrFun ((V3_main_v1_0 (F := Ideal) m ρ c).trans (final0_4 (V1 m ρ) c)) (ix4 b n s d)).trans ?_
  show proj (V1 m ρ c main_v0) (V1 m ρ c main_arg1) b n s d = _
  rw [V1_main_v0_ideal, V1_main_arg1]
/-- k = the projection by the second, -/
theorem entry_k (c : Dev nD) (b : Fin 2) (n : Fin 16) (s : Fin 2048) (d : Fin 64) :
    (V3 (F := Ideal) m ρ c main_v1_1 : S2x16x2048x64.Idx → EReal) (ix4 b n s d)
      = proj (m ((c : Thread nD τ).loc main_arg0)) (m ((c : Thread nD τ).loc main_arg2)) b n s d := by
  refine (congrFun ((V3_main_v1_1 (F := Ideal) m ρ c).trans (final0_5 (V1 m ρ) c)) (ix4 b n s d)).trans ?_
  show proj (V1 m ρ c main_v0) (V1 m ρ c main_arg2) b n s d = _
  rw [V1_main_v0_ideal, V1_main_arg2]
/-- v = the projection by the third, -/
theorem entry_v (c : Dev nD) (b : Fin 2) (n : Fin 16) (s : Fin 2048) (d : Fin 64) :
    (V3 (F := Ideal) m ρ c main_v1_2 : S2x16x2048x64.Idx → EReal) (ix4 b n s d)
      = proj (m ((c : Thread nD τ).loc main_arg0)) (m ((c : Thread nD τ).loc main_arg3)) b n s d := by
  refine (congrFun ((V3_main_v1_2 (F := Ideal) m ρ c).trans (final0_6 (V1 m ρ) c)) (ix4 b n s d)).trans ?_
  show proj (V1 m ρ c main_v0) (V1 m ρ c main_arg3) b n s d = _
  rw [V1_main_v0_ideal, V1_main_arg3]

/-- and the last weight head by head: entry (n, c, d) of the [16, 1024, 64] view is Wo[c, 64 n + d]. -/
theorem entry_wo (c : Dev nD) (n : Fin 16) (cc : Fin 1024) (d : Fin 64) :
    (V3 (F := Ideal) m ρ c main_v3 : S16x1024x64.Idx → EReal) (ix3 n cc d)
      = (m ((c : Thread nD τ).loc main_arg4) : Arr2) (ix2 cc (hcol n d)) := by
  refine (congrFun (V3_main_v3 (F := Ideal) m ρ c) (ix3 n cc d)).trans ?_
  refine (transpose_apply [1, 0, 2] _ _ (ix3 n cc d) (ix3 cc n d) fun a => ?_).trans ?_
  · match a with
    | ⟨0, _⟩ => rfl
    | ⟨1, _⟩ => rfl
    | ⟨2, _⟩ => rfl
  refine shapeCast_apply _ _ (ix3 cc n d) (ix2 cc (hcol n d)) ?_
  rw [Shape.rowMajor_val_two, Shape.rowMajor_val_three]
  show cc.val * 1024 + (n.val * 64 + d.val) = (cc.val * 16 + n.val) * 64 + d.val
  omega

/-! ## The kernel's result -/

/-- THE KERNEL'S RESULT: under the precondition (no argument holds an infinity) what region 1's write-backs leave in the
    result array is the specification of the five arguments. Region 1's value is the sum over the heads of the online
    softmax quotient against the last weight; each quotient is the head's attention output; the sum over heads and
    coordinates is the sum over the 1024 features. -/
theorem kernel_result (hpre : Cert.Pre_KernelIdeal m) (c : Dev nD) :
    (dat1 (F := Ideal) (V3 m ρ) c).arrAt 4 cfg1.N
      = spec (m ((c : Thread nD τ).loc main_arg0)) (m ((c : Thread nD τ).loc main_arg1)) (m ((c : Thread nD τ).loc main_arg2))
          (m ((c : Thread nD τ).loc main_arg3)) (m ((c : Thread nD τ).loc main_arg4)) := by
  obtain ⟨hX, hq, hk, hv, ho⟩ := Cert.Proof.FiniteInputs.finite_of_pre m hpre c
  rw [final1_4 (V3 m ρ) c
    (projR (m ((c : Thread nD τ).loc main_arg0)) (m ((c : Thread nD τ).loc main_arg1)))
    (projR (m ((c : Thread nD τ).loc main_arg0)) (m ((c : Thread nD τ).loc main_arg2)))
    (projR (m ((c : Thread nD τ).loc main_arg0)) (m ((c : Thread nD τ).loc main_arg3)))
    (fun b n s d => (entry_q m ρ c b n s d).trans (proj_eq_coe hX hq b n s d))
    (fun b n s d => (entry_k m ρ c b n s d).trans (proj_eq_coe hX hk b n s d))
    (fun b n s d => (entry_v m ρ c b n s d).trans (proj_eq_coe hX hv b n s d))]
  unfold result1
  funext i
  obtain ⟨b, s, cc, rfl⟩ : ∃ (b : Fin 2) (s : Fin 2048) (cc : Fin 1024), i = ix3 b s cc := ⟨i 0, i 1, i 2, eq_ix3 i⟩
  show (∑ n : Fin 16, delta (V3 m ρ) c _ _ _ b n s cc) = _
  rw [spec_ix3, out_eq_heads]
  refine Finset.sum_congr rfl fun n _ => ?_
  unfold delta
  refine Finset.sum_congr rfl fun d _ => ?_
  rw [attn_eq_online hX hq hk hv, entry_wo]
  rfl

end Cert.KernelIdeal.Gen

namespace Cert.Proof

open Idealize.ShloMosaic Idealize.ShloMosaic.TcCoe Idealize.SL.Sem
open Cert.Proof.AttnSpec

/-- THE VALUE CLAIM: from memories agreeing on the five arguments and holding no infinity there, both programs run to the
    end and leave the specification of the arguments in their result arrays, the arguments unchanged: the kernel by the run
    through its two regions and kernel_result, the reference by its run and "the reference's last stage is the
    specification". -/
theorem algebraic : Cert.algebraic_KernelIdeal_ReferenceIdeal := by
  intro m ρ m' ρ' hpre hagree
  refine ⟨fun c => spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Gen.mem_uc Cert.KernelIdeal.main_v4 (by decide))).trans
          ((Cert.KernelIdeal.Gen.W4_main_v4 m ρ c).trans (Cert.KernelIdeal.Gen.kernel_result m ρ hpre c)),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c)⟩)
      (Cert.KernelIdeal.Gen.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Proof.RefIsSpec.res_is_spec, (hagree c).1, (hagree c).2.1, (hagree c).2.2.1, (hagree c).2.2.2.1, (hagree c).2.2.2.2]

end Cert.Proof

end
-- ==== Proof.RefFrame.lean ====
/-
  The reference program has no kernel: its frame is its run with the result dropped. The run (every weakly fair
  execution terminates, nothing faults, each result at the operations' composed term, the arguments unchanged) is the
  imported run module's; here only the projection to "the arguments are unchanged".
-/
import proofs.«110170_j50130858279277_2_alg».proof.Defs
import proofs.«110170_j50130858279277_2_alg».proof.Proof.Gen.ReferenceIdeal
import proofs.«110170_j50130858279277_2_alg».proof.Proof.Gen.Pre_finite_inputs
import proofs.«110170_j50130858279277_2_alg».proof.Proof.RefRunP

noncomputable section

namespace Cert.Proof.RefFrame

open Idealize.ShloMosaic Idealize.SL.Sem

/-- The reference runs to the end from any memory, faults nowhere, and leaves its five argument arrays as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.lean ====
/- Multi-head softmax attention with an output projection, on [2, 2048, 1024] activations with four [1024, 1024] weights,
   16 heads of dimension 64. The kernel runs two pipelined regions: the first projects the activations by three weights into
   q, k, v per batch and head; the second, per batch, head and tile of 256 key positions, keeps a running maximum, a
   running denominator and a running numerator of the softmax of the scaled scores q k^T / 8 (rescaling both by the
   exponential of the old maximum minus the new one), and after a head's eighth tile adds the quotient's product with that
   head's slice of the fourth weight onto the result block. The reference computes the same attention in one pass: scores,
   row maximum, exponentials, their sum, the weighted sum of v, the output projection.
   The claims: both the program as compiled and its idealization run to the end, fault nowhere and leave the five
   arguments as launched (the run through the host stretches and the two regions); so does the reference; the
   idealization differs from the compiled program in one named constant, the finite stand-in for -inf, whose table value is
   ⊥; and at the ideal values, for arguments without infinities, both sides leave ONE function of the arguments in their
   result arrays. The law that joins them: after the last tile the running numerator over the running denominator is
   ∑ t, (exp (S t - M) / ∑ t', exp (S t' - M)) * V t with M the row's maximum — exp (a - m) * exp (m - m') = exp (a - m')
   and a positive denominator — and a sum over the 1024 features is the double sum over heads and coordinates. -/
import proofs.«110170_j50130858279277_2_alg».proof.Defs
import proofs.«110170_j50130858279277_2_alg».proof.Proof.KAssembly
import proofs.«110170_j50130858279277_2_alg».proof.Proof.KernelValue
import proofs.«110170_j50130858279277_2_alg».proof.Proof.RefFrame

noncomputable section

namespace Cert.Proof

open Idealize.ShloMosaic Idealize.SL.Sem

/-- The one rewrite of the idealization: the kernel's large negative stand-in for "no score yet" is named, and the
    name's value in the table is ⊥. -/
theorem preserves : Cert.preserves_Kernel_KernelIdeal :=
  IdealRules.named_const.statement Cert.KernelIdeal.κ "neg_big" .f32 0xFF333332#32 ⊥ rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame (F := Bits) m ρ,
    fun m ρ _ => Cert.KernelIdeal.Gen.frame (F := Ideal) m ρ,
    Cert.Proof.RefFrame.frame_ri,
    preserves,
    algebraic⟩

end Cert.Proof

end
